-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S32x128 : Shape := ⟨2, ![32, 128]⟩
abbrev S32x32 : Shape := ⟨2, ![32, 32]⟩
abbrev S32 : Shape := ⟨1, ![32]⟩
abbrev S40x32 : Shape := ⟨2, ![40, 32]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S32x128 : S_.BroadcastsInDim S32x128 (![] : Fin 0 → Fin S32x128.rank)
  reducesTo_S32x128_S_d0_1 : S32x128.ReducesTo [0, 1] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S40x32 : S_.BroadcastsInDim S40x32 (![] : Fin 0 → Fin S40x32.rank)
  reducesTo_S40x32_S_d0_1 : S40x32.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S32 .f32) (main_arg6 : FVec F S40x32 .f32) (main_arg7 : FVec F S40 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S40x32 .f32 := Host.absf main_arg6
  let main_cst_8 : FVec F S_ .f32 := constant S_ .f32 0x7F800000#32
  let main_v25 : FVec F S40x32 .f32 := broadcastInDim S40x32 ![] bcast_S_S40x32 main_cst_8
  let main_v26 : IVec S40x32 1 := cmpf .olt main_v24 main_v25
  let main_c_9 : IVec S_ 1 := constantI S_ 1 1#1
  let main_v27 : IVec S_ 1 := (fun x v => Host.reduce IntOp.andi x v reducesTo_S40x32_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S32x128 .f32) (main_arg3 : FVec F S32x128 .f32) (main_arg4 : FVec F S32x32 .f32) (main_arg5 : FVec F S32 .f32) (main_arg6 : FVec F S40x32 .f32) (main_arg7 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S32x128 .f32 := Host.absf main_arg2
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S32x128 .f32 := Host.absf main_arg3
  let main_cst_2 : FVec F S_ .f32 := constant S_ .f32 0x7F800000#32
  let main_v10 : FVec F S32x128 .f32 := broadcastInDim S32x128 ![] bcast_S_S32x128 main_cst_2
  let main_v11 : IVec S32x128 1 := cmpf .olt main_v9 main_v10
  let main_c_3 : IVec S_ 1 := constantI S_ 1 1#1
  let main_v12 : IVec S_ 1 := (fun x v => Host.reduce IntOp.andi x v reducesTo_S32x128_S_d0_1 h_S_) main_v11 main_c_3
  let main_v13 : IVec S_ 1 := andi main_v8 main_v12
  let main_v14 : FVec F S32x32 .f32 := Host.absf main_arg4
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S32x128 : Shape := ⟨2, ![32, 128]⟩
abbrev S32x32 : Shape := ⟨2, ![32, 32]⟩
abbrev S32 : Shape := ⟨1, ![32]⟩
abbrev S40x32 : Shape := ⟨2, ![40, 32]⟩
abbrev S40 : Shape := ⟨1, ![40]⟩
abbrev S1x800000 : Shape := ⟨2, ![1, 800000]⟩
abbrev S800000 : Shape := ⟨1, ![800000]⟩
abbrev S128x32 : Shape := ⟨2, ![128, 32]⟩
abbrev S32x40 : Shape := ⟨2, ![32, 40]⟩
abbrev S50000x32 : Shape := ⟨2, ![50000, 32]⟩
abbrev S5000x128 : Shape := ⟨2, ![5000, 128]⟩
abbrev S5000x32 : Shape := ⟨2, ![5000, 32]⟩
abbrev S_ : Shape := ⟨0, ![]⟩
abbrev S800000x1 : Shape := ⟨2, ![800000, 1]⟩
abbrev S800000x32 : Shape := ⟨2, ![800000, 32]⟩
abbrev S50000 : Shape := ⟨1, ![50000]⟩
abbrev S50000x1 : Shape := ⟨2, ![50000, 1]⟩
abbrev S50000x40 : Shape := ⟨2, ![50000, 40]⟩
abbrev S5000x40 : Shape := ⟨2, ![5000, 40]⟩
abbrev S5000 : Shape := ⟨1, ![5000]⟩
abbrev S5000x1 : Shape := ⟨2, ![5000, 1]⟩
abbrev S1x32 : Shape := ⟨2, ![1, 32]⟩
abbrev S1x40 : Shape := ⟨2, ![1, 40]⟩

abbrev nBuf : Space → Nat
  | .hbm => 44
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S32x128, .f32⟩
  | .hbm, ⟨3, _⟩ => ⟨S32x128, .f32⟩
  | .hbm, ⟨4, _⟩ => ⟨S32x32, .f32⟩
  | .hbm, ⟨5, _⟩ => ⟨S32, .f32⟩
  | .hbm, ⟨6, _⟩ => ⟨S40x32, .f32⟩
  | .hbm, ⟨7, _⟩ => ⟨S40, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S128x32, .f32⟩
  | .hbm, ⟨13, _⟩ => ⟨S128x32, .f32⟩
  | .hbm, ⟨14, _⟩ => ⟨S32x32, .f32⟩
  | .hbm, ⟨15, _⟩ => ⟨S32x40, .f32⟩
  | .hbm, ⟨16, _⟩ => ⟨S50000x32, .f32⟩
  | .hbm, ⟨17, _⟩ => ⟨S50000x32, .f32⟩
  | .hbm, ⟨18, _⟩ => ⟨S_, .i32⟩
  | .hbm, ⟨19, _⟩ => ⟨S800000, .i32⟩
  | .hbm, ⟨20, _⟩ => ⟨S800000, .i1⟩
  | .hbm, ⟨21, _⟩ => ⟨S_, .i32⟩
  | .hbm, ⟨22, _⟩ => ⟨S800000, .i32⟩
  | .hbm, ⟨23, _⟩ => ⟨S800000, .i32⟩
  | .hbm, ⟨24, _⟩ => ⟨S800000, .i32⟩
  | .hbm, ⟨25, _⟩ => ⟨S800000x1, .i32⟩
  | .hbm, ⟨26, _⟩ => ⟨S800000x32, .f32⟩
  | .hbm, ⟨27, _⟩ => ⟨S_, .f32⟩
  | .hbm, ⟨28, _⟩ => ⟨S50000x32, .f32⟩
  | .hbm, ⟨29, _⟩ => ⟨S800000x1, .i32⟩
  | .hbm, ⟨30, _⟩ => ⟨S50000x32, .f32⟩
  | .hbm, ⟨31, _⟩ => ⟨S_, .f32⟩
  | .hbm, ⟨32, _⟩ => ⟨S800000, .f32⟩
  | .hbm, ⟨33, _⟩ => ⟨S_, .f32⟩
  | .hbm, ⟨34, _⟩ => ⟨S50000, .f32⟩
  | .hbm, ⟨35, _⟩ => ⟨S800000x1, .i32⟩
  | .hbm, ⟨36, _⟩ => ⟨S50000, .f32⟩
  | .hbm, ⟨37, _⟩ => ⟨S_, .f32⟩
  | .hbm, ⟨38, _⟩ => ⟨S50000, .f32⟩
  | .hbm, ⟨39, _⟩ => ⟨S50000, .f32⟩
  | .hbm, ⟨40, _⟩ => ⟨S50000x1, .f32⟩
  | .hbm, ⟨41, _⟩ => ⟨S50000x32, .f32⟩
  | .hbm, ⟨42, _⟩ => ⟨S50000x32, .f32⟩
  | .hbm, ⟨43, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S128x32, .f32⟩
  | .local _ .vmem, ⟨3, _⟩ => ⟨S128x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S5000x32, .f32⟩
  | .local _ .vmem, ⟨8, _⟩ => ⟨S5000x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S32x32, .f32⟩
  | .local _ .vmem, ⟨13, _⟩ => ⟨S32, .f32⟩
  | .local _ .vmem, ⟨14, _⟩ => ⟨S32x40, .f32⟩
  | .local _ .vmem, ⟨15, _⟩ => ⟨S40, .f32⟩
  | .local _ .vmem, ⟨16, _⟩ => ⟨S5000x40, .f32⟩
  | .local _ .vmem, ⟨17, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x40 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S40 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x40 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S32x128_S128x32_1_0 : S32x128.Transposes [1, 0] S128x32
  transposes_S32x32_S32x32_1_0 : S32x32.Transposes [1, 0] S32x32
  transposes_S40x32_S32x40_1_0 : S40x32.Transposes [1, 0] S32x40
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S5000x32_S5000x32_0_0 : ∀ a, (![0, 0] : Fin 2 → Nat) a + S5000x32.size a ≤ S5000x32.size a
  h_S5000x32 : 0 < S5000x32.numel
  bcast_S_S800000 : S_.BroadcastsInDim S800000 (![] : Fin 0 → Fin S800000.rank)
  bcast_S800000_S800000x1_0 : S800000.BroadcastsInDim S800000x1 (![0] : Fin 1 → Fin S800000x1.rank)
  bcast_S_S50000x32 : S_.BroadcastsInDim S50000x32 (![] : Fin 0 → Fin S50000x32.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x32_0_1 : S50000x1.BroadcastsInDim S50000x32 (![0, 1] : Fin 2 → Fin S50000x32.rank)
  shapeCasts_S5000x32_S5000x32 : S5000x32.ShapeCasts S5000x32
  reduces_S5000x32_S5000 : S5000x32.Reduces [1] S5000
  shapeCasts_S5000_S5000x1 : S5000.ShapeCasts S5000x1
  broadcasts_S5000x1_S5000x32 : S5000x1.Broadcasts S5000x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S32_S32_0 : ∀ a, (![0] : Fin 1 → Nat) a + S32.size a ≤ S32.size a
  h_S32 : 0 < S32.numel
  shapeCasts_S32_S1x32 : S32.ShapeCasts S1x32
  broadcasts_S1x32_S5000x32 : S1x32.Broadcasts S5000x32
  inb_S32x40_S32x40_0_0 : ∀ a, (![0, 0] : Fin 2 → Nat) a + S32x40.size a ≤ S32x40.size a
  h_S32x40 : 0 < S32x40.numel
  shapeCasts_S32x40_S32x40 : S32x40.ShapeCasts S32x40
  inb_S40_S40_0 : ∀ a, (![0] : Fin 1 → Nat) a + S40.size a ≤ S40.size a
  h_S40 : 0 < S40.numel
  shapeCasts_S40_S1x40 : S40.ShapeCasts S1x40
  broadcasts_S1x40_S5000x40 : S1x40.Broadcasts S5000x40
  reduces_S5000x40_S5000 : S5000x40.Reduces [1] S5000
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  dot_S5000x128_S128x32_S5000x32_1_0_0_1_n_n_wf : DotDims.WF S5000x128 S128x32 S5000x32 [1] [0] [0] [1] [] []
  gather_S50000x32_S800000x1_S800000x32_1_0_n_n_0_1_132_wf : GatherDims.WF S50000x32 S800000x1 S800000x32 [1] [0] [] [0] [] 1 ![1, 32]
  scatter_S50000x32_S800000x1_S800000x32_1_0_0_1_wf : ScatterDims.WF S50000x32 S800000x1 S800000x32 [1] [0] [0] 1
  scatter_S50000_S800000x1_S800000_n_0_0_1_wf : ScatterDims.WF S50000 S800000x1 S800000 [] [0] [0] 1
  dot_S5000x32_S32x32_S5000x32_1_0_0_1_n_n_wf : DotDims.WF S5000x32 S32x32 S5000x32 [1] [0] [0] [1] [] []
  dot_S5000x32_S32x40_S5000x40_1_0_0_1_n_n_wf : DotDims.WF S5000x32 S32x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x32.size a ≤ S50000x32.size a
  hwx0_3 : ∀ i : grid0.Coords, EltTy.bits .f32 = 32 ∨ (Rect.block (s := S50000x32) S5000x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x32.size a ≤ S50000x32.size a
  hwx0_4 : ∀ i : grid0.Coords, EltTy.bits .f32 = 32 ∨ (Rect.block (s := S50000x32) S5000x32.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S50000x32.size a
  hwx1_0 : ∀ i : grid1.Coords, EltTy.bits .f32 = 32 ∨ (Rect.block (s := S50000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S50000x32.size a
  hwx1_1 : ∀ i : grid1.Coords, EltTy.bits .f32 = 32 ∨ (Rect.block (s := S50000x32) S5000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32.size a ≤ S32.size a
  hwx1_3 : ∀ i : grid1.Coords, EltTy.bits .f32 = 32 ∨ (Rect.block (s := S32) S32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x40.size a ≤ S32x40.size a
  hwx1_4 : ∀ i : grid1.Coords, EltTy.bits .f32 = 32 ∨ (Rect.block (s := S32x40) S32x40.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S40.size a ≤ S40.size a
  hwx1_5 : ∀ i : grid1.Coords, EltTy.bits .f32 = 32 ∨ (Rect.block (s := S40) S40.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x40.size a ≤ S50000x40.size a
  hwx1_6 : ∀ i : grid1.Coords, EltTy.bits .f32 = 32 ∨ (Rect.block (s := S50000x40) S5000x40.size (cc1_transform_6 i) (hinb1_6 i)).WholeWords (EltTy.packing .f32)

variable [Facts₀]

def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def gather_S50000x32_S800000x1_S800000x32_1_0_n_n_0_1_132 : GatherDims S50000x32 S800000x1 S800000x32 where
  offsetDims := [1]
  collapsedSliceDims := [0]
  operandBatchingDims := []
  startIndicesBatchingDims := []
  startIndexMap := [0]
  indexVectorDim := 1
  sliceSizes := ![1, 32]
  wf := gather_S50000x32_S800000x1_S800000x32_1_0_n_n_0_1_132_wf
def scatter_S50000x32_S800000x1_S800000x32_1_0_0_1 : ScatterDims S50000x32 S800000x1 S800000x32 where
  updateWindowDims := [1]
  insertedWindowDims := [0]
  scatterDimsToOperandDims := [0]
  indexVectorDim := 1
  wf := scatter_S50000x32_S800000x1_S800000x32_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def dot_S5000x32_S32x40_S5000x40_1_0_0_1_n_n : DotDims S5000x32 S32x40 S5000x40 where
  lhsContracting := [1]
  rhsContracting := [0]
  lhsNonContracting := [0]
  rhsNonContracting := [1]
  lhsBatch := []
  rhsBatch := []
  wf := dot_S5000x32_S32x40_S5000x40_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8_0) S5000x32.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8_1) S5000x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v8_0) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S32x40.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S40.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v28) S5000x40.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S32x128 : Shape := ⟨2, ![32, 128]⟩
abbrev S32x32 : Shape := ⟨2, ![32, 32]⟩
abbrev S32 : Shape := ⟨1, ![32]⟩
abbrev S40x32 : Shape := ⟨2, ![40, 32]⟩
abbrev S40 : Shape := ⟨1, ![40]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S128x32 : Shape := ⟨2, ![128, 32]⟩
abbrev S50000x32 : Shape := ⟨2, ![50000, 32]⟩
abbrev S1x32 : Shape := ⟨2, ![1, 32]⟩
abbrev S32x40 : Shape := ⟨2, ![32, 40]⟩
abbrev S50000x40 : Shape := ⟨2, ![50000, 40]⟩
abbrev S1x40 : Shape := ⟨2, ![1, 40]⟩

abbrev nBuf : Space → Nat
  | .hbm => 80
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S32x128, .f32⟩
  | .hbm, ⟨3, _⟩ => ⟨S32x128, .f32⟩
  | .hbm, ⟨4, _⟩ => ⟨S32x32, .f32⟩
  | .hbm, ⟨5, _⟩ => ⟨S32, .f32⟩
  | .hbm, ⟨6, _⟩ => ⟨S40x32, .f32⟩
  | .hbm, ⟨7, _⟩ => ⟨S40, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x128, .f32⟩
  | .hbm, ⟨21, _⟩ => ⟨S_, .f32⟩
  | .hbm, ⟨22, _⟩ => ⟨S50000x128, .f32⟩
  | .hbm, ⟨23, _⟩ => ⟨S800000x1, .i32⟩
  | .hbm, ⟨24, _⟩ => ⟨S50000x128, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S128x32, .f32⟩
  | .hbm, ⟨38, _⟩ => ⟨S50000x32, .f32⟩
  | .hbm, ⟨39, _⟩ => ⟨S128x32, .f32⟩
  | .hbm, ⟨40, _⟩ => ⟨S50000x32, .f32⟩
  | .hbm, ⟨41, _⟩ => ⟨S50000x32, .f32⟩
  | .hbm, ⟨42, _⟩ => ⟨S50000x32, .f32⟩
  | .hbm, ⟨43, _⟩ => ⟨S_, .f32⟩
  | .hbm, ⟨44, _⟩ => ⟨S50000, .f32⟩
  | .hbm, ⟨45, _⟩ => ⟨S50000x1, .f32⟩
  | .hbm, ⟨46, _⟩ => ⟨S50000x1, .f32⟩
  | .hbm, ⟨47, _⟩ => ⟨S_, .f32⟩
  | .hbm, ⟨48, _⟩ => ⟨S50000x1, .f32⟩
  | .hbm, ⟨49, _⟩ => ⟨S50000x1, .f32⟩
  | .hbm, ⟨50, _⟩ => ⟨S50000x32, .f32⟩
  | .hbm, ⟨51, _⟩ => ⟨S50000x32, .f32⟩
  | .hbm, ⟨52, _⟩ => ⟨S_, .f32⟩
  | .hbm, ⟨53, _⟩ => ⟨S50000x32, .f32⟩
  | .hbm, ⟨54, _⟩ => ⟨S50000x32, .f32⟩
  | .hbm, ⟨55, _⟩ => ⟨S32x32, .f32⟩
  | .hbm, ⟨56, _⟩ => ⟨S50000x32, .f32⟩
  | .hbm, ⟨57, _⟩ => ⟨S1x32, .f32⟩
  | .hbm, ⟨58, _⟩ => ⟨S50000x32, .f32⟩
  | .hbm, ⟨59, _⟩ => ⟨S50000x32, .f32⟩
  | .hbm, ⟨60, _⟩ => ⟨S32x40, .f32⟩
  | .hbm, ⟨61, _⟩ => ⟨S50000x40, .f32⟩
  | .hbm, ⟨62, _⟩ => ⟨S1x40, .f32⟩
  | .hbm, ⟨63, _⟩ => ⟨S50000x40, .f32⟩
  | .hbm, ⟨64, _⟩ => ⟨S50000x40, .f32⟩
  | .hbm, ⟨65, _⟩ => ⟨S_, .f32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x40, .f32⟩
  | .hbm, ⟨72, _⟩ => ⟨S50000x40, .f32⟩
  | .hbm, ⟨73, _⟩ => ⟨S50000x40, .f32⟩
  | .hbm, ⟨74, _⟩ => ⟨S_, .f32⟩
  | .hbm, ⟨75, _⟩ => ⟨S50000, .f32⟩
  | .hbm, ⟨76, _⟩ => ⟨S50000x1, .f32⟩
  | .hbm, ⟨77, _⟩ => ⟨S50000x1, .f32⟩
  | .hbm, ⟨78, _⟩ => ⟨S50000x40, .f32⟩
  | .hbm, ⟨79, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_call0_cst : Ref sig .tc := ⟨.hbm, 52, rfl⟩
abbrev main_call0_v0 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_call1_cst : Ref sig .tc := ⟨.hbm, 65, rfl⟩
abbrev main_call1_v0 : Ref sig .tc := ⟨.hbm, 66, rfl⟩
abbrev main_call1_cst_0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_v6 : Ref sig .tc := ⟨.hbm, 73, rfl⟩
abbrev main_call1_cst_1 : Ref sig .tc := ⟨.hbm, 74, rfl⟩
abbrev main_call1_v7 : Ref sig .tc := ⟨.hbm, 75, rfl⟩
abbrev main_call1_v8 : Ref sig .tc := ⟨.hbm, 76, rfl⟩
abbrev main_call1_v9 : Ref sig .tc := ⟨.hbm, 77, rfl⟩
abbrev main_call1_v10 : Ref sig .tc := ⟨.hbm, 78, rfl⟩
abbrev main_v47 : Ref sig .tc := ⟨.hbm, 79, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S32x128_S128x32_1_0 : S32x128.Transposes [1, 0] S128x32
  reducesTo_S50000x32_S50000_d1 : S50000x32.ReducesTo [1] S50000
  h_S_ : 0 < S_.numel
  bcast_S_S50000x1 : S_.BroadcastsInDim S50000x1 (![] : Fin 0 → Fin S50000x1.rank)
  bcast_S50000x1_S50000x32_0_1 : S50000x1.BroadcastsInDim S50000x32 (![0, 1] : Fin 2 → Fin S50000x32.rank)
  bcast_S_S50000x32 : S_.BroadcastsInDim S50000x32 (![] : Fin 0 → Fin S50000x32.rank)
  transposes_S32x32_S32x32_1_0 : S32x32.Transposes [1, 0] S32x32
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  transposes_S40x32_S32x40_1_0 : S40x32.Transposes [1, 0] S32x40
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  bcast_S50000x1_S50000x40_0_1 : S50000x1.BroadcastsInDim S50000x40 (![0, 1] : Fin 2 → Fin S50000x40.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x32_S50000x32_1_0_0_1_n_n_wf : DotDims.WF S50000x128 S128x32 S50000x32 [1] [0] [0] [1] [] []
  dot_S50000x32_S32x32_S50000x32_1_0_0_1_n_n_wf : DotDims.WF S50000x32 S32x32 S50000x32 [1] [0] [0] [1] [] []
  dot_S50000x32_S32x40_S50000x40_1_0_0_1_n_n_wf : DotDims.WF S50000x32 S32x40 S50000x40 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x32_S50000x32_1_0_0_1_n_n : DotDims S50000x128 S128x32 S50000x32 where
  lhsContracting := [1]
  rhsContracting := [0]
  lhsNonContracting := [0]
  rhsNonContracting := [1]
  lhsBatch := []
  rhsBatch := []
  wf := dot_S50000x128_S128x32_S50000x32_1_0_0_1_n_n_wf
def dot_S50000x32_S32x32_S50000x32_1_0_0_1_n_n : DotDims S50000x32 S32x32 S50000x32 where
  lhsContracting := [1]
  rhsContracting := [0]
  lhsNonContracting := [0]
  rhsNonContracting := [1]
  lhsBatch := []
  rhsBatch := []
  wf := dot_S50000x32_S32x32_S50000x32_1_0_0_1_n_n_wf
def dot_S50000x32_S32x40_S50000x40_1_0_0_1_n_n : DotDims S50000x32 S32x40 S50000x40 where
  lhsContracting := [1]
  rhsContracting := [0]
  lhsNonContracting := [0]
  rhsNonContracting := [1]
  lhsBatch := []
  rhsBatch := []
  wf := dot_S50000x32_S32x40_S50000x40_1_0_0_1_n_n_wf

class Facts : Prop extends Facts₀ where

variable [Facts]
-- ==== Proof.KRun.lean ====
/-
  The idealized kernel's run with its result named: every weakly fair execution of the program ends with the result
  array holding what the second region's write-backs leave in it, and the argument arrays as launched. The program is
  a stretch of host operations (slices of the edge list, transposes of the weights), the projection region, a second
  stretch (gather along the sources, scatter-adds into the targets, the division by the floored counts) and the final
  region; the contents of every buffer at each boundary are a fold from the launch memory, and the result array is
  the last region's output window.
-/
import proofs.«146005_j86466281603776_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last boundary's contents, the arguments as launched. -/
theorem run : θ_run defs (onTc (τ := τ) (main (F := F))) ⟨m, fun _ => 0, ρ⟩ (fun r => ∀ c : Dev nD,
      r.2.mem ((c.tc : Thread nD τ).loc main_v28) = W4 m ρ c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v28 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

/-- The result array is the final region's output window: what its write-backs leave. -/
theorem result_arr (c : Dev nD) :
    W4 m ρ c (Proc.devRef .tc main_v28) = (dat1 (V3 m ρ) c).arrAt 6 cfg1.N := W4_arr m ρ c 6

end Cert.KernelIdeal.KRun

end
-- ==== Proof.LibDotSum.lean ====
/-
  A matrix product's contraction sum, re-indexed to a plain sum over its one contracted axis.

  For a dot of an `M × K` array with a `K × N` array that contracts the left operand's second axis
  against the right operand's first, the entry at `(p, q)` is the sum over the contraction index of
  `l (p, k) * r (k, q)`. The contraction index is a one-axis index of extent `K`; carrying the sum
  along the bijection with `Fin K` gives `∑ k : Fin K, l (ix2 p k) * r (ix2 k q)`.
  The coordinate facts of the dimension record are hypotheses, so that one statement serves every record
  of this plain form (for a literal record each holds by computation).
-/
import Idealize.ShloMosaic.PureOps.Ideal
import Idealize.ShloMosaic.PureOps.Dims
import Idealize.ShloMosaic.Lib.ValueIdx

noncomputable section

namespace Cert.LibDotSum

open Idealize.ShloMosaic Idealize.ShloMosaic.ValueIdx

/-- GENERAL LEMMA. For a dot record `d` on shapes `[M, K] × [K, N] → [M, N]` whose contraction shape has one
    axis of extent `K`, whose left index at `(j, k)` is `(j 0, k)` and whose right index is `(k, j 1)`, the
    contraction sum of `l` against `r` at the output index `j` is `∑ k : Fin K, l (j 0, k) * r (k, j 1)`. -/
theorem sum_contr_eq_sum_fin {M K N : Nat}
    (d : DotDims (⟨2, ![M, K]⟩ : Shape) (⟨2, ![K, N]⟩ : Shape) (⟨2, ![M, N]⟩ : Shape))
    (hrank : d.contr.rank = 1) (hsize : d.contr.size ⟨0, by omega⟩ = K)
    (hl0 : ∀ (j : (⟨2, ![M, N]⟩ : Shape).Idx) (k : d.contr.Idx), (d.lhsIdx j k 0).val = (j 0).val)
    (hl1 : ∀ (j : (⟨2, ![M, N]⟩ : Shape).Idx) (k : d.contr.Idx), (d.lhsIdx j k 1).val = (k ⟨0, by omega⟩).val)
    (hr0 : ∀ (j : (⟨2, ![M, N]⟩ : Shape).Idx) (k : d.contr.Idx), (d.rhsIdx j k 0).val = (k ⟨0, by omega⟩).val)
    (hr1 : ∀ (j : (⟨2, ![M, N]⟩ : Shape).Idx) (k : d.contr.Idx), (d.rhsIdx j k 1).val = (j 1).val)
    (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k)
      = ∑ k : Fin K, l (ix2 (j 0) k) * r (ix2 k (j 1)) := by
  rw [← Equiv.sum_comp (contrEquiv1 d K hrank hsize).symm]
  refine Finset.sum_congr rfl fun k _ => ?_
  have hk : (((contrEquiv1 d K hrank hsize).symm k) ⟨0, by omega⟩ : ℕ) = k.val :=
    contrEquiv1_symm_val d K hrank hsize k
  have el : d.lhsIdx j ((contrEquiv1 d K hrank hsize).symm k) = ix2 (j 0) k := by
    funext a
    apply Fin.ext
    match a with
    | ⟨0, _⟩ => exact hl0 j _
    | ⟨1, _⟩ => exact (hl1 j _).trans hk
  have er : d.rhsIdx j ((contrEquiv1 d K hrank hsize).symm k) = ix2 k (j 1) := by
    funext a
    apply Fin.ext
    match a with
    | ⟨0, _⟩ => exact (hr0 j _).trans hk
    | ⟨1, _⟩ => exact hr1 j _
  rw [el, er]
  rfl

end Cert.LibDotSum

end
-- ==== Proof.LibHostLayout.lean ====
/-
  Host layout operations of small rank read at an index.

  A reference written with keepdims and with a bias added along rows broadcasts in two steps: a vector `[a]` to a column
  `[a, 1]` and the column over the row `[a, b]`; a vector `[b]` to one row `[1, b]` and the row down the rows `[a, b]`. A
  leading block of rows is a slice at offset zero. Each is read here at an index built by `ix2`, in the style of the
  library's layout lemmas.
-/
import Idealize.ShloMosaic.Lib.Pipeline.Value
import Idealize.ShloMosaic.Lib.ValueIdx

noncomputable section

namespace Cert.LibHostLayout

open Idealize.ShloMosaic Idealize.ShloMosaic.ValueIdx

variable {α : Type}

/-- GENERAL LEMMA. An `[a]` array broadcast in dimension 0 to `[a, 1]` reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) :=
  broadcastInDim_apply ![0] h x (ix2 p u) (ix1 p) fun ax => by
    match ax with
    | ⟨0, _⟩ =>
      show p.val = if a = 1 then 0 else p.val
      split
      · have := p.isLt; omega
      · rfl

/-- GENERAL LEMMA. An `[a, 1]` column broadcast in dimensions (0, 1) to `[a, b]` reads, at `(p, c)`, the column at `(p, 0)`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply ![0, 1] h v (ix2 p c) (ix2 p (0 : Fin 1)) fun ax => by
    match ax with
    | ⟨0, _⟩ =>
      show p.val = if a = 1 then 0 else p.val
      split
      · have := p.isLt; omega
      · rfl
    | ⟨1, _⟩ => rfl

/-- GENERAL LEMMA. A `[b]` array broadcast in dimension 1 to `[1, b]` reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) :=
  broadcastInDim_apply ![1] h x (ix2 u c) (ix1 c) fun ax => by
    match ax with
    | ⟨0, _⟩ =>
      show c.val = if b = 1 then 0 else c.val
      split
      · have := c.isLt; omega
      · rfl

/-- GENERAL LEMMA. A `[1, b]` row broadcast in dimensions (0, 1) to `[a, b]` reads, at `(p, c)`, the row at `(0, c)`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply ![0, 1] h v (ix2 p c) (ix2 (0 : Fin 1) c) fun ax => by
    match ax with
    | ⟨0, _⟩ => rfl
    | ⟨1, _⟩ =>
      show c.val = if b = 1 then 0 else c.val
      split
      · have := c.isLt; omega
      · rfl

/-- GENERAL LEMMA. The leading `m` rows of an `[n, b]` array, sliced at offset zero, read at `(p, c)` the array at `(p, c)`. -/
theorem slice_rows_apply {n m b : ℕ} (x : (⟨2, ![n, b]⟩ : Shape).Idx → α)
    (h : (⟨2, ![n, b]⟩ : Shape).Slices ![0, 0] ⟨2, ![m, b]⟩) (p : Fin m) (hp : p.val < n) (c : Fin b) :
    extractStridedSlice ⟨2, ![m, b]⟩ ![0, 0] x h (ix2 p c) = x (ix2 (⟨p.val, hp⟩ : Fin n) c) :=
  extractStridedSlice_apply ![0, 0] x h (ix2 p c) (ix2 (⟨p.val, hp⟩ : Fin n) c) fun ax => by
    match ax with
    | ⟨0, _⟩ => show p.val = 0 + p.val; omega
    | ⟨1, _⟩ => show c.val = 0 + c.val; omega

end Cert.LibHostLayout

end
-- ==== Proof.LibLayers.lean ====
/-
  The layers of the message-passing network as functions of whole arrays, and how the host's and the
  kernel's spellings of one layer read as those functions.

  A dense layer of an `n × d` array `X` with weights `W : d × h` and bias `b : h` has the entry
  `(∑ k, X (p, k) * W (k, q)) + b q` at `(p, q)`; `relu` is the entrywise maximum with zero. On the host the
  layer is a `dot_general` plus the bias broadcast first to one row and then down the rows; in a kernel body it is a
  matrix product into a zero accumulator plus the bias, held as a `1 × h` block, broadcast down the rows. Over the
  extended reals both are the same function, because a change of float format is the identity there.
  Every entry of a layer's result depends on one row of its input only, which is what lets a row block of the result
  be computed from the same row block of the input.
-/
import Idealize.ShloMosaic.PureOps.Ideal.Laws
import Idealize.ShloMosaic.Lib.Pipeline.Value
import Idealize.ShloMosaic.Lib.ValueIdx
import proofs.«146005_j86466281603776_2_alg».proof.Proof.LibDotSum
import proofs.«146005_j86466281603776_2_alg».proof.Proof.LibHostLayout

noncomputable section

namespace Cert.Layers

open Idealize.ShloMosaic Idealize.ShloMosaic.ValueIdx

/-- An `n × d` array of extended reals. -/
abbrev Mat (n d : ℕ) : Type := (⟨2, ![n, d]⟩ : Shape).Idx → EReal
/-- A vector of `d` extended reals. -/
abbrev Row (d : ℕ) : Type := (⟨1, ![d]⟩ : Shape).Idx → EReal

/-- The product of `X` with `W`: entry `(p, q)` is `∑ k, X (p, k) * W (k, q)`. -/
def mm {n d h : ℕ} (X : Mat n d) (W : Mat d h) : Mat n h :=
  fun i => ∑ k : Fin d, X (ix2 (i 0) k) * W (ix2 k (i 1))

/-- The bias `b` added to every row. -/
def addRow {n h : ℕ} (Y : Mat n h) (b : Row h) : Mat n h := fun i => Y i + b (ix1 (i 1))

/-- A dense layer: the product plus the bias on every row. -/
def dense {n d h : ℕ} (X : Mat n d) (W : Mat d h) (b : Row h) : Mat n h := addRow (mm X W) b

/-- The entrywise maximum with zero (zero kept as the float word it is printed as). -/
def relu {n h : ℕ} (Y : Mat n h) : Mat n h := fun i => max (Y i) (Ideal.ofBits .f32 0x00000000#32)

/-- The one row of a `1 × h` array, as a vector. -/
def rowOf {h : ℕ} (B : Mat 1 h) : Row h := fun i => B (ix2 (0 : Fin 1) (i 0))

/-! ## Each entry depends on one row of the input -/

theorem mm_row {n n' d h : ℕ} (X : Mat n d) (X' : Mat n' d) (W : Mat d h) (p : Fin n) (p' : Fin n') (q : Fin h)
    (hX : ∀ k : Fin d, X (ix2 p k) = X' (ix2 p' k)) : mm X W (ix2 p q) = mm X' W (ix2 p' q) := by
  unfold mm
  exact Finset.sum_congr rfl fun k _ => congrArg (· * W (ix2 k q)) (hX k)

theorem dense_row {n n' d h : ℕ} (X : Mat n d) (X' : Mat n' d) (W : Mat d h) (b : Row h) (p : Fin n) (p' : Fin n')
    (q : Fin h) (hX : ∀ k : Fin d, X (ix2 p k) = X' (ix2 p' k)) : dense X W b (ix2 p q) = dense X' W b (ix2 p' q) := by
  unfold dense addRow
  exact congrArg (· + b (ix1 q)) (mm_row X X' W p p' q hX)

theorem relu_row {n n' h : ℕ} (Y : Mat n h) (Y' : Mat n' h) (p : Fin n) (p' : Fin n') (q : Fin h)
    (hY : Y (ix2 p q) = Y' (ix2 p' q)) : relu Y (ix2 p q) = relu Y' (ix2 p' q) := by
  unfold relu
  exact congrArg (max · _) hY

/-! ## The host's spelling -/

/-- GENERAL LEMMA. The host's `dot_general` of a plain `[n, d] × [d, h]` record is the product. -/
theorem host_dot {n d h : ℕ} {φ₁ φ₂ : FTy}
    (D : DotDims (⟨2, ![n, d]⟩ : Shape) (⟨2, ![d, h]⟩ : Shape) (⟨2, ![n, h]⟩ : Shape))
    (hrank : D.contr.rank = 1) (hsize : D.contr.size ⟨0, by omega⟩ = d)
    (hl0 : ∀ (j : (⟨2, ![n, h]⟩ : Shape).Idx) (k : D.contr.Idx), (D.lhsIdx j k 0).val = (j 0).val)
    (hl1 : ∀ (j : (⟨2, ![n, h]⟩ : Shape).Idx) (k : D.contr.Idx), (D.lhsIdx j k 1).val = (k ⟨0, by omega⟩).val)
    (hr0 : ∀ (j : (⟨2, ![n, h]⟩ : Shape).Idx) (k : D.contr.Idx), (D.rhsIdx j k 0).val = (k ⟨0, by omega⟩).val)
    (hr1 : ∀ (j : (⟨2, ![n, h]⟩ : Shape).Idx) (k : D.contr.Idx), (D.rhsIdx j k 1).val = (j 1).val)
    (prec : Option ContractPrecision)
    (X : FVec Ideal (⟨2, ![n, d]⟩ : Shape) φ₁) (W : FVec Ideal (⟨2, ![d, h]⟩ : Shape) φ₂) :
    Host.dotGeneral D prec X W = mm X W := by
  funext j
  show FloatOps.dotGeneral D prec .single X W j = _
  rw [Ideal.dotGeneral_apply]
  exact Cert.LibDotSum.sum_contr_eq_sum_fin D hrank hsize hl0 hl1 hr0 hr1 X W j

/-- GENERAL LEMMA. The kernel's matrix product into a zero accumulator, of a plain record, is the product. -/
theorem kernel_matmul {n d h : ℕ} {φ₁ φ₂ : FTy}
    (D : DotDims (⟨2, ![n, d]⟩ : Shape) (⟨2, ![d, h]⟩ : Shape) (⟨2, ![n, h]⟩ : Shape))
    (hrank : D.contr.rank = 1) (hsize : D.contr.size ⟨0, by omega⟩ = d)
    (hl0 : ∀ (j : (⟨2, ![n, h]⟩ : Shape).Idx) (k : D.contr.Idx), (D.lhsIdx j k 0).val = (j 0).val)
    (hl1 : ∀ (j : (⟨2, ![n, h]⟩ : Shape).Idx) (k : D.contr.Idx), (D.lhsIdx j k 1).val = (k ⟨0, by omega⟩).val)
    (hr0 : ∀ (j : (⟨2, ![n, h]⟩ : Shape).Idx) (k : D.contr.Idx), (D.rhsIdx j k 0).val = (k ⟨0, by omega⟩).val)
    (hr1 : ∀ (j : (⟨2, ![n, h]⟩ : Shape).Idx) (k : D.contr.Idx), (D.rhsIdx j k 1).val = (j 1).val)
    (prec : Option ContractPrecision)
    (X : FVec Ideal (⟨2, ![n, d]⟩ : Shape) φ₁) (W : FVec Ideal (⟨2, ![d, h]⟩ : Shape) φ₂) :
    matmul D prec X W (constant (F := Ideal) (⟨2, ![n, h]⟩ : Shape) .f32 0x00000000#32) = mm X W := by
  funext j
  show FloatOps.matmul D prec X W (constant (F := Ideal) (⟨2, ![n, h]⟩ : Shape) .f32 0x00000000#32) j = _
  rw [Ideal.matmul_constant_zero_apply]
  exact Cert.LibDotSum.sum_contr_eq_sum_fin D hrank hsize hl0 hl1 hr0 hr1 X W j

/-- GENERAL LEMMA. The host's bias: a vector broadcast to one row and the row broadcast down the rows, added. -/
theorem host_addRow {n h : ℕ} (Y : FVec Ideal (⟨2, ![n, h]⟩ : Shape) .f32) (b : FVec Ideal (⟨1, ![h]⟩ : Shape) .f32)
    (h1 : (⟨1, ![h]⟩ : Shape).BroadcastsInDim ⟨2, ![1, h]⟩ ![1])
    (h2 : (⟨2, ![1, h]⟩ : Shape).BroadcastsInDim ⟨2, ![n, h]⟩ ![0, 1]) :
    addf Y (broadcastInDim ⟨2, ![n, h]⟩ ![0, 1] h2 (broadcastInDim ⟨2, ![1, h]⟩ ![1] h1 b)) = addRow Y b := by
  funext j
  obtain ⟨p, q, rfl⟩ : ∃ (p : Fin n) (q : Fin h), j = ix2 p q := ⟨j 0, j 1, eq_ix2 j⟩
  show Y (ix2 p q) + _ = Y (ix2 p q) + b (ix1 q)
  rw [Cert.LibHostLayout.broadcastInDim_1b_ab_apply, Cert.LibHostLayout.broadcastInDim_b_1b_apply]

/-- GENERAL LEMMA. The host's relu: the maximum with the zero constant broadcast to the array. -/
theorem host_relu {n h : ℕ} (Y : FVec Ideal (⟨2, ![n, h]⟩ : Shape) .f32)
    (h0 : (⟨0, ![]⟩ : Shape).BroadcastsInDim ⟨2, ![n, h]⟩ ![]) :
    maximumf Y (broadcastInDim ⟨2, ![n, h]⟩ ![] h0 (constant (F := Ideal) (⟨0, ![]⟩ : Shape) .f32 0x00000000#32)) = relu Y := by
  funext j
  show max (Y j) _ = max (Y j) _
  rw [broadcastInDim_apply ![] h0 _ j ix0 (fun a => a.elim0)]
  rfl

/-! ## The kernel's spelling -/

/-- GENERAL LEMMA. The kernel's bias: the `1 × h` block broadcast down the rows, added. -/
theorem kernel_addRow {n h : ℕ} (Y : FVec Ideal (⟨2, ![n, h]⟩ : Shape) .f32) (B : FVec Ideal (⟨2, ![1, h]⟩ : Shape) .f32)
    (hb : (⟨2, ![1, h]⟩ : Shape).Broadcasts ⟨2, ![n, h]⟩) :
    addf Y (broadcastTo ⟨2, ![n, h]⟩ B hb) = addRow Y (rowOf B) := by
  funext j
  obtain ⟨p, q, rfl⟩ : ∃ (p : Fin n) (q : Fin h), j = ix2 p q := ⟨j 0, j 1, eq_ix2 j⟩
  show Y (ix2 p q) + _ = Y (ix2 p q) + B (ix2 (0 : Fin 1) q)
  rw [broadcastTo_apply B hb (ix2 p q) (ix2 (0 : Fin 1) q) (fun a => by
    match a with
    | ⟨0, _⟩ => rfl
    | ⟨1, _⟩ =>
      show q.val = if h = 1 then 0 else q.val
      split
      · have := q.isLt; omega
      · rfl)]

/-- GENERAL LEMMA. The kernel's relu: the maximum with the zero scalar splat. -/
theorem kernel_relu {n h : ℕ} (Y : FVec Ideal (⟨2, ![n, h]⟩ : Shape) .f32) :
    maximumf Y (broadcast ⟨2, ![n, h]⟩ (Scalar.ofBits (F := Ideal) .f32 0x00000000#32)) = relu Y := rfl

/-- A change of float format is the identity on the extended reals. -/
theorem truncf_id {s : Shape} {φ ψ : FTy} (x : FVec Ideal s φ) (h : ψ.bits < φ.bits) : (truncf ψ x h : FVec Ideal s ψ) = x := rfl
theorem extf_id {s : Shape} {φ ψ : FTy} (x : FVec Ideal s φ) (h : φ.bits < ψ.bits) : (extf ψ x h : FVec Ideal s ψ) = x := rfl

end Cert.Layers

end
-- ==== Proof.LibKeepdims.lean ====
/-
  Keepdims column forms read at an index, and a lane sum read as a sum over the row.

  A row reduction with `keepdims` leaves a column `[a, 1]`: the reduced vector `[a]` is cast to `[a, 1]`
  (entry `(p, 0)` is entry `p`), and the column is broadcast back over the row (entry `(p, c)` is the
  column's entry `(p, 0)`). A sum over axis 1 of an `[a, b]` array, at row `p`, is the sum over `k` of
  the entries `(p, k)`.
-/
import Idealize.ShloMosaic.Lib.Pipeline.Value
import Idealize.ShloMosaic.Lib.ValueIdx
import Idealize.ShloMosaic.PureOps.Ideal.Laws

noncomputable section

namespace Cert.LibKeepdims

open Idealize.ShloMosaic Idealize.ShloMosaic.ValueIdx

variable {α : Type}

/-- GENERAL LEMMA. An `[a]` array cast to `[a, 1]` reads, at `(p, u)`, the operand at `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- GENERAL LEMMA. An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- GENERAL LEMMA. The index a reduction over axis 1 of an `[a, b]` array inserts at row `p` and position `k`
    is `(p, k)`. -/
theorem lift_row {a b : ℕ} (h : (⟨2, ![a, b]⟩ : Shape).Reduces [1] ⟨1, ![a]⟩) (p : Fin a) (k : Fin b) :
    h.lift (ix1 p) k = ix2 p k := by
  funext c
  apply Fin.ext
  match c with
  | ⟨0, _⟩ => rfl
  | ⟨1, _⟩ => rfl

/-- GENERAL LEMMA. The exact sum over axis 1 of an `[a, b]` array of extended reals, at row `p`, is the sum
    over `k` of the entries `(p, k)`. -/
theorem reduceAdd_row {a b : ℕ} (h : (⟨2, ![a, b]⟩ : Shape).Reduces [1] ⟨1, ![a]⟩)
    (x : (⟨2, ![a, b]⟩ : Shape).Idx → EReal) (p : Fin a) :
    Ideal.reduceAdd h x (ix1 p) = ∑ k : Fin b, x (ix2 p k) :=
  (Ideal.reduceAdd_single h x (ix1 p)).trans
    (Finset.sum_congr rfl fun k _ => congrArg x (lift_row h p k))

end Cert.LibKeepdims

end
-- ==== Proof.LibSageNet.lean ====
/-
  The message-passing network as functions of whole arrays.

  One layer takes the node features `X`, the neighbour aggregate `A` (a sum over incoming edges) and the column `I` of
  inverse degrees: the aggregate's rows are scaled by `I` (the mean over neighbours), passed through a dense layer with
  weights `Wl` and bias `b`, and the root term `X · Wr` is added. The two inner layers then divide every row by its
  Euclidean norm, floored at a small constant, and apply `relu`. The messages of the inner layers are `relu` of a dense
  layer of the features; the last layer's messages are the features themselves.
  Every entry of a layer's result depends on one row of its inputs only.
  The host's and a kernel body's spellings of the combination and of the row normalisation read as these functions:
  the host broadcasts with `broadcast_in_dim` and sums rows from an initial zero, a body broadcasts blocks and reduces
  lanes; over the extended reals both are the same sums.
-/
import Idealize.ShloMosaic.PureOps.Ideal.Laws
import Idealize.ShloMosaic.Lib.ValueIdx
import proofs.«146005_j86466281603776_2_alg».proof.Proof.LibLayers
import proofs.«146005_j86466281603776_2_alg».proof.Proof.LibKeepdims

noncomputable section

namespace Cert.Sage

open Idealize.ShloMosaic Idealize.ShloMosaic.ValueIdx Cert.Layers

/-- Every row of `A` times that row's entry of the one-column array `I`. -/
def scale {n d : ℕ} (A : Mat n d) (I : Mat n 1) : Mat n d := fun i => A i * I (ix2 (i 0) (0 : Fin 1))

/-- The neighbour term through `Wl` with its bias, plus the root term through `Wr`. -/
def comb {n d h : ℕ} (A X : Mat n d) (I : Mat n 1) (Wl : Mat d h) (b : Row h) (Wr : Mat d h) : Mat n h :=
  fun i => dense (scale A I) Wl b i + mm X Wr i

/-- The sum of the squares of row `p`. -/
def rowsq {n h : ℕ} (Y : Mat n h) (p : Fin n) : EReal := ∑ k : Fin h, Y (ix2 p k) * Y (ix2 p k)

/-- Every row divided by its Euclidean norm floored at the small constant (kept as the float word it is printed as). -/
def unit {n h : ℕ} (Y : Mat n h) : Mat n h :=
  fun i => Ideal.div (Y i) (max (Ideal.sqrt (rowsq Y (i 0))) (Ideal.ofBits .f32 0x2B8CBCCC#32))

/-- An inner layer's result: the combination, normalised row by row, then `relu`. -/
def inner {n d h : ℕ} (A X : Mat n d) (I : Mat n 1) (Wl : Mat d h) (b : Row h) (Wr : Mat d h) : Mat n h :=
  relu (unit (comb A X I Wl b Wr))

/-- The whole network over an aggregation `agg` (gather along the edges' sources, sum into their targets), the
    inverse-degree column `I`, and weights already transposed to `d × d` products' right operands. -/
def net {n d : ℕ} (agg : Mat n d → Mat n d) (I : Mat n 1) (X : Mat n d)
    (Wp0 : Mat d d) (bp0 : Row d) (Wl0 : Mat d d) (bl0 : Row d) (Wr0 : Mat d d)
    (Wp1 : Mat d d) (bp1 : Row d) (Wl1 : Mat d d) (bl1 : Row d) (Wr1 : Mat d d)
    (Wlo : Mat d d) (blo : Row d) (Wro : Mat d d) : Mat n d :=
  let X1 := inner (agg (relu (dense X Wp0 bp0))) X I Wl0 bl0 Wr0
  let X2 := inner (agg (relu (dense X1 Wp1 bp1))) X1 I Wl1 bl1 Wr1
  comb (agg X2) X2 I Wlo blo Wro

/-! ## Each entry depends on one row of the inputs -/

theorem scale_row {n n' d : ℕ} (A : Mat n d) (A' : Mat n' d) (I : Mat n 1) (I' : Mat n' 1) (p : Fin n) (p' : Fin n')
    (k : Fin d) (hA : A (ix2 p k) = A' (ix2 p' k)) (hI : I (ix2 p (0 : Fin 1)) = I' (ix2 p' (0 : Fin 1))) :
    scale A I (ix2 p k) = scale A' I' (ix2 p' k) := by
  unfold scale
  show A (ix2 p k) * I (ix2 p (0 : Fin 1)) = A' (ix2 p' k) * I' (ix2 p' (0 : Fin 1))
  rw [hA, hI]

theorem comb_row {n n' d h : ℕ} (A X : Mat n d) (A' X' : Mat n' d) (I : Mat n 1) (I' : Mat n' 1) (Wl : Mat d h) (b : Row h)
    (Wr : Mat d h) (p : Fin n) (p' : Fin n') (q : Fin h)
    (hA : ∀ k : Fin d, A (ix2 p k) = A' (ix2 p' k)) (hX : ∀ k : Fin d, X (ix2 p k) = X' (ix2 p' k))
    (hI : I (ix2 p (0 : Fin 1)) = I' (ix2 p' (0 : Fin 1))) :
    comb A X I Wl b Wr (ix2 p q) = comb A' X' I' Wl b Wr (ix2 p' q) := by
  unfold comb
  rw [dense_row (scale A I) (scale A' I') Wl b p p' q (fun k => scale_row A A' I I' p p' k (hA k) hI),
    mm_row X X' Wr p p' q hX]

theorem rowsq_row {n n' h : ℕ} (Y : Mat n h) (Y' : Mat n' h) (p : Fin n) (p' : Fin n')
    (hY : ∀ k : Fin h, Y (ix2 p k) = Y' (ix2 p' k)) : rowsq Y p = rowsq Y' p' := by
  unfold rowsq
  exact Finset.sum_congr rfl fun k _ => by rw [hY k]

theorem unit_row {n n' h : ℕ} (Y : Mat n h) (Y' : Mat n' h) (p : Fin n) (p' : Fin n') (q : Fin h)
    (hY : ∀ k : Fin h, Y (ix2 p k) = Y' (ix2 p' k)) : unit Y (ix2 p q) = unit Y' (ix2 p' q) := by
  unfold unit
  show Ideal.div (Y (ix2 p q)) (max (Ideal.sqrt (rowsq Y p)) _) = Ideal.div (Y' (ix2 p' q)) (max (Ideal.sqrt (rowsq Y' p')) _)
  rw [hY q, rowsq_row Y Y' p p' hY]

theorem inner_row {n n' d h : ℕ} (A X : Mat n d) (A' X' : Mat n' d) (I : Mat n 1) (I' : Mat n' 1) (Wl : Mat d h) (b : Row h)
    (Wr : Mat d h) (p : Fin n) (p' : Fin n') (q : Fin h)
    (hA : ∀ k : Fin d, A (ix2 p k) = A' (ix2 p' k)) (hX : ∀ k : Fin d, X (ix2 p k) = X' (ix2 p' k))
    (hI : I (ix2 p (0 : Fin 1)) = I' (ix2 p' (0 : Fin 1))) :
    inner A X I Wl b Wr (ix2 p q) = inner A' X' I' Wl b Wr (ix2 p' q) := by
  unfold inner
  exact relu_row _ _ p p' q (unit_row _ _ p p' q fun k => comb_row A X A' X' I I' Wl b Wr p p' k hA hX hI)

/-! ## The host's spelling of a combination and of a row normalisation, at any sizes -/

/-- GENERAL LEMMA. The host's row scaling: the one-column array broadcast over the row, multiplied in. -/
theorem host_scale {n d : ℕ} (A : FVec Ideal (⟨2, ![n, d]⟩ : Shape) .f32) (I : FVec Ideal (⟨2, ![n, 1]⟩ : Shape) .f32)
    (hI : (⟨2, ![n, 1]⟩ : Shape).BroadcastsInDim ⟨2, ![n, d]⟩ ![0, 1]) :
    mulf A (broadcastInDim ⟨2, ![n, d]⟩ ![0, 1] hI I) = scale A I := by
  funext j
  obtain ⟨p, q, rfl⟩ : ∃ (p : Fin n) (q : Fin d), j = ix2 p q := ⟨j 0, j 1, eq_ix2 j⟩
  show A (ix2 p q) * _ = A (ix2 p q) * I (ix2 p (0 : Fin 1))
  rw [Cert.LibHostLayout.broadcastInDim_a1_ab_apply]

/-- GENERAL LEMMA. The host's combination: the product of the scaled aggregate with `Wl`, plus the bias broadcast to
    one row and down the rows, plus the product of the features with `Wr`. -/
theorem host_comb {n d h : ℕ}
    (D : DotDims (⟨2, ![n, d]⟩ : Shape) (⟨2, ![d, h]⟩ : Shape) (⟨2, ![n, h]⟩ : Shape))
    (hrank : D.contr.rank = 1) (hsize : D.contr.size ⟨0, by omega⟩ = d)
    (hl0 : ∀ (j : (⟨2, ![n, h]⟩ : Shape).Idx) (k : D.contr.Idx), (D.lhsIdx j k 0).val = (j 0).val)
    (hl1 : ∀ (j : (⟨2, ![n, h]⟩ : Shape).Idx) (k : D.contr.Idx), (D.lhsIdx j k 1).val = (k ⟨0, by omega⟩).val)
    (hr0 : ∀ (j : (⟨2, ![n, h]⟩ : Shape).Idx) (k : D.contr.Idx), (D.rhsIdx j k 0).val = (k ⟨0, by omega⟩).val)
    (hr1 : ∀ (j : (⟨2, ![n, h]⟩ : Shape).Idx) (k : D.contr.Idx), (D.rhsIdx j k 1).val = (j 1).val)
    (A X : FVec Ideal (⟨2, ![n, d]⟩ : Shape) .f32) (I : FVec Ideal (⟨2, ![n, 1]⟩ : Shape) .f32)
    (Wl Wr : FVec Ideal (⟨2, ![d, h]⟩ : Shape) .f32) (b : FVec Ideal (⟨1, ![h]⟩ : Shape) .f32)
    (hI : (⟨2, ![n, 1]⟩ : Shape).BroadcastsInDim ⟨2, ![n, d]⟩ ![0, 1])
    (h1 : (⟨1, ![h]⟩ : Shape).BroadcastsInDim ⟨2, ![1, h]⟩ ![1])
    (h2 : (⟨2, ![1, h]⟩ : Shape).BroadcastsInDim ⟨2, ![n, h]⟩ ![0, 1]) :
    addf (addf (Host.dotGeneral D none (mulf A (broadcastInDim ⟨2, ![n, d]⟩ ![0, 1] hI I)) Wl)
        (broadcastInDim ⟨2, ![n, h]⟩ ![0, 1] h2 (broadcastInDim ⟨2, ![1, h]⟩ ![1] h1 b)))
      (Host.dotGeneral D none X Wr) = comb A X I Wl b Wr := by
  rw [host_scale, host_dot D hrank hsize hl0 hl1 hr0 hr1 none (scale A I) Wl, host_dot D hrank hsize hl0 hl1 hr0 hr1 none X Wr,
    host_addRow]
  rfl

/-- GENERAL LEMMA. The host's sum over axis 1 of an `[n, h]` array from an initial value, at row `p`, is the initial
    value plus the sum over `k` of the entries `(p, k)`. -/
theorem host_rowsum {n h : ℕ} (red : (⟨2, ![n, h]⟩ : Shape).ReducesTo [1] ⟨1, ![n]⟩)
    (x : (⟨2, ![n, h]⟩ : Shape).Idx → EReal) (init : EReal) (p : Fin n) :
    Ideal.hostReduceAdd red x init (ix1 p) = init + ∑ k : Fin h, x (ix2 p k) :=
  (Ideal.hostReduceAdd_single red ⟨red.1, Nat.one_pos, red.2⟩ x init (ix1 p)).trans
    (congrArg (init + ·) (Finset.sum_congr rfl fun k _ => congrArg x (Cert.LibKeepdims.lift_row _ p k)))

/-- GENERAL LEMMA. The host's row normalisation: the row sums of the squares from zero, kept as a column, their square
    roots floored at the small constant, the column broadcast over the row, divided in. -/
theorem host_unit {n h : ℕ} (Y : FVec Ideal (⟨2, ![n, h]⟩ : Shape) .f32)
    (red : (⟨2, ![n, h]⟩ : Shape).ReducesTo [1] ⟨1, ![n]⟩) (hS : 0 < (⟨0, ![]⟩ : Shape).numel)
    (hc : (⟨1, ![n]⟩ : Shape).BroadcastsInDim ⟨2, ![n, 1]⟩ ![0])
    (h0 : (⟨0, ![]⟩ : Shape).BroadcastsInDim ⟨2, ![n, 1]⟩ ![])
    (hb : (⟨2, ![n, 1]⟩ : Shape).BroadcastsInDim ⟨2, ![n, h]⟩ ![0, 1]) :
    Host.divf Y (broadcastInDim ⟨2, ![n, h]⟩ ![0, 1] hb
      (maximumf (Host.sqrt (broadcastInDim ⟨2, ![n, 1]⟩ ![0] hc
          (Host.reduceAdd (mulf Y Y) (constant (F := Ideal) (⟨0, ![]⟩ : Shape) .f32 0x00000000#32) red hS)))
        (broadcastInDim ⟨2, ![n, 1]⟩ ![] h0 (constant (F := Ideal) (⟨0, ![]⟩ : Shape) .f32 0x2B8CBCCC#32)))) = unit Y := by
  funext j
  obtain ⟨p, q, rfl⟩ : ∃ (p : Fin n) (q : Fin h), j = ix2 p q := ⟨j 0, j 1, eq_ix2 j⟩
  show Ideal.div (Y (ix2 p q)) _ = Ideal.div (Y (ix2 p q)) (max (Ideal.sqrt (rowsq Y p)) (Ideal.ofBits .f32 0x2B8CBCCC#32))
  refine congrArg (Ideal.div (Y (ix2 p q))) ?_
  rw [Cert.LibHostLayout.broadcastInDim_a1_ab_apply]
  show max (Ideal.sqrt _) _ = max (Ideal.sqrt (rowsq Y p)) (Ideal.ofBits .f32 0x2B8CBCCC#32)
  refine congrArg₂ max (congrArg Ideal.sqrt ?_) ?_
  · rw [Cert.LibHostLayout.broadcastInDim_a_a1_apply]
    show Ideal.hostReduceAdd red (mulf Y Y) (Ideal.ofBits .f32 0x00000000#32) (ix1 p) = rowsq Y p
    rw [host_rowsum, Ideal.ofBits_zero_f32, zero_add]
    rfl
  · rw [broadcastInDim_apply ![] h0 _ (ix2 p (0 : Fin 1)) ix0 (fun a => a.elim0)]
    rfl

/-! ## A kernel body's spelling of a combination and of a row normalisation, at any block extents -/

/-- GENERAL LEMMA. The aggregate times the inverse-degree column broadcast over the row: every row scaled by its
    entry of the column. -/
theorem kernel_scale {n d : ℕ} (A : FVec Ideal (⟨2, ![n, d]⟩ : Shape) .f32) (I : FVec Ideal (⟨2, ![n, 1]⟩ : Shape) .f32)
    (hb : (⟨2, ![n, 1]⟩ : Shape).Broadcasts ⟨2, ![n, d]⟩) :
    mulf A (broadcastTo ⟨2, ![n, d]⟩ I hb) = scale A I := by
  funext j
  obtain ⟨p, q, rfl⟩ : ∃ (p : Fin n) (q : Fin d), j = ix2 p q := ⟨j 0, j 1, eq_ix2 j⟩
  show A (ix2 p q) * _ = A (ix2 p q) * I (ix2 p (0 : Fin 1))
  rw [Cert.LibKeepdims.broadcastTo_a1_ab_apply]

/-- GENERAL LEMMA. The neighbour term with its bias plus the root term is the combination. -/
theorem kernel_comb {n d h : ℕ} (A X : Mat n d) (I : Mat n 1) (Wl Wr : Mat d h) (b : Row h) :
    addf (F := Ideal) (φ := .f32) (s := (⟨2, ![n, h]⟩ : Shape)) (addRow (mm (scale A I) Wl) b) (mm X Wr)
      = comb A X I Wl b Wr := rfl

/-- GENERAL LEMMA. The sum over axis 1 of the entrywise square, at row `p`, is the sum of the squares of row `p`. -/
theorem kernel_rowsq {n h : ℕ} (Y : FVec Ideal (⟨2, ![n, h]⟩ : Shape) .f32)
    (hred : (⟨2, ![n, h]⟩ : Shape).Reduces [1] ⟨1, ![n]⟩) (hφ : FKind.Formats .f32)
    (hacc : (0x00000000#32 : BitVec (FTy.bits .f32)) = FKind.add.neutral .f32 hφ) (p : Fin n) :
    multiReduction (F := Ideal) .add [1] ⟨1, ![n]⟩ (mulf Y Y) 0x00000000#32 hred hφ hacc (ix1 p) = rowsq Y p :=
  (Ideal.multiReduction_add_single (mulf Y Y) _ hred hφ hacc (ix1 p)).trans
    (Finset.sum_congr rfl fun k _ => congrArg (mulf Y Y) (Cert.LibKeepdims.lift_row hred p k))

/-- GENERAL LEMMA. The normalisation: the row sums of squares kept as a column, its square root floored at the small
    constant, broadcast back over the row, dividing the array — every row divided by its floored Euclidean norm. -/
theorem kernel_unit {n h : ℕ} (Y : FVec Ideal (⟨2, ![n, h]⟩ : Shape) .f32)
    (hred : (⟨2, ![n, h]⟩ : Shape).Reduces [1] ⟨1, ![n]⟩) (hφ : FKind.Formats .f32)
    (hacc : (0x00000000#32 : BitVec (FTy.bits .f32)) = FKind.add.neutral .f32 hφ)
    (hsc : (⟨1, ![n]⟩ : Shape).ShapeCasts ⟨2, ![n, 1]⟩)
    (hb : (⟨2, ![n, 1]⟩ : Shape).Broadcasts ⟨2, ![n, h]⟩) :
    divf Y (broadcastTo ⟨2, ![n, h]⟩
      (maximumf (sqrt (shapeCast ⟨2, ![n, 1]⟩ (multiReduction (F := Ideal) .add [1] ⟨1, ![n]⟩ (mulf Y Y) 0x00000000#32 hred hφ hacc) hsc))
        (broadcast ⟨2, ![n, 1]⟩ (Scalar.ofBits (F := Ideal) .f32 0x2B8CBCCC#32))) hb) = unit Y := by
  funext j
  obtain ⟨p, q, rfl⟩ : ∃ (p : Fin n) (q : Fin h), j = ix2 p q := ⟨j 0, j 1, eq_ix2 j⟩
  show Ideal.div (Y (ix2 p q)) _ = Ideal.div (Y (ix2 p q)) (max (Ideal.sqrt (rowsq Y p)) (Ideal.ofBits .f32 0x2B8CBCCC#32))
  rw [Cert.LibKeepdims.broadcastTo_a1_ab_apply]
  show Ideal.div (Y (ix2 p q)) (max (Ideal.sqrt (shapeCast ⟨2, ![n, 1]⟩ _ hsc (ix2 p (0 : Fin 1)))) _) = _
  rw [Cert.LibKeepdims.shapeCast_a_a1_apply, kernel_rowsq]
  rfl

/-- GENERAL LEMMA. An inner body's tail: an array known to be `C`, normalised row by row as the body spells it, then
    the maximum with the zero splat, is `relu (unit C)`. -/
theorem kernel_unit_relu {n h : ℕ} (Y : FVec Ideal (⟨2, ![n, h]⟩ : Shape) .f32) (C : Mat n h) (hY : Y = C)
    (hred : (⟨2, ![n, h]⟩ : Shape).Reduces [1] ⟨1, ![n]⟩) (hφ : FKind.Formats .f32)
    (hacc : (0x00000000#32 : BitVec (FTy.bits .f32)) = FKind.add.neutral .f32 hφ)
    (hsc : (⟨1, ![n]⟩ : Shape).ShapeCasts ⟨2, ![n, 1]⟩)
    (hb : (⟨2, ![n, 1]⟩ : Shape).Broadcasts ⟨2, ![n, h]⟩) :
    maximumf
      (divf Y (broadcastTo ⟨2, ![n, h]⟩
        (maximumf (sqrt (shapeCast ⟨2, ![n, 1]⟩ (multiReduction (F := Ideal) .add [1] ⟨1, ![n]⟩ (mulf Y Y) 0x00000000#32 hred hφ hacc) hsc))
          (broadcast ⟨2, ![n, 1]⟩ (Scalar.ofBits (F := Ideal) .f32 0x2B8CBCCC#32))) hb))
      (broadcast ⟨2, ![n, h]⟩ (Scalar.ofBits (F := Ideal) .f32 0x00000000#32)) = relu (unit C) := by
  subst hY
  rw [kernel_unit, kernel_relu]

end Cert.Sage

end
-- ==== Proof.Spec.lean ====
/-
  The network both programs compute, as functions of whole arrays of extended reals.

  A node's neighbour mean: over the edges `E p` that point at node `p`, the rows `g e` of an array are summed from
  zero and divided by the node's floored edge count. The hidden array is `X · Wl + (the neighbour term)`; its rows
  are divided by their Euclidean norm floored at a small constant, passed through `relu`, two dense layers, and a
  log-softmax over each row (the row minus its maximum, minus the logarithm of the sum of the exponentials).
  The kernel takes the neighbour mean of the projected rows `X · Wr`; the reference projects the neighbour mean
  of the rows of `X`. For finite `X` and `Wr` and a nonzero real count the two are equal: a finite sum of real
  quotients by one number commutes with a product by a real matrix.
-/
import Idealize.ShloMosaic.PureOps.Ideal.Laws
import Idealize.ShloMosaic.Lib.ValueIdx
import proofs.«146005_j86466281603776_2_alg».proof.Proof.LibLayers
import proofs.«146005_j86466281603776_2_alg».proof.Proof.LibSageNet

noncomputable section

namespace Cert.Net

open Idealize.ShloMosaic Idealize.ShloMosaic.ValueIdx Cert.Layers Cert.Sage

/-- The float word of zero denotes `0`, that of one denotes `1`. -/
theorem zero_word : Ideal.ofBits .f32 0x00000000#32 = 0 := Ideal.ofBits_zero_f32
theorem one_word : Ideal.ofBits .f32 0x3F800000#32 = ((1 : ℝ) : EReal) := by
  simp [Ideal.ofBits, Ideal.ieee, -EReal.coe_mul]; norm_num

/-- The floored number of edges pointing at node `p`: ones summed from zero over those edges, at least one. -/
def cntOf {n : ℕ} {ι : Type} (E : Fin n → Finset ι) (p : Fin n) : EReal :=
  max (Ideal.ofBits .f32 0x00000000#32 + ∑ _e ∈ E p, Ideal.ofBits .f32 0x3F800000#32) (Ideal.ofBits .f32 0x3F800000#32)

/-- The neighbour mean of the rows of `Z`: rows `g e` summed from zero over the edges `e` pointing at the node,
    divided by the node's count `c`. -/
def meanAgg {n d : ℕ} {ι : Type} (E : Fin n → Finset ι) (g : ι → Fin n) (c : Fin n → EReal) (Z : Mat n d) : Mat n d :=
  fun i => Ideal.div (Ideal.ofBits .f32 0x00000000#32 + ∑ e ∈ E (i 0), Z (ix2 (g e) (i 1))) (c (i 0))

/-- The neighbour mean read at `(p, q)`. -/
theorem meanAgg_apply {n d : ℕ} {ι : Type} (E : Fin n → Finset ι) (g : ι → Fin n) (c : Fin n → EReal) (Z : Mat n d)
    (p : Fin n) (q : Fin d) :
    meanAgg E g c Z (ix2 p q) = Ideal.div (Ideal.ofBits .f32 0x00000000#32 + ∑ e ∈ E p, Z (ix2 (g e) q)) (c p) := rfl

/-- The host's division read at an index. -/
theorem hostDivf_apply {s : Shape} (a b : FVec Ideal s .f32) (i : s.Idx) : Host.divf a b i = Ideal.div (a i) (b i) := rfl

/-- The entrywise sum of two arrays. -/
def plus {n h : ℕ} (A B : Mat n h) : Mat n h := fun i => A i + B i

/-- The maximum of row `p`, folded from the word of `-∞`. -/
def rowmax {n h : ℕ} (Y : Mat n h) (p : Fin n) : EReal :=
  (Finset.univ : Finset (Fin h)).fold max (Ideal.ofBits .f32 0xFF800000#32) (fun k => Y (ix2 p k))

/-- The log-softmax of every row. -/
def logsm {n h : ℕ} (Y : Mat n h) : Mat n h :=
  fun i => (Y i - rowmax Y (i 0)) - Ideal.log (∑ k : Fin h, Ideal.exp (Y (ix2 (i 0) k) - rowmax Y (i 0)))

/-- From the hidden array to the result: normalise the rows, `relu`, two dense layers, log-softmax. -/
def head {n d o : ℕ} (H : Mat n d) (W1 : Mat d d) (b1 : Row d) (W2 : Mat d o) (b2 : Row o) : Mat n o :=
  logsm (dense (dense (relu (unit H)) W1 b1) W2 b2)

/-! ## Each entry depends on one row -/

theorem rowmax_row {n n' h : ℕ} (Y : Mat n h) (Y' : Mat n' h) (p : Fin n) (p' : Fin n')
    (hY : ∀ k : Fin h, Y (ix2 p k) = Y' (ix2 p' k)) : rowmax Y p = rowmax Y' p' := by
  unfold rowmax
  rw [show (fun k => Y (ix2 p k)) = fun k => Y' (ix2 p' k) from funext hY]

theorem logsm_row {n n' h : ℕ} (Y : Mat n h) (Y' : Mat n' h) (p : Fin n) (p' : Fin n') (q : Fin h)
    (hY : ∀ k : Fin h, Y (ix2 p k) = Y' (ix2 p' k)) : logsm Y (ix2 p q) = logsm Y' (ix2 p' q) := by
  unfold logsm
  show (Y (ix2 p q) - rowmax Y p) - Ideal.log (∑ k : Fin h, Ideal.exp (Y (ix2 p k) - rowmax Y p))
     = (Y' (ix2 p' q) - rowmax Y' p') - Ideal.log (∑ k : Fin h, Ideal.exp (Y' (ix2 p' k) - rowmax Y' p'))
  rw [rowmax_row Y Y' p p' hY, hY q]
  exact congrArg _ (congrArg _ (Finset.sum_congr rfl fun k _ => by rw [hY k]))

theorem head_row {n n' d o : ℕ} (H : Mat n d) (H' : Mat n' d) (W1 : Mat d d) (b1 : Row d) (W2 : Mat d o) (b2 : Row o)
    (p : Fin n) (p' : Fin n') (q : Fin o) (hH : ∀ k : Fin d, H (ix2 p k) = H' (ix2 p' k)) :
    head H W1 b1 W2 b2 (ix2 p q) = head H' W1 b1 W2 b2 (ix2 p' q) := by
  unfold head
  refine logsm_row _ _ p p' q fun k => ?_
  refine dense_row _ _ W2 b2 p p' k fun k' => ?_
  refine dense_row _ _ W1 b1 p p' k' fun k'' => ?_
  exact relu_row _ _ p p' k'' (unit_row H H' p p' k'' hH)

/-! ## The projection commutes with the neighbour mean -/

/-- A finite sum of real numbers, as an extended real, is the sum of their coercions. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The floored count is a nonzero real. -/
theorem cntOf_real {n : ℕ} {ι : Type} (E : Fin n → Finset ι) (p : Fin n) : ∃ r : ℝ, r ≠ 0 ∧ cntOf E p = (r : EReal) := by
  refine ⟨max (0 + ∑ _e ∈ E p, (1 : ℝ)) 1, ?_, ?_⟩
  · have : (1 : ℝ) ≤ max (0 + ∑ _e ∈ E p, (1 : ℝ)) 1 := le_max_right _ _
    intro h; rw [h] at this; norm_num at this
  · unfold cntOf
    rw [zero_word, one_word, coe_sum, ← EReal.coe_zero, ← EReal.coe_add]
    exact (EReal.coe_strictMono.monotone.map_max).symm

/-- For finite `X` and `W` and nonzero real counts, the product of the neighbour mean of `X` with `W` is the
    neighbour mean of the product. -/
theorem mm_meanAgg {n d h : ℕ} {ι : Type} (E : Fin n → Finset ι) (g : ι → Fin n) (c : Fin n → EReal)
    (hc : ∀ p, ∃ r : ℝ, r ≠ 0 ∧ c p = (r : EReal))
    (X : Mat n d) (W : Mat d h) (hX : ∀ i, ∃ r : ℝ, X i = (r : EReal)) (hW : ∀ i, ∃ r : ℝ, W i = (r : EReal)) :
    mm (meanAgg E g c X) W = meanAgg E g c (mm X W) := by
  choose x hx using hX
  choose w hw using hW
  choose r hr0 hr using hc
  funext i
  obtain ⟨p, q, rfl⟩ : ∃ (p : Fin n) (q : Fin h), i = ix2 p q := ⟨i 0, i 1, eq_ix2 i⟩
  show ∑ k : Fin d, Ideal.div (Ideal.ofBits .f32 0x00000000#32 + ∑ e ∈ E p, X (ix2 (g e) k)) (c p) * W (ix2 k q)
     = Ideal.div (Ideal.ofBits .f32 0x00000000#32 + ∑ e ∈ E p, ∑ k : Fin d, X (ix2 (g e) k) * W (ix2 k q)) (c p)
  rw [hr p, zero_word]
  simp only [hx, hw, Ideal.div_coe (hr0 p), zero_add, coe_sum, ← EReal.coe_mul]
  refine congrArg _ ?_
  simp only [Finset.sum_mul]
  rw [Finset.sum_comm]
  exact Finset.sum_congr rfl fun e _ => Finset.sum_congr rfl fun k _ => by ring

end Cert.Net

end
-- ==== Proof.Spell.lean ====
/-
  The log-softmax of the rows as a kernel body and as the host spell it.

  A body reduces lanes: the row maximum from the word of `-∞`, kept as a column and broadcast back over the row; the
  sum of the exponentials of the shifted row likewise; the logarithm of that column broadcast back. The host reduces
  with an initial value, takes one more maximum against `-∞` (which changes nothing: a maximum folded from `-∞` is at
  least `-∞`), and broadcasts in two steps. Over the extended reals both are the same function of the row.
-/
import Idealize.ShloMosaic.PureOps.Ideal.Laws
import Idealize.ShloMosaic.Lib.Pipeline.Value
import Idealize.ShloMosaic.Lib.ValueIdx
import proofs.«146005_j86466281603776_2_alg».proof.Proof.Spec

noncomputable section

namespace Cert.Net

open Idealize.ShloMosaic Idealize.ShloMosaic.ValueIdx Cert.Layers Cert.Sage

/-- A vector cast to one row, read back as a vector. -/
theorem rowOf_shapeCast {h : ℕ} (x : FVec Ideal (⟨1, ![h]⟩ : Shape) .f32)
    (hsc : (⟨1, ![h]⟩ : Shape).ShapeCasts ⟨2, ![1, h]⟩) : rowOf (shapeCast ⟨2, ![1, h]⟩ x hsc) = x := by
  funext i
  obtain ⟨q, rfl⟩ : ∃ q : Fin h, i = ix1 q := ⟨i 0, eq_ix1 i⟩
  show shapeCast ⟨2, ![1, h]⟩ x hsc (ix2 (0 : Fin 1) q) = x (ix1 q)
  exact shapeCast_apply x hsc _ _ (by
    rw [Shape.rowMajor_val_two, Shape.rowMajor_val_one]
    show q.val = 0 * h + q.val
    omega)

/-- The body's row maximum at row `p`. -/
theorem kernel_rowmax {n h : ℕ} (Y : FVec Ideal (⟨2, ![n, h]⟩ : Shape) .f32)
    (hred : (⟨2, ![n, h]⟩ : Shape).Reduces [1] ⟨1, ![n]⟩) (hφ : FKind.Formats .f32)
    (hacc : (0xFF800000#32 : BitVec (FTy.bits .f32)) = FKind.maximumf.neutral .f32 hφ) (p : Fin n) :
    multiReduction (F := Ideal) .maximumf [1] ⟨1, ![n]⟩ Y 0xFF800000#32 hred hφ hacc (ix1 p) = rowmax Y p := by
  rw [Ideal.multiReduction_maximumf_single]
  unfold rowmax
  exact congrArg (fun f => Finset.fold max (Ideal.ofBits .f32 0xFF800000#32) f Finset.univ)
    (funext fun k => congrArg Y (Cert.LibKeepdims.lift_row hred p k))

/-- The body's log-softmax. -/
theorem kernel_logsm {n h : ℕ} (Y : FVec Ideal (⟨2, ![n, h]⟩ : Shape) .f32)
    (hred : (⟨2, ![n, h]⟩ : Shape).Reduces [1] ⟨1, ![n]⟩) (hφ : FKind.Formats .f32)
    (haccM : (0xFF800000#32 : BitVec (FTy.bits .f32)) = FKind.maximumf.neutral .f32 hφ)
    (haccA : (0x00000000#32 : BitVec (FTy.bits .f32)) = FKind.add.neutral .f32 hφ)
    (hsc : (⟨1, ![n]⟩ : Shape).ShapeCasts ⟨2, ![n, 1]⟩)
    (hb : (⟨2, ![n, 1]⟩ : Shape).Broadcasts ⟨2, ![n, h]⟩)
    (S : FVec Ideal (⟨2, ![n, h]⟩ : Shape) .f32)
    (hS : S = subf Y (broadcastTo ⟨2, ![n, h]⟩ (shapeCast ⟨2, ![n, 1]⟩
      (multiReduction (F := Ideal) .maximumf [1] ⟨1, ![n]⟩ Y 0xFF800000#32 hred hφ haccM) hsc) hb)) :
    subf S (broadcastTo ⟨2, ![n, h]⟩ (log (shapeCast ⟨2, ![n, 1]⟩
      (multiReduction (F := Ideal) .add [1] ⟨1, ![n]⟩ (exp S) 0x00000000#32 hred hφ haccA) hsc)) hb) = logsm Y := by
  have hSat : ∀ (p : Fin n) (q : Fin h), S (ix2 p q) = Y (ix2 p q) - rowmax Y p := by
    intro p q
    rw [hS]
    show Y (ix2 p q) - broadcastTo ⟨2, ![n, h]⟩ _ hb (ix2 p q) = _
    rw [Cert.LibKeepdims.broadcastTo_a1_ab_apply, Cert.LibKeepdims.shapeCast_a_a1_apply, kernel_rowmax]
  funext j
  obtain ⟨p, q, rfl⟩ : ∃ (p : Fin n) (q : Fin h), j = ix2 p q := ⟨j 0, j 1, eq_ix2 j⟩
  show S (ix2 p q) - broadcastTo ⟨2, ![n, h]⟩ _ hb (ix2 p q)
    = (Y (ix2 p q) - rowmax Y p) - Ideal.log (∑ k : Fin h, Ideal.exp (Y (ix2 p k) - rowmax Y p))
  rw [hSat, Cert.LibKeepdims.broadcastTo_a1_ab_apply]
  show _ - Ideal.log (shapeCast ⟨2, ![n, 1]⟩ _ hsc (ix2 p (0 : Fin 1))) = _
  rw [Cert.LibKeepdims.shapeCast_a_a1_apply, Ideal.multiReduction_add_single]
  refine congrArg (fun z => (Y (ix2 p q) - rowmax Y p) - Ideal.log z) (Finset.sum_congr rfl fun k _ => ?_)
  exact (congrArg (exp S) (Cert.LibKeepdims.lift_row hred p k)).trans (congrArg Ideal.exp (hSat p k))

/-- The host's row maximum at row `p`: the reduction from `-∞`, and one more maximum against `-∞`. -/
theorem host_rowmax {n h : ℕ} (Y : FVec Ideal (⟨2, ![n, h]⟩ : Shape) .f32)
    (red : (⟨2, ![n, h]⟩ : Shape).ReducesTo [1] ⟨1, ![n]⟩) (hu : 0 < (⟨0, ![]⟩ : Shape).numel)
    (h0 : (⟨0, ![]⟩ : Shape).BroadcastsInDim ⟨1, ![n]⟩ ![]) (p : Fin n) :
    maximumf (broadcastInDim ⟨1, ![n]⟩ ![] h0 (constant (F := Ideal) (⟨0, ![]⟩ : Shape) .f32 0xFF800000#32))
      (Host.reduce (FloatOps.maximumf (F := Ideal) (φ := .f32)) Y (constant (F := Ideal) (⟨0, ![]⟩ : Shape) .f32 0xFF800000#32) red hu) (ix1 p)
      = rowmax Y p := by
  show max (broadcastInDim (s := (⟨0, ![]⟩ : Shape)) ⟨1, ![n]⟩ ![] h0 _ (ix1 p))
    (Host.reduce (max : EReal → EReal → EReal) Y (constant (F := Ideal) (⟨0, ![]⟩ : Shape) .f32 0xFF800000#32) red hu (ix1 p)) = _
  rw [Host.reduce_eq_fold_single (max : EReal → EReal → EReal) Y _ red ⟨red.1, Nat.one_pos, red.2⟩ hu (ix1 p),
    broadcastInDim_apply ![] h0 _ (ix1 p) ix0 (fun a => a.elim0)]
  show max (Ideal.ofBits .f32 0xFF800000#32) (Finset.fold max (Ideal.ofBits .f32 0xFF800000#32) _ Finset.univ) = rowmax Y p
  rw [max_eq_right ((Finset.le_fold_max _).mpr (Or.inl le_rfl))]
  unfold rowmax
  exact congrArg (fun f => Finset.fold max (Ideal.ofBits .f32 0xFF800000#32) f Finset.univ)
    (funext fun k => congrArg Y (Cert.LibKeepdims.lift_row ⟨red.1, Nat.one_pos, red.2⟩ p k))

/-- The host's log-softmax. -/
theorem host_logsm {n h : ℕ} (Y : FVec Ideal (⟨2, ![n, h]⟩ : Shape) .f32)
    (red : (⟨2, ![n, h]⟩ : Shape).ReducesTo [1] ⟨1, ![n]⟩) (hu : 0 < (⟨0, ![]⟩ : Shape).numel)
    (h0 : (⟨0, ![]⟩ : Shape).BroadcastsInDim ⟨1, ![n]⟩ ![])
    (hc : (⟨1, ![n]⟩ : Shape).BroadcastsInDim ⟨2, ![n, 1]⟩ ![0])
    (hb : (⟨2, ![n, 1]⟩ : Shape).BroadcastsInDim ⟨2, ![n, h]⟩ ![0, 1])
    (S : FVec Ideal (⟨2, ![n, h]⟩ : Shape) .f32)
    (hS : S = subf Y (broadcastInDim ⟨2, ![n, h]⟩ ![0, 1] hb (broadcastInDim ⟨2, ![n, 1]⟩ ![0] hc
      (maximumf (broadcastInDim ⟨1, ![n]⟩ ![] h0 (constant (F := Ideal) (⟨0, ![]⟩ : Shape) .f32 0xFF800000#32))
        (Host.reduce (FloatOps.maximumf (F := Ideal) (φ := .f32)) Y (constant (F := Ideal) (⟨0, ![]⟩ : Shape) .f32 0xFF800000#32) red hu))))) :
    subf S (broadcastInDim ⟨2, ![n, h]⟩ ![0, 1] hb (Host.log (broadcastInDim ⟨2, ![n, 1]⟩ ![0] hc
      (Host.reduceAdd (Host.exp S) (constant (F := Ideal) (⟨0, ![]⟩ : Shape) .f32 0x00000000#32) red hu)))) = logsm Y := by
  have hSat : ∀ (p : Fin n) (q : Fin h), S (ix2 p q) = Y (ix2 p q) - rowmax Y p := by
    intro p q
    rw [hS]
    show Y (ix2 p q) - broadcastInDim (s := (⟨2, ![n, 1]⟩ : Shape)) ⟨2, ![n, h]⟩ ![0, 1] hb _ (ix2 p q) = _
    rw [Cert.LibHostLayout.broadcastInDim_a1_ab_apply, Cert.LibHostLayout.broadcastInDim_a_a1_apply, host_rowmax]
  funext j
  obtain ⟨p, q, rfl⟩ : ∃ (p : Fin n) (q : Fin h), j = ix2 p q := ⟨j 0, j 1, eq_ix2 j⟩
  show S (ix2 p q) - broadcastInDim (s := (⟨2, ![n, 1]⟩ : Shape)) ⟨2, ![n, h]⟩ ![0, 1] hb _ (ix2 p q)
    = (Y (ix2 p q) - rowmax Y p) - Ideal.log (∑ k : Fin h, Ideal.exp (Y (ix2 p k) - rowmax Y p))
  rw [hSat, Cert.LibHostLayout.broadcastInDim_a1_ab_apply]
  show _ - Ideal.log (broadcastInDim (s := (⟨1, ![n]⟩ : Shape)) ⟨2, ![n, 1]⟩ ![0] hc _ (ix2 p (0 : Fin 1))) = _
  rw [Cert.LibHostLayout.broadcastInDim_a_a1_apply]
  show _ - Ideal.log (Ideal.hostReduceAdd red (Host.exp S) (Ideal.ofBits .f32 0x00000000#32) (ix1 p)) = _
  rw [host_rowsum, Ideal.ofBits_zero_f32, zero_add]
  refine congrArg (fun z => (Y (ix2 p q) - rowmax Y p) - Ideal.log z) (Finset.sum_congr rfl fun k _ => ?_)
  show Ideal.exp (S (ix2 p k)) = _
  rw [hSat]

end Cert.Net

end
-- ==== Proof.KBody.lean ====
/-
  What the two kernel bodies compute, at the exact values.

  The projection body multiplies its block of rows of the features with each of the two transposed weight arrays
  (the rounding of the operands to a shorter float format is the identity on the extended reals). The final body
  adds its blocks of the two projected arrays, divides every row by its floored Euclidean norm, applies `relu`, two
  dense layers and the log-softmax of every row: the function `head` of the sum of its first two blocks.
-/
import proofs.«146005_j86466281603776_2_alg».proof.Proof.Gen.KernelIdeal.Frame
import proofs.«146005_j86466281603776_2_alg».proof.Proof.Spec
import proofs.«146005_j86466281603776_2_alg».proof.Proof.Spell

set_option maxRecDepth 16384

noncomputable section

namespace Cert.KernelIdeal.KBody

open Cert.KernelIdeal Cert.KernelIdeal.Gen Idealize.ShloMosaic Idealize.ShloMosaic.ValueIdx Cert.Layers Cert.Sage Cert.Net

theorem hz : (![0, 0] : Fin 2 → Nat) = fun _ => 0 := funext fun a => by fin_cases a <;> rfl
theorem hz1 : (![0] : Fin 1 → Nat) = fun _ => 0 := funext fun a => by fin_cases a <;> rfl

/-- The projection through the first weight array. -/
theorem pay2_eq (x0 : Vec Ideal S5000x128 .f32) (x1 : Vec Ideal S128x32 .f32) : k0_pay2 (F := Ideal) x0 x1 = mm x0 x1 := by
  unfold k0_pay2 k0_pay1
  dsimp only
  rw [shapeCast_self]
  exact kernel_matmul dot_S5000x128_S128x32_S5000x32_1_0_0_1_n_n rfl rfl (fun _ _ => rfl) (fun _ _ => rfl) (fun _ _ => rfl) (fun _ _ => rfl) none _ _

/-- The projection through the second weight array. -/
theorem pay3_eq (x0 : Vec Ideal S5000x128 .f32) (x2 : Vec Ideal S128x32 .f32) : k0_pay3 (F := Ideal) x0 x2 = mm x0 x2 := by
  unfold k0_pay3 k0_pay1
  dsimp only
  rw [shapeCast_self]
  exact kernel_matmul dot_S5000x128_S128x32_S5000x32_1_0_0_1_n_n rfl rfl (fun _ _ => rfl) (fun _ _ => rfl) (fun _ _ => rfl) (fun _ _ => rfl) none _ _

theorem out0_3_eq (x0 : Vec Ideal S5000x128 .f32) (x1 x2 : Vec Ideal S128x32 .f32) : out0_3 (F := Ideal) x0 x1 x2 = mm x0 x1 := by
  unfold out0_3
  rw [View.canon_unit_zero hz]
  simp only [View.ld_unit_zero (S := S5000x128) hz, View.ld_unit_zero (S := S128x32) hz]
  exact pay2_eq x0 x1

theorem out0_4_eq (x0 : Vec Ideal S5000x128 .f32) (x1 x2 : Vec Ideal S128x32 .f32) : out0_4 (F := Ideal) x0 x1 x2 = mm x0 x2 := by
  unfold out0_4
  rw [View.canon_unit_zero hz]
  simp only [View.ld_unit_zero (S := S5000x128) hz, View.ld_unit_zero (S := S128x32) hz]
  exact pay3_eq x0 x2

/-- The logits of a block: the sum of the two projected blocks, normalised, `relu`, two dense layers. -/
def logits (x0 x1 : Vec Ideal S5000x32 .f32) (x2 : Vec Ideal S32x32 .f32) (x3 : Vec Ideal S32 .f32)
    (x4 : Vec Ideal S32x40 .f32) (x5 : Vec Ideal S40 .f32) : Mat 5000 40 :=
  dense (dense (relu (unit (plus x0 x1))) x2 x3) x4 x5

/-- A dense layer as a body spells it: the product of the rounded operands into a zero accumulator, plus the bias
    vector cast to one row and broadcast down the rows. -/
theorem kernel_dense {n d h : ℕ}
    (D : DotDims (⟨2, ![n, d]⟩ : Shape) (⟨2, ![d, h]⟩ : Shape) (⟨2, ![n, h]⟩ : Shape))
    (hrank : D.contr.rank = 1) (hsize : D.contr.size ⟨0, by omega⟩ = d)
    (hl0 : ∀ (j : (⟨2, ![n, h]⟩ : Shape).Idx) (k : D.contr.Idx), (D.lhsIdx j k 0).val = (j 0).val)
    (hl1 : ∀ (j : (⟨2, ![n, h]⟩ : Shape).Idx) (k : D.contr.Idx), (D.lhsIdx j k 1).val = (k ⟨0, by omega⟩).val)
    (hr0 : ∀ (j : (⟨2, ![n, h]⟩ : Shape).Idx) (k : D.contr.Idx), (D.rhsIdx j k 0).val = (k ⟨0, by omega⟩).val)
    (hr1 : ∀ (j : (⟨2, ![n, h]⟩ : Shape).Idx) (k : D.contr.Idx), (D.rhsIdx j k 1).val = (j 1).val)
    (X : FVec Ideal (⟨2, ![n, d]⟩ : Shape) .f32) (W : FVec Ideal (⟨2, ![d, h]⟩ : Shape) .f32)
    (b : FVec Ideal (⟨1, ![h]⟩ : Shape) .f32) (N : Mat n d) (hX : X = N)
    (hsc : (⟨1, ![h]⟩ : Shape).ShapeCasts ⟨2, ![1, h]⟩) (hb : (⟨2, ![1, h]⟩ : Shape).Broadcasts ⟨2, ![n, h]⟩)
    (hbits : (FTy.bf16).bits < (FTy.f32).bits) :
    addf (matmul D none (truncf .bf16 X hbits) (truncf .bf16 W hbits) (constant (F := Ideal) (⟨2, ![n, h]⟩ : Shape) .f32 0x00000000#32))
      (broadcastTo ⟨2, ![n, h]⟩ (shapeCast ⟨2, ![1, h]⟩ b hsc) hb) = dense N W b := by
  subst hX
  rw [kernel_matmul D hrank hsize hl0 hl1 hr0 hr1 none, kernel_addRow, rowOf_shapeCast]
  rfl

/-- The logits, as the body spells them. -/
theorem logits_eq (x0 x1 : Vec Ideal S5000x32 .f32) (x2 : Vec Ideal S32x32 .f32) (x3 : Vec Ideal S32 .f32)
    (x4 : Vec Ideal S32x40 .f32) (x5 : Vec Ideal S40 .f32) :
    addf (matmul dot_S5000x32_S32x40_S5000x40_1_0_0_1_n_n none
        (truncf .bf16 (addf (matmul dot_S5000x32_S32x32_S5000x32_1_0_0_1_n_n none
            (truncf .bf16 (maximumf (divf (addf x0 x1) (broadcastTo S5000x32 (maximumf (sqrt (shapeCast S5000x1
                (multiReduction (F := Ideal) .add [1] S5000 (mulf (addf x0 x1) (addf x0 x1)) 0x00000000#32 reduces_S5000x32_S5000 (.inl rfl) rfl)
                shapeCasts_S5000_S5000x1)) (broadcast S5000x1 (Scalar.ofBits (F := Ideal) .f32 0x2B8CBCCC#32))) broadcasts_S5000x1_S5000x32))
              (broadcast S5000x32 (Scalar.ofBits (F := Ideal) .f32 0x00000000#32))) bitsLt_bf16_f32)
            (truncf .bf16 x2 bitsLt_bf16_f32) (constant (F := Ideal) S5000x32 .f32 0x00000000#32))
          (broadcastTo S5000x32 (shapeCast S1x32 x3 shapeCasts_S32_S1x32) broadcasts_S1x32_S5000x32)) bitsLt_bf16_f32)
        (truncf .bf16 x4 bitsLt_bf16_f32) (constant (F := Ideal) S5000x40 .f32 0x00000000#32))
      (broadcastTo S5000x40 (shapeCast S1x40 x5 shapeCasts_S40_S1x40) broadcasts_S1x40_S5000x40)
    = logits x0 x1 x2 x3 x4 x5 :=
  kernel_dense dot_S5000x32_S32x40_S5000x40_1_0_0_1_n_n rfl rfl (fun _ _ => rfl) (fun _ _ => rfl) (fun _ _ => rfl) (fun _ _ => rfl)
    _ x4 x5 (dense (relu (unit (plus x0 x1))) x2 x3)
    (kernel_dense dot_S5000x32_S32x32_S5000x32_1_0_0_1_n_n rfl rfl (fun _ _ => rfl) (fun _ _ => rfl) (fun _ _ => rfl) (fun _ _ => rfl)
      _ x2 x3 (relu (unit (plus x0 x1)))
      (kernel_unit_relu (addf x0 x1) (plus x0 x1) rfl reduces_S5000x32_S5000 (.inl rfl) rfl shapeCasts_S5000_S5000x1 broadcasts_S5000x1_S5000x32)
      shapeCasts_S32_S1x32 broadcasts_S1x32_S5000x32 bitsLt_bf16_f32)
    shapeCasts_S40_S1x40 broadcasts_S1x40_S5000x40 bitsLt_bf16_f32

/-- The shifted logits, as the body spells them over the logits. -/
theorem pay2'_eq (x0 x1 : Vec Ideal S5000x32 .f32) (x2 : Vec Ideal S32x32 .f32) (x3 : Vec Ideal S32 .f32)
    (x4 : Vec Ideal S32x40 .f32) (x5 : Vec Ideal S40 .f32) :
    k1_pay2 (F := Ideal) x0 x1 x2 x3 x4 x5
      = subf (logits x0 x1 x2 x3 x4 x5) (broadcastTo S5000x40 (shapeCast S5000x1
          (multiReduction (F := Ideal) .maximumf [1] S5000 (logits x0 x1 x2 x3 x4 x5) 0xFF800000#32 reduces_S5000x40_S5000 (.inl rfl) rfl)
          shapeCasts_S5000_S5000x1) broadcasts_S5000x1_S5000x40) := by
  unfold k1_pay2
  dsimp only
  rw [shapeCast_self, shapeCast_self, shapeCast_self, shapeCast_self]
  exact congrArg (fun Y : FVec Ideal S5000x40 .f32 => subf Y (broadcastTo S5000x40 (shapeCast S5000x1
          (multiReduction (F := Ideal) .maximumf [1] S5000 Y 0xFF800000#32 reduces_S5000x40_S5000 (.inl rfl) rfl)
          shapeCasts_S5000_S5000x1) broadcasts_S5000x1_S5000x40)) (logits_eq x0 x1 x2 x3 x4 x5)

/-- The final body's output block is `head` of the sum of its two projected blocks. -/
theorem out1_6_eq (x0 x1 : Vec Ideal S5000x32 .f32) (x2 : Vec Ideal S32x32 .f32) (x3 : Vec Ideal S32 .f32)
    (x4 : Vec Ideal S32x40 .f32) (x5 : Vec Ideal S40 .f32) :
    out1_6 (F := Ideal) x0 x1 x2 x3 x4 x5 = head (plus x0 x1) x2 x3 x4 x5 := by
  unfold out1_6
  rw [View.canon_unit_zero hz]
  simp only [View.ld_unit_zero (S := S5000x32) hz, View.ld_unit_zero (S := S32x32) hz, View.ld_unit_zero (S := S32x40) hz,
    View.ld_unit_zero (S := S32) hz1, View.ld_unit_zero (S := S40) hz1]
  unfold k1_pay1 k1_pay3
  dsimp only
  exact kernel_logsm (logits x0 x1 x2 x3 x4 x5) reduces_S5000x40_S5000 (.inl rfl) rfl rfl shapeCasts_S5000_S5000x1
    broadcasts_S5000x1_S5000x40 (k1_pay2 (F := Ideal) x0 x1 x2 x3 x4 x5) (pay2'_eq x0 x1 x2 x3 x4 x5)

end Cert.KernelIdeal.KBody

end
-- ==== Proof.KArr.lean ====
/-
  The arrays the two regions leave, as functions of the arrays they find.

  Both regions walk ten blocks of 5000 rows. A block of the projection's outputs is the product of the same block of
  rows of the features with a whole weight array, and a block of the final output is `head` of the same block of rows
  of the two projected arrays: every entry of a product, and of `head`, depends on one row of its input only. The
  ten blocks tile the 50000 rows, so each output array ends holding the function of the whole input arrays.
-/
import proofs.«146005_j86466281603776_2_alg».proof.Proof.Gen.KernelIdeal.Frame
import proofs.«146005_j86466281603776_2_alg».proof.Proof.KBody
import proofs.«146005_j86466281603776_2_alg».proof.Proof.Spec

set_option maxRecDepth 16384

noncomputable section

namespace Cert.KernelIdeal.KArr

open Cert.KernelIdeal Cert.KernelIdeal.Gen Idealize.ShloMosaic Idealize.ShloMosaic.TcCoe Idealize.ShloMosaic.ValueIdx Idealize.SL.Sem Cert.Layers Cert.Sage Cert.Net
open Idealize.ShloMosaic.Pipeline (Dat Cfg Window)

variable (V : (c : Dev nD) → (b : Ref sig .tc) → Buf (Elt Ideal) ((c : Thread nD τ).loc b))

/-! ## The projection region -/

/-- The printed index maps over the grid: the row-blocked windows move together along axis 0, the weight windows stay. -/
theorem idx0 : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0
    ∧ win0_4.index t (0 : Fin 2) = win0_3.index t (0 : Fin 2) ∧ win0_4.index t (1 : Fin 2) = 0
    ∧ win0_3.index t (0 : Fin 2) ≤ 9 :=
  (by decide +kernel : ∀ t : Fin grid0.N, _)

/-- Every one of the ten row blocks is some point's. -/
theorem onto0 : ∀ q0 : Fin 10, ∃ t : Fin cfg0.N, win0_3.index t = ![q0.val, 0] ∧ win0_4.index t = ![q0.val, 0] :=
  (by decide +kernel : ∀ q0 : Fin 10, ∃ t : Fin grid0.N, win0_3.index t = ![q0.val, 0] ∧ win0_4.index t = ![q0.val, 0])

/-- Window 1 of region 0 holds its whole array at every point. -/
theorem iblk0_1 (c : Dev nD) (t : Fin cfg0.N) : iblk0 V c 1 t = V c (Pipeline.arrRef spec0 1) := by
  have hf := idx0 t
  funext y
  show V c (Pipeline.arrRef spec0 1) (((cfg0.win 1).blk t).view.emb y) = V c (Pipeline.arrRef spec0 1) y
  refine congrArg _ (funext fun a => Fin.ext ?_)
  match a with
    | ⟨0, _⟩ => show win0_1.index t (0 : Fin 2) * 128 + 1 * (y 0).val = (y 0).val; omega
    | ⟨1, _⟩ => show win0_1.index t (1 : Fin 2) * 32 + 1 * (y 1).val = (y 1).val; omega

/-- Window 2 of region 0 holds its whole array at every point. -/
theorem iblk0_2 (c : Dev nD) (t : Fin cfg0.N) : iblk0 V c 2 t = V c (Pipeline.arrRef spec0 2) := by
  have hf := idx0 t
  funext y
  show V c (Pipeline.arrRef spec0 2) (((cfg0.win 2).blk t).view.emb y) = V c (Pipeline.arrRef spec0 2) y
  refine congrArg _ (funext fun a => Fin.ext ?_)
  match a with
    | ⟨0, _⟩ => show win0_2.index t (0 : Fin 2) * 128 + 1 * (y 0).val = (y 0).val; omega
    | ⟨1, _⟩ => show win0_2.index t (1 : Fin 2) * 32 + 1 * (y 1).val = (y 1).val; omega

/-- What point `t` writes back through output window 3: its block of the product of the features with weight array 1. -/
theorem flushed0_3 (c : Dev nD) (t : Fin cfg0.N) :
    (dat0 V c).flushed 3 t = ((cfg0.win 3).blk t).view.read (Elt Ideal)
      (mm (n := 50000) (d := 128) (h := 32) (V c (Pipeline.arrRef spec0 0)) (V c (Pipeline.arrRef spec0 1))) := by
  show (cfg0.win 3).cut (grid0.coords t) ((dat0 V c).after 3 t) = _
  rw [after0_3, KBody.out0_3_eq, iblk0_1]
  obtain ⟨e0, e1, _, _, _, _, e6, e7, e8, e9⟩ := idx0 t
  funext j
  obtain ⟨r, q, rfl⟩ : ∃ (r : Fin 5000) (q : Fin 32), j = ix2 r q := ⟨j 0, j 1, eq_ix2 j⟩
  have hp : win0_3.index t (0 : Fin 2) * 5000 + r.val < 50000 := by have := r.isLt; omega
  have e3 : ((cfg0.win 3).blk t).view.emb (ix2 r q) = ix2 (⟨win0_3.index t (0 : Fin 2) * 5000 + r.val, hp⟩ : Fin 50000) q := by
    funext a; apply Fin.ext
    match a with
    | ⟨0, _⟩ => show win0_3.index t (0 : Fin 2) * 5000 + 1 * r.val = win0_3.index t (0 : Fin 2) * 5000 + r.val; omega
    | ⟨1, _⟩ => show win0_3.index t (1 : Fin 2) * 32 + 1 * q.val = q.val; omega
  show mm (n := 5000) (d := 128) (h := 32) (iblk0 V c 0 t) (V c (Pipeline.arrRef spec0 1)) (ix2 r q)
    = mm (n := 50000) (d := 128) (h := 32) (V c (Pipeline.arrRef spec0 0)) (V c (Pipeline.arrRef spec0 1)) (((cfg0.win 3).blk t).view.emb (ix2 r q))
  rw [e3]
  refine mm_row (n := 5000) (n' := 50000) (d := 128) (h := 32) (iblk0 V c 0 t) (V c (Pipeline.arrRef spec0 0)) (V c (Pipeline.arrRef spec0 1)) r ⟨win0_3.index t (0 : Fin 2) * 5000 + r.val, hp⟩ q fun k => ?_
  show V c (Pipeline.arrRef spec0 0) (((cfg0.win 0).blk t).view.emb (ix2 r k)) = V c (Pipeline.arrRef spec0 0) (ix2 (⟨win0_3.index t (0 : Fin 2) * 5000 + r.val, hp⟩ : Fin 50000) k)
  refine congrArg _ (funext fun a => Fin.ext ?_)
  match a with
  | ⟨0, _⟩ => show win0_0.index t (0 : Fin 2) * 5000 + 1 * r.val = win0_3.index t (0 : Fin 2) * 5000 + r.val; omega
  | ⟨1, _⟩ => show win0_0.index t (1 : Fin 2) * 128 + 1 * k.val = k.val; omega

theorem mem_blk0_3 (t : Fin cfg0.N) (i : S50000x32.Idx) :
    i ∈ ((cfg0.win 3).blk t).view.set ↔ ∀ a : Fin 2, win0_3.index t a * S5000x32.size a ≤ (i a).val ∧ (i a).val < win0_3.index t a * S5000x32.size a + S5000x32.size a := by
  show i ∈ ((View.whole main_v8_0).slice (win0_3.rect t)).set ↔ _
  rw [View.set_slice_whole, Rect.mem_set_unit]
  exact Iff.rfl

/-- The ten blocks cover the array. -/
theorem cover0_3' (i : S50000x32.Idx) : ∃ t : Fin cfg0.N, (cfg0.win 3).flush t = true ∧ i ∈ ((cfg0.win 3).blk t).view.set := by
  have hi0 : (i 0).val < 50000 := (i 0).isLt
  have hi1 : (i 1).val < 32 := (i 1).isLt
  obtain ⟨t, ht3, ht4⟩ := onto0 ⟨(i 0).val / 5000, by omega⟩
  have q0 : win0_3.index t (0 : Fin 2) = (i 0).val / 5000 := congrFun ht3 0
  have q1 : win0_3.index t (1 : Fin 2) = 0 := congrFun ht3 1
  refine ⟨t, flush0_3 t, ?_⟩
  rw [mem_blk0_3]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 32 ≤ (i 1).val ∧ (i 1).val < win0_3.index t (1 : Fin 2) * 32 + 32; omega

/-- The projected array after the region: the product of the whole feature array with the weight array. -/
theorem arr0_3 (c : Dev nD) : (dat0 V c).arrAt 3 cfg0.N
    = mm (n := 50000) (d := 128) (h := 32) (V c (Pipeline.arrRef spec0 0)) (V c (Pipeline.arrRef spec0 1)) :=
  (dat0 V c).arrAt_eq_of_cover 3 _ (fun t _ => flushed0_3 V c t) cover0_3'

/-- What point `t` writes back through output window 4: its block of the product of the features with weight array 2. -/
theorem flushed0_4 (c : Dev nD) (t : Fin cfg0.N) :
    (dat0 V c).flushed 4 t = ((cfg0.win 4).blk t).view.read (Elt Ideal)
      (mm (n := 50000) (d := 128) (h := 32) (V c (Pipeline.arrRef spec0 0)) (V c (Pipeline.arrRef spec0 2))) := by
  show (cfg0.win 4).cut (grid0.coords t) ((dat0 V c).after 4 t) = _
  rw [after0_4, KBody.out0_4_eq, iblk0_2]
  obtain ⟨e0, e1, _, _, _, _, e6, e7, e8, e9⟩ := idx0 t
  funext j
  obtain ⟨r, q, rfl⟩ : ∃ (r : Fin 5000) (q : Fin 32), j = ix2 r q := ⟨j 0, j 1, eq_ix2 j⟩
  have hp : win0_3.index t (0 : Fin 2) * 5000 + r.val < 50000 := by have := r.isLt; omega
  have e3 : ((cfg0.win 4).blk t).view.emb (ix2 r q) = ix2 (⟨win0_3.index t (0 : Fin 2) * 5000 + r.val, hp⟩ : Fin 50000) q := by
    funext a; apply Fin.ext
    match a with
    | ⟨0, _⟩ => show win0_4.index t (0 : Fin 2) * 5000 + 1 * r.val = win0_3.index t (0 : Fin 2) * 5000 + r.val; omega
    | ⟨1, _⟩ => show win0_4.index t (1 : Fin 2) * 32 + 1 * q.val = q.val; omega
  show mm (n := 5000) (d := 128) (h := 32) (iblk0 V c 0 t) (V c (Pipeline.arrRef spec0 2)) (ix2 r q)
    = mm (n := 50000) (d := 128) (h := 32) (V c (Pipeline.arrRef spec0 0)) (V c (Pipeline.arrRef spec0 2)) (((cfg0.win 4).blk t).view.emb (ix2 r q))
  rw [e3]
  refine mm_row (n := 5000) (n' := 50000) (d := 128) (h := 32) (iblk0 V c 0 t) (V c (Pipeline.arrRef spec0 0)) (V c (Pipeline.arrRef spec0 2)) r ⟨win0_3.index t (0 : Fin 2) * 5000 + r.val, hp⟩ q fun k => ?_
  show V c (Pipeline.arrRef spec0 0) (((cfg0.win 0).blk t).view.emb (ix2 r k)) = V c (Pipeline.arrRef spec0 0) (ix2 (⟨win0_3.index t (0 : Fin 2) * 5000 + r.val, hp⟩ : Fin 50000) k)
  refine congrArg _ (funext fun a => Fin.ext ?_)
  match a with
  | ⟨0, _⟩ => show win0_0.index t (0 : Fin 2) * 5000 + 1 * r.val = win0_3.index t (0 : Fin 2) * 5000 + r.val; omega
  | ⟨1, _⟩ => show win0_0.index t (1 : Fin 2) * 128 + 1 * k.val = k.val; omega

theorem mem_blk0_4 (t : Fin cfg0.N) (i : S50000x32.Idx) :
    i ∈ ((cfg0.win 4).blk t).view.set ↔ ∀ a : Fin 2, win0_4.index t a * S5000x32.size a ≤ (i a).val ∧ (i a).val < win0_4.index t a * S5000x32.size a + S5000x32.size a := by
  show i ∈ ((View.whole main_v8_1).slice (win0_4.rect t)).set ↔ _
  rw [View.set_slice_whole, Rect.mem_set_unit]
  exact Iff.rfl

/-- The ten blocks cover the array. -/
theorem cover0_4' (i : S50000x32.Idx) : ∃ t : Fin cfg0.N, (cfg0.win 4).flush t = true ∧ i ∈ ((cfg0.win 4).blk t).view.set := by
  have hi0 : (i 0).val < 50000 := (i 0).isLt
  have hi1 : (i 1).val < 32 := (i 1).isLt
  obtain ⟨t, ht3, ht4⟩ := onto0 ⟨(i 0).val / 5000, by omega⟩
  have q0 : win0_4.index t (0 : Fin 2) = (i 0).val / 5000 := congrFun ht4 0
  have q1 : win0_4.index t (1 : Fin 2) = 0 := congrFun ht4 1
  refine ⟨t, flush0_4 t, ?_⟩
  rw [mem_blk0_4]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 32 ≤ (i 1).val ∧ (i 1).val < win0_4.index t (1 : Fin 2) * 32 + 32; omega

/-- The projected array after the region: the product of the whole feature array with the weight array. -/
theorem arr0_4 (c : Dev nD) : (dat0 V c).arrAt 4 cfg0.N
    = mm (n := 50000) (d := 128) (h := 32) (V c (Pipeline.arrRef spec0 0)) (V c (Pipeline.arrRef spec0 2)) :=
  (dat0 V c).arrAt_eq_of_cover 4 _ (fun t _ => flushed0_4 V c t) cover0_4'

/-! ## The final region -/

theorem idx1 : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (1 : Fin 2) = 0 ∧ win1_6.index t (0 : Fin 2) ≤ 9 :=
  (by decide +kernel : ∀ t : Fin grid1.N, _)

theorem onto1 : ∀ q0 : Fin 10, ∃ t : Fin cfg1.N, win1_6.index t = ![q0.val, 0] :=
  (by decide +kernel : ∀ q0 : Fin 10, ∃ t : Fin grid1.N, win1_6.index t = ![q0.val, 0])

/-- Window 2 of region 1 holds its whole array at every point. -/
theorem iblk1_2 (c : Dev nD) (t : Fin cfg1.N) : iblk1 V c 2 t = V c (Pipeline.arrRef spec1 2) := by
  have hf := idx1 t
  funext y
  show V c (Pipeline.arrRef spec1 2) (((cfg1.win 2).blk t).view.emb y) = V c (Pipeline.arrRef spec1 2) y
  refine congrArg _ (funext fun a => Fin.ext ?_)
  match a with
    | ⟨0, _⟩ => show win1_2.index t (0 : Fin 2) * 32 + 1 * (y 0).val = (y 0).val; omega
    | ⟨1, _⟩ => show win1_2.index t (1 : Fin 2) * 32 + 1 * (y 1).val = (y 1).val; omega

/-- Window 3 of region 1 holds its whole array at every point. -/
theorem iblk1_3 (c : Dev nD) (t : Fin cfg1.N) : iblk1 V c 3 t = V c (Pipeline.arrRef spec1 3) := by
  have hf := idx1 t
  funext y
  show V c (Pipeline.arrRef spec1 3) (((cfg1.win 3).blk t).view.emb y) = V c (Pipeline.arrRef spec1 3) y
  refine congrArg _ (funext fun a => Fin.ext ?_)
  match a with
    | ⟨0, _⟩ => show win1_3.index t (0 : Fin 1) * 32 + 1 * (y 0).val = (y 0).val; omega

/-- Window 4 of region 1 holds its whole array at every point. -/
theorem iblk1_4 (c : Dev nD) (t : Fin cfg1.N) : iblk1 V c 4 t = V c (Pipeline.arrRef spec1 4) := by
  have hf := idx1 t
  funext y
  show V c (Pipeline.arrRef spec1 4) (((cfg1.win 4).blk t).view.emb y) = V c (Pipeline.arrRef spec1 4) y
  refine congrArg _ (funext fun a => Fin.ext ?_)
  match a with
    | ⟨0, _⟩ => show win1_4.index t (0 : Fin 2) * 32 + 1 * (y 0).val = (y 0).val; omega
    | ⟨1, _⟩ => show win1_4.index t (1 : Fin 2) * 40 + 1 * (y 1).val = (y 1).val; omega

/-- Window 5 of region 1 holds its whole array at every point. -/
theorem iblk1_5 (c : Dev nD) (t : Fin cfg1.N) : iblk1 V c 5 t = V c (Pipeline.arrRef spec1 5) := by
  have hf := idx1 t
  funext y
  show V c (Pipeline.arrRef spec1 5) (((cfg1.win 5).blk t).view.emb y) = V c (Pipeline.arrRef spec1 5) y
  refine congrArg _ (funext fun a => Fin.ext ?_)
  match a with
    | ⟨0, _⟩ => show win1_5.index t (0 : Fin 1) * 40 + 1 * (y 0).val = (y 0).val; omega

/-- What point `t` writes back: its block of `head` of the sum of the two projected arrays. -/
theorem flushed1_6 (c : Dev nD) (t : Fin cfg1.N) :
    (dat1 V c).flushed 6 t = ((cfg1.win 6).blk t).view.read (Elt Ideal)
      (head (n := 50000) (d := 32) (o := 40) (plus (V c (Pipeline.arrRef spec1 0)) (V c (Pipeline.arrRef spec1 1)))
        (V c (Pipeline.arrRef spec1 2)) (V c (Pipeline.arrRef spec1 3)) (V c (Pipeline.arrRef spec1 4)) (V c (Pipeline.arrRef spec1 5))) := by
  show (cfg1.win 6).cut (grid1.coords t) ((dat1 V c).after 6 t) = _
  rw [after1_6, KBody.out1_6_eq, iblk1_2, iblk1_3, iblk1_4, iblk1_5]
  obtain ⟨e0, e1, e2, e3, _, _, _, _, _, _, e10, e11⟩ := idx1 t
  funext j
  obtain ⟨r, q, rfl⟩ : ∃ (r : Fin 5000) (q : Fin 40), j = ix2 r q := ⟨j 0, j 1, eq_ix2 j⟩
  have hp : win1_6.index t (0 : Fin 2) * 5000 + r.val < 50000 := by have := r.isLt; omega
  have e6 : ((cfg1.win 6).blk t).view.emb (ix2 r q) = ix2 (⟨win1_6.index t (0 : Fin 2) * 5000 + r.val, hp⟩ : Fin 50000) q := by
    funext a; apply Fin.ext
    match a with
    | ⟨0, _⟩ => show win1_6.index t (0 : Fin 2) * 5000 + 1 * r.val = win1_6.index t (0 : Fin 2) * 5000 + r.val; omega
    | ⟨1, _⟩ => show win1_6.index t (1 : Fin 2) * 40 + 1 * q.val = q.val; omega
  show head (n := 5000) (d := 32) (o := 40) (plus (iblk1 V c 0 t) (iblk1 V c 1 t)) (V c (Pipeline.arrRef spec1 2)) (V c (Pipeline.arrRef spec1 3)) (V c (Pipeline.arrRef spec1 4)) (V c (Pipeline.arrRef spec1 5)) (ix2 r q)
    = head (n := 50000) (d := 32) (o := 40) (plus (V c (Pipeline.arrRef spec1 0)) (V c (Pipeline.arrRef spec1 1))) (V c (Pipeline.arrRef spec1 2)) (V c (Pipeline.arrRef spec1 3)) (V c (Pipeline.arrRef spec1 4)) (V c (Pipeline.arrRef spec1 5)) (((cfg1.win 6).blk t).view.emb (ix2 r q))
  rw [e6]
  refine head_row (n := 5000) (n' := 50000) (d := 32) (o := 40) (plus (iblk1 V c 0 t) (iblk1 V c 1 t)) (plus (V c (Pipeline.arrRef spec1 0)) (V c (Pipeline.arrRef spec1 1)))
    (V c (Pipeline.arrRef spec1 2)) (V c (Pipeline.arrRef spec1 3)) (V c (Pipeline.arrRef spec1 4)) (V c (Pipeline.arrRef spec1 5)) r ⟨win1_6.index t (0 : Fin 2) * 5000 + r.val, hp⟩ q fun k => ?_
  have h0 : iblk1 V c 0 t (ix2 r k) = V c (Pipeline.arrRef spec1 0) (ix2 (⟨win1_6.index t (0 : Fin 2) * 5000 + r.val, hp⟩ : Fin 50000) k) := by
    show V c (Pipeline.arrRef spec1 0) (((cfg1.win 0).blk t).view.emb (ix2 r k)) = _
    refine congrArg _ (funext fun a => Fin.ext ?_)
    match a with
    | ⟨0, _⟩ => show win1_0.index t (0 : Fin 2) * 5000 + 1 * r.val = win1_6.index t (0 : Fin 2) * 5000 + r.val; omega
    | ⟨1, _⟩ => show win1_0.index t (1 : Fin 2) * 32 + 1 * k.val = k.val; omega
  have h1 : iblk1 V c 1 t (ix2 r k) = V c (Pipeline.arrRef spec1 1) (ix2 (⟨win1_6.index t (0 : Fin 2) * 5000 + r.val, hp⟩ : Fin 50000) k) := by
    show V c (Pipeline.arrRef spec1 1) (((cfg1.win 1).blk t).view.emb (ix2 r k)) = _
    refine congrArg _ (funext fun a => Fin.ext ?_)
    match a with
    | ⟨0, _⟩ => show win1_1.index t (0 : Fin 2) * 5000 + 1 * r.val = win1_6.index t (0 : Fin 2) * 5000 + r.val; omega
    | ⟨1, _⟩ => show win1_1.index t (1 : Fin 2) * 32 + 1 * k.val = k.val; omega
  exact congrArg₂ (fun (a b : EReal) => a + b) h0 h1

theorem mem_blk1_6 (t : Fin cfg1.N) (i : S50000x40.Idx) :
    i ∈ ((cfg1.win 6).blk t).view.set ↔ ∀ a : Fin 2, win1_6.index t a * S5000x40.size a ≤ (i a).val ∧ (i a).val < win1_6.index t a * S5000x40.size a + S5000x40.size a := by
  show i ∈ ((View.whole main_v28).slice (win1_6.rect t)).set ↔ _
  rw [View.set_slice_whole, Rect.mem_set_unit]
  exact Iff.rfl

theorem cover1_6' (i : S50000x40.Idx) : ∃ t : Fin cfg1.N, (cfg1.win 6).flush t = true ∧ i ∈ ((cfg1.win 6).blk t).view.set := by
  have hi0 : (i 0).val < 50000 := (i 0).isLt
  have hi1 : (i 1).val < 40 := (i 1).isLt
  obtain ⟨t, ht⟩ := onto1 ⟨(i 0).val / 5000, by omega⟩
  have q0 : win1_6.index t (0 : Fin 2) = (i 0).val / 5000 := congrFun ht 0
  have q1 : win1_6.index t (1 : Fin 2) = 0 := congrFun ht 1
  refine ⟨t, flush1_6 t, ?_⟩
  rw [mem_blk1_6]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 40 ≤ (i 1).val ∧ (i 1).val < win1_6.index t (1 : Fin 2) * 40 + 40; omega

/-- The result array after the region: `head` of the sum of the two whole projected arrays. -/
theorem arr1_6 (c : Dev nD) : (dat1 V c).arrAt 6 cfg1.N
    = head (n := 50000) (d := 32) (o := 40) (plus (V c (Pipeline.arrRef spec1 0)) (V c (Pipeline.arrRef spec1 1)))
        (V c (Pipeline.arrRef spec1 2)) (V c (Pipeline.arrRef spec1 3)) (V c (Pipeline.arrRef spec1 4)) (V c (Pipeline.arrRef spec1 5)) :=
  (dat1 V c).arrAt_eq_of_cover 6 _ (fun t _ => flushed1_6 V c t) cover1_6'

end Cert.KernelIdeal.KArr

end
-- ==== Proof.LibEdges.lean ====
/-
  Rows gathered along edges and summed into their targets, read at an index.

  An edge list gives every edge `e` a source and a target node. The gather takes, for edge `e`, the row of an
  `[n, w]` array at the edge's source index (read signed and clamped into the array). The scatter-add puts every
  update row `e` onto the row of the operand at the edge's target index (read signed; an edge whose target is
  outside the array is dropped): entry `(p, q)` of the result is the operand's entry plus the sum, over the edges
  `e` whose target is `p`, of the updates' entry `(e, q)`. The rank-1 form adds one number per edge.
  The coordinate facts of the dimension records are hypotheses, so that one statement serves every record of these
  plain forms.
-/
import Idealize.ShloMosaic.PureOps.Ideal
import Idealize.ShloMosaic.PureOps.Dims
import Idealize.ShloMosaic.Lib.ValueIdx

noncomputable section

namespace Cert.LibEdges

open Idealize.ShloMosaic Idealize.ShloMosaic.ValueIdx

/-- The edges whose target index, read signed off column 0 of the `[m, 1]` index array, is node `p`. -/
def into {n m bw : ℕ} (idx : IVec (⟨2, ![m, 1]⟩ : Shape) bw) (p : Fin n) : Finset (Fin m) :=
  Finset.univ.filter fun e => (idx (ix2 e (0 : Fin 1))).toInt = (p.val : Int)

/-- The source row of edge `e`: its index read signed and clamped into `[0, n - 1]`. -/
def src {n m bw : ℕ} (hn : 0 < n) (idx : IVec (⟨2, ![m, 1]⟩ : Shape) bw) (e : Fin m) : Fin n :=
  ⟨min (idx (ix2 e (0 : Fin 1))).toInt.toNat (n - 1), by omega⟩

/-- GENERAL LEMMA. A gather of whole rows of an `[n, w]` array, one per start index of an `[m, 1]` index array, reads
    at `(e, b)` the array at `(src e, b)`. -/
theorem gather_rows {α : Type} {n m w bw : ℕ} (hn : 0 < n)
    (d : GatherDims (⟨2, ![n, w]⟩ : Shape) (⟨2, ![m, 1]⟩ : Shape) (⟨2, ![m, w]⟩ : Shape))
    (h0 : ∀ (e : Fin m) (b : Fin w) (idx : IVec (⟨2, ![m, 1]⟩ : Shape) bw),
      (d.operandIdx (ix2 e b) idx 0).val = min (idx (ix2 e (0 : Fin 1))).toInt.toNat (n - 1))
    (h1 : ∀ (e : Fin m) (b : Fin w) (idx : IVec (⟨2, ![m, 1]⟩ : Shape) bw), (d.operandIdx (ix2 e b) idx 1).val = b.val)
    (x : (⟨2, ![n, w]⟩ : Shape).Idx → α) (idx : IVec (⟨2, ![m, 1]⟩ : Shape) bw) (e : Fin m) (b : Fin w) :
    Host.gather d x idx (ix2 e b) = x (ix2 (src hn idx e) b) := by
  unfold Host.gather
  refine congrArg x (funext fun a => Fin.ext ?_)
  match a with
  | ⟨0, _⟩ => exact h0 e b idx
  | ⟨1, _⟩ => exact h1 e b idx

/-- GENERAL LEMMA. A scatter-add of `[m, w]` update rows into an `[n, w]` operand at the rows an `[m, 1]` index array
    names reads, at `(p, q)`, the operand plus the sum over the edges into `p` of the updates at `(e, q)`. -/
theorem scatterAdd_rows {n m w bw : ℕ}
    (d : ScatterDims (⟨2, ![n, w]⟩ : Shape) (⟨2, ![m, 1]⟩ : Shape) (⟨2, ![m, w]⟩ : Shape))
    (hs0 : ∀ (e : Fin m) (b : Fin w) (idx : IVec (⟨2, ![m, 1]⟩ : Shape) bw),
      d.start (ix2 e b) idx 0 = (idx (ix2 e (0 : Fin 1))).toInt)
    (hs1 : ∀ (e : Fin m) (b : Fin w) (idx : IVec (⟨2, ![m, 1]⟩ : Shape) bw), d.start (ix2 e b) idx 1 = 0)
    (hw0 : ∀ (e : Fin m) (b : Fin w), d.window (ix2 e b) 0 = 0)
    (hw1 : ∀ (e : Fin m) (b : Fin w), d.window (ix2 e b) 1 = b.val)
    (x : (⟨2, ![n, w]⟩ : Shape).Idx → EReal) (idx : IVec (⟨2, ![m, 1]⟩ : Shape) bw)
    (upd : (⟨2, ![m, w]⟩ : Shape).Idx → EReal) (p : Fin n) (q : Fin w) :
    Ideal.hostScatterAdd d x idx upd (ix2 p q) = x (ix2 p q) + ∑ e ∈ into idx p, upd (ix2 e q) := by
  have key : ∀ (e : Fin m) (b : Fin w), d.resultIdx? (ix2 e b) idx = some (ix2 p q)
      ↔ ((idx (ix2 e (0 : Fin 1))).toInt = (p.val : Int) ∧ b = q) := by
    intro e b
    unfold ScatterDims.resultIdx?
    constructor
    · intro h
      split at h
      · rename_i hb
        have hf := Option.some.inj h
        have h0 : (d.start (ix2 e b) idx 0 + (d.window (ix2 e b) 0 : Int)).toNat = p.val := congrArg (fun f => (f 0).val) hf
        have h1 : (d.start (ix2 e b) idx 1 + (d.window (ix2 e b) 1 : Int)).toNat = q.val := congrArg (fun f => (f 1).val) hf
        have hb0 := (hb 0).1
        rw [hs0, hw0] at h0 hb0
        rw [hs1, hw1] at h1
        exact ⟨by omega, Fin.ext (by omega)⟩
      · exact absurd h (by simp)
    · rintro ⟨h0, h1⟩
      have hb : ∀ a, 0 ≤ d.start (ix2 e b) idx a + (d.window (ix2 e b) a : Int)
          ∧ d.start (ix2 e b) idx a + (d.window (ix2 e b) a : Int) < ((⟨2, ![n, w]⟩ : Shape).size a : Int) := by
        intro a
        match a with
        | ⟨0, _⟩ =>
          show 0 ≤ d.start (ix2 e b) idx 0 + (d.window (ix2 e b) 0 : Int)
            ∧ d.start (ix2 e b) idx 0 + (d.window (ix2 e b) 0 : Int) < (n : Int)
          rw [hs0, hw0, h0]; have := p.isLt; omega
        | ⟨1, _⟩ =>
          show 0 ≤ d.start (ix2 e b) idx 1 + (d.window (ix2 e b) 1 : Int)
            ∧ d.start (ix2 e b) idx 1 + (d.window (ix2 e b) 1 : Int) < (w : Int)
          rw [hs1, hw1]; have := b.isLt; omega
      rw [dif_pos hb]
      refine congrArg some (funext fun a => Fin.ext ?_)
      match a with
      | ⟨0, _⟩ =>
        show (d.start (ix2 e b) idx 0 + (d.window (ix2 e b) 0 : Int)).toNat = p.val
        rw [hs0, hw0, h0]; omega
      | ⟨1, _⟩ =>
        show (d.start (ix2 e b) idx 1 + (d.window (ix2 e b) 1 : Int)).toNat = q.val
        rw [hs1, hw1, h1]; omega
  unfold Ideal.hostScatterAdd
  refine congrArg (x (ix2 p q) + ·) ?_
  unfold into
  rw [Finset.sum_filter, sum_idx2, Finset.sum_filter]
  refine Finset.sum_congr rfl fun e _ => ?_
  by_cases hp : (idx (ix2 e (0 : Fin 1))).toInt = (p.val : Int)
  · simp [key, hp]
  · simp [key, hp]

/-- GENERAL LEMMA. The rank-1 scatter-add: one number per edge added onto the operand's entry at the edge's target. -/
theorem scatterAdd_vec {n m bw : ℕ}
    (d : ScatterDims (⟨1, ![n]⟩ : Shape) (⟨2, ![m, 1]⟩ : Shape) (⟨1, ![m]⟩ : Shape))
    (hs0 : ∀ (e : Fin m) (idx : IVec (⟨2, ![m, 1]⟩ : Shape) bw), d.start (ix1 e) idx 0 = (idx (ix2 e (0 : Fin 1))).toInt)
    (hw0 : ∀ (e : Fin m), d.window (ix1 e) 0 = 0)
    (x : (⟨1, ![n]⟩ : Shape).Idx → EReal) (idx : IVec (⟨2, ![m, 1]⟩ : Shape) bw)
    (upd : (⟨1, ![m]⟩ : Shape).Idx → EReal) (p : Fin n) :
    Ideal.hostScatterAdd d x idx upd (ix1 p) = x (ix1 p) + ∑ e ∈ into idx p, upd (ix1 e) := by
  have key : ∀ (e : Fin m), d.resultIdx? (ix1 e) idx = some (ix1 p) ↔ (idx (ix2 e (0 : Fin 1))).toInt = (p.val : Int) := by
    intro e
    unfold ScatterDims.resultIdx?
    constructor
    · intro h
      split at h
      · rename_i hb
        have hf := Option.some.inj h
        have h0 : (d.start (ix1 e) idx 0 + (d.window (ix1 e) 0 : Int)).toNat = p.val := congrArg (fun f => (f 0).val) hf
        have hb0 := (hb 0).1
        rw [hs0, hw0] at h0 hb0
        omega
      · exact absurd h (by simp)
    · intro h0
      have hb : ∀ a, 0 ≤ d.start (ix1 e) idx a + (d.window (ix1 e) a : Int)
          ∧ d.start (ix1 e) idx a + (d.window (ix1 e) a : Int) < ((⟨1, ![n]⟩ : Shape).size a : Int) := by
        intro a
        match a with
        | ⟨0, _⟩ =>
          show 0 ≤ d.start (ix1 e) idx 0 + (d.window (ix1 e) 0 : Int)
            ∧ d.start (ix1 e) idx 0 + (d.window (ix1 e) 0 : Int) < (n : Int)
          rw [hs0, hw0, h0]; have := p.isLt; omega
      rw [dif_pos hb]
      refine congrArg some (funext fun a => Fin.ext ?_)
      match a with
      | ⟨0, _⟩ =>
        show (d.start (ix1 e) idx 0 + (d.window (ix1 e) 0 : Int)).toNat = p.val
        rw [hs0, hw0, h0]; omega
  unfold Ideal.hostScatterAdd
  refine congrArg (x (ix1 p) + ·) ?_
  unfold into
  rw [Finset.sum_filter, Finset.sum_filter]
  rw [← Equiv.sum_comp (Equiv.ofBijective (fun e : Fin m => (ix1 e : (⟨1, ![m]⟩ : Shape).Idx))
    ⟨fun a b h => congrFun h 0, fun j => ⟨j 0, (eq_ix1 j).symm⟩⟩)]
  refine Finset.sum_congr rfl fun e _ => ?_
  show (if d.resultIdx? (ix1 e) idx = some (ix1 p) then upd (ix1 e) else 0) = _
  by_cases hp : (idx (ix2 e (0 : Fin 1))).toInt = (p.val : Int)
  · rw [if_pos hp, if_pos ((key e).2 hp)]
  · rw [if_neg hp, if_neg (fun h => hp ((key e).1 h))]

/-- GENERAL LEMMA. The same two readings for the host's operation at the exact values. -/
theorem host_scatterAdd_rows {n m w bw : ℕ}
    (d : ScatterDims (⟨2, ![n, w]⟩ : Shape) (⟨2, ![m, 1]⟩ : Shape) (⟨2, ![m, w]⟩ : Shape))
    (hs0 : ∀ (e : Fin m) (b : Fin w) (idx : IVec (⟨2, ![m, 1]⟩ : Shape) bw),
      d.start (ix2 e b) idx 0 = (idx (ix2 e (0 : Fin 1))).toInt)
    (hs1 : ∀ (e : Fin m) (b : Fin w) (idx : IVec (⟨2, ![m, 1]⟩ : Shape) bw), d.start (ix2 e b) idx 1 = 0)
    (hw0 : ∀ (e : Fin m) (b : Fin w), d.window (ix2 e b) 0 = 0)
    (hw1 : ∀ (e : Fin m) (b : Fin w), d.window (ix2 e b) 1 = b.val)
    (x : FVec Ideal (⟨2, ![n, w]⟩ : Shape) .f32) (idx : IVec (⟨2, ![m, 1]⟩ : Shape) bw)
    (upd : FVec Ideal (⟨2, ![m, w]⟩ : Shape) .f32) (p : Fin n) (q : Fin w) :
    Host.scatterAdd d x idx upd (ix2 p q) = x (ix2 p q) + ∑ e ∈ into idx p, upd (ix2 e q) :=
  scatterAdd_rows d hs0 hs1 hw0 hw1 x idx upd p q

theorem host_scatterAdd_vec {n m bw : ℕ}
    (d : ScatterDims (⟨1, ![n]⟩ : Shape) (⟨2, ![m, 1]⟩ : Shape) (⟨1, ![m]⟩ : Shape))
    (hs0 : ∀ (e : Fin m) (idx : IVec (⟨2, ![m, 1]⟩ : Shape) bw), d.start (ix1 e) idx 0 = (idx (ix2 e (0 : Fin 1))).toInt)
    (hw0 : ∀ (e : Fin m), d.window (ix1 e) 0 = 0)
    (x : FVec Ideal (⟨1, ![n]⟩ : Shape) .f32) (idx : IVec (⟨2, ![m, 1]⟩ : Shape) bw)
    (upd : FVec Ideal (⟨1, ![m]⟩ : Shape) .f32) (p : Fin n) :
    Host.scatterAdd d x idx upd (ix1 p) = x (ix1 p) + ∑ e ∈ into idx p, upd (ix1 e) :=
  scatterAdd_vec d hs0 hw0 x idx upd p

/-- GENERAL LEMMA. The entrywise maximum read at an index. -/
theorem maximumf_at {s : Shape} (a b : FVec Ideal s .f32) (i : s.Idx) : maximumf a b i = max (a i) (b i) := rfl

end Cert.LibEdges

end
-- ==== Proof.KMean.lean ====
/-
  The kernel's neighbour mean of an `[50000, 32]` array, read at an index.

  The edge list is a `[2, 800000]` integer array: row 0 holds the edges' sources, row 1 their targets. The sources
  are normalised (a negative index has the node count added) and every edge's row of the array is gathered at its
  source; the gathered rows are added onto a zero array at the edges' targets; ones are added onto a zero vector at
  the targets and floored at one; the sums are divided by those counts. Entry `(p, q)` is the sum from zero, over
  the edges pointing at `p`, of the array's entry at the edge's source row and column `q`, divided by the floored
  number of such edges.
-/
import proofs.«146005_j86466281603776_2_alg».proof.KernelIdeal
import proofs.«146005_j86466281603776_2_alg».proof.Proof.Gen.KernelIdeal
import proofs.«146005_j86466281603776_2_alg».proof.Proof.LibEdges
import proofs.«146005_j86466281603776_2_alg».proof.Proof.LibHostLayout
import proofs.«146005_j86466281603776_2_alg».proof.Proof.Spec

set_option maxRecDepth 16384

noncomputable section

namespace Cert.KernelIdeal.Mean

open Idealize.ShloMosaic Idealize.ShloMosaic.ValueIdx Cert.KernelIdeal Cert.KernelIdeal.Gen Cert.Layers Cert.Net Cert.LibEdges

/-! Coordinate facts of the kernel's gather and scatter records. -/

theorem g_h0 (e : Fin 800000) (b : Fin 32) (idx : IVec S800000x1 32) :
    (gather_S50000x32_S800000x1_S800000x32_1_0_n_n_0_1_132.operandIdx (ix2 e b) idx 0).val = min (idx (ix2 e (0 : Fin 1))).toInt.toNat (50000 - 1) := by
  show gather_S50000x32_S800000x1_S800000x32_1_0_n_n_0_1_132.start (ix2 e b) idx 0 + gather_S50000x32_S800000x1_S800000x32_1_0_n_n_0_1_132.batchCoord (ix2 e b) 0 + gather_S50000x32_S800000x1_S800000x32_1_0_n_n_0_1_132.offCoord (ix2 e b) 0 = _
  rw [GatherDims.batchCoord_eq_zero _ _ _ (by decide), GatherDims.offCoord_eq_zero _ _ _ (by decide)]
  unfold GatherDims.start
  rw [dif_pos (show (0 : Fin 2) ∈ gather_S50000x32_S800000x1_S800000x32_1_0_n_n_0_1_132.startIndexMap from List.mem_singleton.mpr rfl)]
  have hsi : gather_S50000x32_S800000x1_S800000x32_1_0_n_n_0_1_132.siIdx (ix2 e b) ⟨List.idxOf (0 : Fin 2) gather_S50000x32_S800000x1_S800000x32_1_0_n_n_0_1_132.startIndexMap,
      List.idxOf_lt_length_iff.2 (List.mem_singleton.mpr rfl)⟩ = ix2 e (0 : Fin 1) := by
    funext a; refine Fin.ext ?_
    match a with
    | ⟨0, _⟩ => rfl
    | ⟨1, _⟩ => rfl
  rw [hsi]
  rfl

theorem g_h1 (e : Fin 800000) (b : Fin 32) (idx : IVec S800000x1 32) :
    (gather_S50000x32_S800000x1_S800000x32_1_0_n_n_0_1_132.operandIdx (ix2 e b) idx 1).val = b.val := by
  show gather_S50000x32_S800000x1_S800000x32_1_0_n_n_0_1_132.start (ix2 e b) idx 1 + gather_S50000x32_S800000x1_S800000x32_1_0_n_n_0_1_132.batchCoord (ix2 e b) 1 + gather_S50000x32_S800000x1_S800000x32_1_0_n_n_0_1_132.offCoord (ix2 e b) 1 = _
  rw [GatherDims.batchCoord_eq_zero _ _ _ (by decide)]
  unfold GatherDims.start
  rw [dif_neg (by decide)]
  show 0 + 0 + (ix2 e b 1).val = b.val
  simp

theorem s_hs0 (e : Fin 800000) (b : Fin 32) (idx : IVec S800000x1 32) :
    scatter_S50000x32_S800000x1_S800000x32_1_0_0_1.start (ix2 e b) idx 0 = (idx (ix2 e (0 : Fin 1))).toInt := by
  unfold ScatterDims.start
  rw [dif_pos (show (0 : Fin 2) ∈ scatter_S50000x32_S800000x1_S800000x32_1_0_0_1.scatterDimsToOperandDims from List.mem_singleton.mpr rfl)]
  have hsi : scatter_S50000x32_S800000x1_S800000x32_1_0_0_1.siIdx (ix2 e b) ⟨List.idxOf (0 : Fin 2) scatter_S50000x32_S800000x1_S800000x32_1_0_0_1.scatterDimsToOperandDims,
      List.idxOf_lt_length_iff.2 (List.mem_singleton.mpr rfl)⟩ = ix2 e (0 : Fin 1) := by
    funext a; refine Fin.ext ?_
    match a with
    | ⟨0, _⟩ => rfl
    | ⟨1, _⟩ => rfl
  rw [hsi]

theorem s_hs1 (e : Fin 800000) (b : Fin 32) (idx : IVec S800000x1 32) : scatter_S50000x32_S800000x1_S800000x32_1_0_0_1.start (ix2 e b) idx 1 = 0 := by
  unfold ScatterDims.start
  rw [dif_neg (by decide)]

theorem s_hw0 (e : Fin 800000) (b : Fin 32) : scatter_S50000x32_S800000x1_S800000x32_1_0_0_1.window (ix2 e b) 0 = 0 := by
  unfold ScatterDims.window
  rw [dif_neg (by decide)]

theorem s_hw1 (e : Fin 800000) (b : Fin 32) : scatter_S50000x32_S800000x1_S800000x32_1_0_0_1.window (ix2 e b) 1 = b.val := rfl

theorem c_hs0 (e : Fin 800000) (idx : IVec S800000x1 32) :
    scatter_S50000_S800000x1_S800000_n_0_0_1.start (ix1 e) idx 0 = (idx (ix2 e (0 : Fin 1))).toInt := by
  unfold ScatterDims.start
  rw [dif_pos (show (0 : Fin 1) ∈ scatter_S50000_S800000x1_S800000_n_0_0_1.scatterDimsToOperandDims from List.mem_singleton.mpr rfl)]
  have hsi : scatter_S50000_S800000x1_S800000_n_0_0_1.siIdx (ix1 e) ⟨List.idxOf (0 : Fin 1) scatter_S50000_S800000x1_S800000_n_0_0_1.scatterDimsToOperandDims,
      List.idxOf_lt_length_iff.2 (List.mem_singleton.mpr rfl)⟩ = ix2 e (0 : Fin 1) := by
    funext a; refine Fin.ext ?_
    match a with
    | ⟨0, _⟩ => rfl
    | ⟨1, _⟩ => rfl
  rw [hsi]

theorem c_hw0 (e : Fin 800000) : scatter_S50000_S800000x1_S800000_n_0_0_1.window (ix1 e) 0 = 0 := by
  unfold ScatterDims.window
  rw [dif_neg (by decide)]

/-! ## The edge list's two index columns -/

/-- The edges' targets: row 1 of the edge list, as an `[800000, 1]` column. -/
abbrev tgtIdx (a1 : IVec S2x800000 32) : IVec S800000x1 32 :=
  broadcastInDim S800000x1 ![0] bcast_S800000_S800000x1_0 (shapeCast _ (extractStridedSlice S1x800000 ![1, 0] a1 slices_S2x800000_S1x800000_1_0) shapeCasts_S1x800000_S800000)

/-- The edges' sources: row 0 of the edge list, a negative index wrapped by the node count, as a column. -/
abbrev srcIdx (a1 : IVec S2x800000 32) : IVec S800000x1 32 :=
  broadcastInDim S800000x1 ![0] bcast_S800000_S800000x1_0 (select (cmpi .slt (shapeCast _ (extractStridedSlice S1x800000 ![0, 0] a1 slices_S2x800000_S1x800000_0_0) shapeCasts_S1x800000_S800000) (broadcastInDim S800000 ![] bcast_S_S800000 (constantI S_ 32 0#32))) (addi (shapeCast _ (extractStridedSlice S1x800000 ![0, 0] a1 slices_S2x800000_S1x800000_0_0) shapeCasts_S1x800000_S800000) (broadcastInDim S800000 ![] bcast_S_S800000 (constantI S_ 32 50000#32))) (shapeCast _ (extractStridedSlice S1x800000 ![0, 0] a1 slices_S2x800000_S1x800000_0_0) shapeCasts_S1x800000_S800000))

/-- The edges pointing at a node, and an edge's source row. -/
abbrev E (a1 : IVec S2x800000 32) : Fin 50000 → Finset (Fin 800000) := into (tgtIdx a1)
abbrev g (a1 : IVec S2x800000 32) : Fin 800000 → Fin 50000 := src (by decide) (srcIdx a1)

/-- The host's gather, two scatter-adds, floor and division are the neighbour mean. -/
theorem mean_eq (Z : FVec Ideal S50000x32 .f32) (a1 : IVec S2x800000 32) :
    Host.divf (Host.scatterAdd scatter_S50000x32_S800000x1_S800000x32_1_0_0_1 (broadcastInDim S50000x32 ![] bcast_S_S50000x32 (constant (F := Ideal) S_ .f32 0x00000000#32)) (tgtIdx a1) (Host.gather gather_S50000x32_S800000x1_S800000x32_1_0_n_n_0_1_132 Z (srcIdx a1)))
      (broadcastInDim S50000x32 ![0, 1] bcast_S50000x1_S50000x32_0_1 (broadcastInDim S50000x1 ![0] bcast_S50000_S50000x1_0 (maximumf (Host.scatterAdd scatter_S50000_S800000x1_S800000_n_0_0_1 (broadcastInDim S50000 ![] bcast_S_S50000 (constant (F := Ideal) S_ .f32 0x00000000#32)) (tgtIdx a1) (broadcastInDim S800000 ![] bcast_S_S800000 (constant (F := Ideal) S_ .f32 0x3F800000#32))) (broadcastInDim S50000 ![] bcast_S_S50000 (constant (F := Ideal) S_ .f32 0x3F800000#32)))))
    = meanAgg (E a1) (g a1) (cntOf (E a1)) Z := by
  funext j
  obtain ⟨p, q, rfl⟩ : ∃ (p : Fin 50000) (q : Fin 32), j = ix2 p q := ⟨j 0, j 1, eq_ix2 j⟩
  have hnum : Host.scatterAdd scatter_S50000x32_S800000x1_S800000x32_1_0_0_1 (broadcastInDim S50000x32 ![] bcast_S_S50000x32 (constant (F := Ideal) S_ .f32 0x00000000#32)) (tgtIdx a1) (Host.gather gather_S50000x32_S800000x1_S800000x32_1_0_n_n_0_1_132 Z (srcIdx a1)) (ix2 p q)
      = Ideal.ofBits .f32 0x00000000#32 + ∑ e ∈ E a1 p, Z (ix2 (g a1 e) q) := by
    rw [host_scatterAdd_rows scatter_S50000x32_S800000x1_S800000x32_1_0_0_1 s_hs0 s_hs1 s_hw0 s_hw1]
    exact congrArg₂ (· + ·) (broadcastInDim_apply ![] bcast_S_S50000x32 _ (ix2 p q) ix0 (fun a => a.elim0))
      (Finset.sum_congr rfl fun e _ => gather_rows (by decide) gather_S50000x32_S800000x1_S800000x32_1_0_n_n_0_1_132 g_h0 g_h1 Z (srcIdx a1) e q)
  have hcnt : Host.scatterAdd scatter_S50000_S800000x1_S800000_n_0_0_1 (broadcastInDim S50000 ![] bcast_S_S50000 (constant (F := Ideal) S_ .f32 0x00000000#32)) (tgtIdx a1) (broadcastInDim S800000 ![] bcast_S_S800000 (constant (F := Ideal) S_ .f32 0x3F800000#32)) (ix1 p)
      = Ideal.ofBits .f32 0x00000000#32 + ∑ _e ∈ E a1 p, Ideal.ofBits .f32 0x3F800000#32 := by
    rw [host_scatterAdd_vec scatter_S50000_S800000x1_S800000_n_0_0_1 c_hs0 c_hw0]
    exact congrArg₂ (· + ·) (broadcastInDim_apply ![] bcast_S_S50000 _ (ix1 p) ix0 (fun a => a.elim0))
      (Finset.sum_congr rfl fun e _ => broadcastInDim_apply ![] bcast_S_S800000 _ (ix1 e) ix0 (fun a => a.elim0))
  have hden : broadcastInDim S50000x32 ![0, 1] bcast_S50000x1_S50000x32_0_1 (broadcastInDim S50000x1 ![0] bcast_S50000_S50000x1_0 (maximumf (Host.scatterAdd scatter_S50000_S800000x1_S800000_n_0_0_1 (broadcastInDim S50000 ![] bcast_S_S50000 (constant (F := Ideal) S_ .f32 0x00000000#32)) (tgtIdx a1) (broadcastInDim S800000 ![] bcast_S_S800000 (constant (F := Ideal) S_ .f32 0x3F800000#32))) (broadcastInDim S50000 ![] bcast_S_S50000 (constant (F := Ideal) S_ .f32 0x3F800000#32)))) (ix2 p q)
      = cntOf (E a1) p := by
    rw [Cert.LibHostLayout.broadcastInDim_a1_ab_apply, Cert.LibHostLayout.broadcastInDim_a_a1_apply]
    unfold cntOf
    rw [maximumf_at]
    exact congrArg₂ max hcnt (broadcastInDim_apply ![] bcast_S_S50000 _ (ix1 p) ix0 (fun a => a.elim0))
  exact (hostDivf_apply _ _ _).trans ((congrArg₂ Ideal.div hnum hden).trans (meanAgg_apply _ _ _ _ p q).symm)

end Cert.KernelIdeal.Mean

end
-- ==== Proof.KHost.lean ====
/-
  The host stretches of the idealized kernel, read at the buffers the regions take.

  Before the projection region the host splits the edge list into its two rows and transposes the four weight
  arrays. Between the regions it gathers the second projected array along the edges' sources, adds the gathered rows
  and a one per edge onto zeros at the edges' targets, floors the counts at one and divides: the neighbour mean of the
  projected rows. Every other buffer the final region reads is left as the first stretch or the first region wrote it.
-/
import proofs.«146005_j86466281603776_2_alg».proof.Proof.Gen.KernelIdeal.Frame
import proofs.«146005_j86466281603776_2_alg».proof.Proof.KMean

set_option maxRecDepth 16384

noncomputable section

namespace Cert.KernelIdeal.KHost

open Cert.KernelIdeal Cert.KernelIdeal.Gen Idealize.ShloMosaic Idealize.ShloMosaic.ValueIdx Idealize.SL.Sem Idealize.ShloMosaic.StableHlo
open Cert.Layers Cert.Net Cert.KernelIdeal.Mean

variable (U : Valuation τ sig (Elt Ideal))

/-! ## The first stretch -/

theorem ops0_arg0 : after hostOps0 U (Proc.devRef .tc main_arg0) = U (Proc.devRef .tc main_arg0) := by after_results_simp <;> rfl
theorem ops0_arg5 : after hostOps0 U (Proc.devRef .tc main_arg5) = U (Proc.devRef .tc main_arg5) := by after_results_simp <;> rfl
theorem ops0_arg7 : after hostOps0 U (Proc.devRef .tc main_arg7) = U (Proc.devRef .tc main_arg7) := by after_results_simp <;> rfl
theorem ops0_v1 : after hostOps0 U (Proc.devRef .tc main_v1)
    = shapeCast _ (extractStridedSlice S1x800000 ![0, 0] (U (Proc.devRef .tc main_arg1)) slices_S2x800000_S1x800000_0_0) shapeCasts_S1x800000_S800000 := by
  after_results_simp <;> rfl
theorem ops0_v3 : after hostOps0 U (Proc.devRef .tc main_v3)
    = shapeCast _ (extractStridedSlice S1x800000 ![1, 0] (U (Proc.devRef .tc main_arg1)) slices_S2x800000_S1x800000_1_0) shapeCasts_S1x800000_S800000 := by
  after_results_simp <;> rfl
theorem ops0_v4 : after hostOps0 U (Proc.devRef .tc main_v4) = transpose S128x32 [1, 0] (U (Proc.devRef .tc main_arg2)) transposes_S32x128_S128x32_1_0 := by
  after_results_simp <;> rfl
theorem ops0_v5 : after hostOps0 U (Proc.devRef .tc main_v5) = transpose S128x32 [1, 0] (U (Proc.devRef .tc main_arg3)) transposes_S32x128_S128x32_1_0 := by
  after_results_simp <;> rfl
theorem ops0_v6 : after hostOps0 U (Proc.devRef .tc main_v6) = transpose S32x32 [1, 0] (U (Proc.devRef .tc main_arg4)) transposes_S32x32_S32x32_1_0 := by
  after_results_simp <;> rfl
theorem ops0_v7 : after hostOps0 U (Proc.devRef .tc main_v7) = transpose S32x40 [1, 0] (U (Proc.devRef .tc main_arg6)) transposes_S40x32_S32x40_1_0 := by
  after_results_simp <;> rfl

/-! ## The second stretch -/

theorem ops1_v8_0 : after hostOps1 U (Proc.devRef .tc main_v8_0) = U (Proc.devRef .tc main_v8_0) := by after_results_simp <;> rfl
theorem ops1_v6 : after hostOps1 U (Proc.devRef .tc main_v6) = U (Proc.devRef .tc main_v6) := by after_results_simp <;> rfl
theorem ops1_v7 : after hostOps1 U (Proc.devRef .tc main_v7) = U (Proc.devRef .tc main_v7) := by after_results_simp <;> rfl
theorem ops1_arg5 : after hostOps1 U (Proc.devRef .tc main_arg5) = U (Proc.devRef .tc main_arg5) := by after_results_simp <;> rfl
theorem ops1_arg7 : after hostOps1 U (Proc.devRef .tc main_arg7) = U (Proc.devRef .tc main_arg7) := by after_results_simp <;> rfl

/-- The neighbour mean as the second stretch spells it, over the buffers it reads. -/
theorem ops1_v27 : after hostOps1 U (Proc.devRef .tc main_v27)
    = Host.divf (Host.scatterAdd scatter_S50000x32_S800000x1_S800000x32_1_0_0_1 (broadcastInDim S50000x32 ![] bcast_S_S50000x32 (constant (F := Ideal) S_ .f32 0x00000000#32))
          (broadcastInDim S800000x1 ![0] bcast_S800000_S800000x1_0 (U (Proc.devRef .tc main_v3)))
          (Host.gather gather_S50000x32_S800000x1_S800000x32_1_0_n_n_0_1_132 (U (Proc.devRef .tc main_v8_1))
            (broadcastInDim S800000x1 ![0] bcast_S800000_S800000x1_0 (select (cmpi .slt (U (Proc.devRef .tc main_v1)) (broadcastInDim S800000 ![] bcast_S_S800000 (constantI S_ 32 0#32))) (addi (U (Proc.devRef .tc main_v1)) (broadcastInDim S800000 ![] bcast_S_S800000 (constantI S_ 32 50000#32))) (U (Proc.devRef .tc main_v1))))))
        (broadcastInDim S50000x32 ![0, 1] bcast_S50000x1_S50000x32_0_1 (broadcastInDim S50000x1 ![0] bcast_S50000_S50000x1_0 (maximumf (Host.scatterAdd scatter_S50000_S800000x1_S800000_n_0_0_1 (broadcastInDim S50000 ![] bcast_S_S50000 (constant (F := Ideal) S_ .f32 0x00000000#32)) (broadcastInDim S800000x1 ![0] bcast_S800000_S800000x1_0 (U (Proc.devRef .tc main_v3))) (broadcastInDim S800000 ![] bcast_S_S800000 (constant (F := Ideal) S_ .f32 0x3F800000#32))) (broadcastInDim S50000 ![] bcast_S_S50000 (constant (F := Ideal) S_ .f32 0x3F800000#32))))) := by
  after_results_simp <;> rfl

end Cert.KernelIdeal.KHost

end
-- ==== Proof.KValue.lean ====
/-
  The idealized kernel's result as the network's function of the argument arrays.

  The projection region leaves the products of the features with the two transposed weight arrays; the host takes
  the neighbour mean of the second product; the final region applies the head to the sum of the first product and that
  mean, with the transposed weights of the two dense layers and their biases.
-/
import proofs.«146005_j86466281603776_2_alg».proof.Proof.KRun
import proofs.«146005_j86466281603776_2_alg».proof.Proof.KArr
import proofs.«146005_j86466281603776_2_alg».proof.Proof.KHost

set_option maxRecDepth 16384

noncomputable section

namespace Cert.KernelIdeal.KValue

open Cert.KernelIdeal Cert.KernelIdeal.Gen Idealize.ShloMosaic Idealize.ShloMosaic.TcCoe Idealize.ShloMosaic.ValueIdx Idealize.SL.Sem
open Idealize.ShloMosaic.StableHlo Cert.Layers Cert.Sage Cert.Net Cert.KernelIdeal.Mean

variable (m : (ℓ : Loc nD τ sig) → Buf (Elt Ideal) ℓ) (ρ : Dev nD → PrngReg)

/-- The network's result from the launch memory of core `c`. -/
def net (c : Dev nD) : Mat 50000 40 :=
  head (plus (mm (m ((c : Thread nD τ).loc main_arg0)) (transpose S128x32 [1, 0] (m ((c : Thread nD τ).loc main_arg2)) transposes_S32x128_S128x32_1_0))
      (meanAgg (E (m ((c : Thread nD τ).loc main_arg1))) (g (m ((c : Thread nD τ).loc main_arg1))) (cntOf (E (m ((c : Thread nD τ).loc main_arg1))))
        (mm (m ((c : Thread nD τ).loc main_arg0)) (transpose S128x32 [1, 0] (m ((c : Thread nD τ).loc main_arg3)) transposes_S32x128_S128x32_1_0))))
    (transpose S32x32 [1, 0] (m ((c : Thread nD τ).loc main_arg4)) transposes_S32x32_S32x32_1_0) (m ((c : Thread nD τ).loc main_arg5))
    (transpose S32x40 [1, 0] (m ((c : Thread nD τ).loc main_arg6)) transposes_S40x32_S32x40_1_0) (m ((c : Thread nD τ).loc main_arg7))

/-- The first projected array at the final region's entry. -/
theorem e0 (c : Dev nD) : V3 m ρ c (Pipeline.arrRef spec1 0)
    = mm (m ((c : Thread nD τ).loc main_arg0)) (transpose S128x32 [1, 0] (m ((c : Thread nD τ).loc main_arg2)) transposes_S32x128_S128x32_1_0) :=
  (KHost.ops1_v8_0 (W2 m ρ c)).trans ((W2_arr m ρ c 3).trans ((KArr.arr0_3 (V1 m ρ) c).trans
    (congrArg₂ mm ((KHost.ops0_arg0 (W0 m ρ c)).trans rfl) (KHost.ops0_v4 (W0 m ρ c)))))

/-- The second projected array at the projection region's exit. -/
theorem hv81 (c : Dev nD) : W2 m ρ c (Proc.devRef .tc main_v8_1)
    = mm (m ((c : Thread nD τ).loc main_arg0)) (transpose S128x32 [1, 0] (m ((c : Thread nD τ).loc main_arg3)) transposes_S32x128_S128x32_1_0) :=
  (W2_arr m ρ c 4).trans ((KArr.arr0_4 (V1 m ρ) c).trans
    (congrArg₂ mm ((KHost.ops0_arg0 (W0 m ρ c)).trans rfl) (KHost.ops0_v5 (W0 m ρ c))))

theorem hv1 (c : Dev nD) : W2 m ρ c (Proc.devRef .tc main_v1)
    = shapeCast _ (extractStridedSlice S1x800000 ![0, 0] (m ((c : Thread nD τ).loc main_arg1)) slices_S2x800000_S1x800000_0_0) shapeCasts_S1x800000_S800000 :=
  (W2_of_ne m ρ c main_v1 (by decide)).trans (KHost.ops0_v1 (W0 m ρ c))

theorem hv3 (c : Dev nD) : W2 m ρ c (Proc.devRef .tc main_v3)
    = shapeCast _ (extractStridedSlice S1x800000 ![1, 0] (m ((c : Thread nD τ).loc main_arg1)) slices_S2x800000_S1x800000_1_0) shapeCasts_S1x800000_S800000 :=
  (W2_of_ne m ρ c main_v3 (by decide)).trans (KHost.ops0_v3 (W0 m ρ c))

/-- The neighbour mean of the second projected array at the final region's entry. -/
theorem e1 (c : Dev nD) : V3 m ρ c (Pipeline.arrRef spec1 1)
    = meanAgg (E (m ((c : Thread nD τ).loc main_arg1))) (g (m ((c : Thread nD τ).loc main_arg1))) (cntOf (E (m ((c : Thread nD τ).loc main_arg1))))
        (mm (m ((c : Thread nD τ).loc main_arg0)) (transpose S128x32 [1, 0] (m ((c : Thread nD τ).loc main_arg3)) transposes_S32x128_S128x32_1_0)) := by
  refine (KHost.ops1_v27 (W2 m ρ c)).trans ?_
  rw [hv1 m ρ c, hv3 m ρ c, hv81 m ρ c]
  exact mean_eq _ _

theorem e2 (c : Dev nD) : V3 m ρ c (Pipeline.arrRef spec1 2)
    = transpose S32x32 [1, 0] (m ((c : Thread nD τ).loc main_arg4)) transposes_S32x32_S32x32_1_0 :=
  (KHost.ops1_v6 (W2 m ρ c)).trans ((W2_of_ne m ρ c main_v6 (by decide)).trans (KHost.ops0_v6 (W0 m ρ c)))

theorem e3 (c : Dev nD) : V3 m ρ c (Pipeline.arrRef spec1 3) = m ((c : Thread nD τ).loc main_arg5) :=
  (KHost.ops1_arg5 (W2 m ρ c)).trans ((W2_of_ne m ρ c main_arg5 (by decide)).trans ((KHost.ops0_arg5 (W0 m ρ c)).trans rfl))

theorem e4 (c : Dev nD) : V3 m ρ c (Pipeline.arrRef spec1 4)
    = transpose S32x40 [1, 0] (m ((c : Thread nD τ).loc main_arg6)) transposes_S40x32_S32x40_1_0 :=
  (KHost.ops1_v7 (W2 m ρ c)).trans ((W2_of_ne m ρ c main_v7 (by decide)).trans (KHost.ops0_v7 (W0 m ρ c)))

theorem e5 (c : Dev nD) : V3 m ρ c (Pipeline.arrRef spec1 5) = m ((c : Thread nD τ).loc main_arg7) :=
  (KHost.ops1_arg7 (W2 m ρ c)).trans ((W2_of_ne m ρ c main_arg7 (by decide)).trans ((KHost.ops0_arg7 (W0 m ρ c)).trans rfl))

/-- The result array at the end of the run. -/
theorem value (c : Dev nD) : W4 m ρ c (Proc.devRef .tc main_v28) = net m c := by
  refine (KRun.result_arr m ρ c).trans ((KArr.arr1_6 (V3 m ρ) c).trans ?_)
  rw [e0 m ρ c, e1 m ρ c, e2 m ρ c, e3 m ρ c, e4 m ρ c, e5 m ρ c]
  rfl

/-- The run: the result array ends at the network's result, the arguments as launched. -/
theorem run : θ_run defs (onTc (τ := τ) (main (F := Ideal))) ⟨m, fun _ => 0, ρ⟩ (fun r => ∀ c : Dev nD,
      r.2.mem ((c.tc : Thread nD τ).loc main_v28) = net m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (value m ρ c), (h c).2⟩) (KRun.run m ρ)

end Cert.KernelIdeal.KValue

end
-- ==== Proof.RefRun.lean ====
/-
  The reference program as the list of its host operations, and its run: every weakly fair execution ends with the
  result array at the operations' composed term of the argument arrays, the arguments unchanged. The composed term is
  the reference's formula written with the host's array operations: the gather along the edges' sources, the two
  scatter-adds into the edges' targets, the division by the floored counts, the two products with the transposed
  weights, the row normalisation, relu, the two dense layers and the log-softmax.
-/
import proofs.«146005_j86466281603776_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 72 operations, in order (a called function's operations stand in its call's place, spelt `TRef.…`). -/
abbrev ops : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_1 (constant S_ .f32 0x3F800000#32),
    unary main_cst_1 main_v14 (broadcastInDim S800000 ![] bcast_S_S800000 : (⟨S_, .f32⟩ : BufTy).Contents (Elt F) → (⟨S800000, .f32⟩ : BufTy).Contents (Elt F)),
    nullary main_cst_2 (constant S_ .f32 0x00000000#32),
    unary main_cst_2 main_v15 (broadcastInDim S50000 ![] bcast_S_S50000 : (⟨S_, .f32⟩ : BufTy).Contents (Elt F) → (⟨S50000, .f32⟩ : BufTy).Contents (Elt F)),
    unary main_v3 main_v16 (broadcastInDim S800000x1 ![0] bcast_S800000_S800000x1_0 : (⟨S800000, .i32⟩ : BufTy).Contents (Elt F) → (⟨S800000x1, .i32⟩ : BufTy).Contents (Elt F)),
    ternary main_v15 main_v16 main_v14 main_v17 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_3 (constant S_ .f32 0x3F800000#32),
    unary main_cst_3 main_v18 (broadcastInDim S50000 ![] bcast_S_S50000 : (⟨S_, .f32⟩ : BufTy).Contents (Elt F) → (⟨S50000, .f32⟩ : BufTy).Contents (Elt F)),
    binary main_v17 main_v18 main_v19 (maximumf : (⟨S50000, .f32⟩ : BufTy).Contents (Elt F) → (⟨S50000, .f32⟩ : BufTy).Contents (Elt F) → (⟨S50000, .f32⟩ : BufTy).Contents (Elt F)),
    unary main_v19 main_v20 (broadcastInDim S50000x1 ![0] bcast_S50000_S50000x1_0 : (⟨S50000, .f32⟩ : BufTy).Contents (Elt F) → (⟨S50000x1, .f32⟩ : BufTy).Contents (Elt F)),
    unary main_v20 main_v21 (broadcastInDim S50000x128 ![0, 1] bcast_S50000x1_S50000x128_0_1 : (⟨S50000x1, .f32⟩ : BufTy).Contents (Elt F) → (⟨S50000x128, .f32⟩ : BufTy).Contents (Elt F)),
    binary main_v13 main_v21 main_v22 (Host.divf : (⟨S50000x128, .f32⟩ : BufTy).Contents (Elt F) → (⟨S50000x128, .f32⟩ : BufTy).Contents (Elt F) → (⟨S50000x128, .f32⟩ : BufTy).Contents (Elt F)),
    unary main_arg2 main_v23 ((transpose S128x32 [1, 0] · transposes_S32x128_S128x32_1_0) : (⟨S32x128, .f32⟩ : BufTy).Contents (Elt F) → (⟨S128x32, .f32⟩ : BufTy).Contents (Elt F)),
    binary main_arg0 main_v23 main_v24 ((fun l r => Host.dotGeneral dot_S50000x128_S128x32_S50000x32_1_0_0_1_n_n none l r) : (⟨S50000x128, .f32⟩ : BufTy).Contents (Elt F) → (⟨S128x32, .f32⟩ : BufTy).Contents (Elt F) → (⟨S50000x32, .f32⟩ : BufTy).Contents (Elt F)),
    unary main_arg3 main_v25 ((transpose S128x32 [1, 0] · transposes_S32x128_S128x32_1_0) : (⟨S32x128, .f32⟩ : BufTy).Contents (Elt F) → (⟨S128x32, .f32⟩ : BufTy).Contents (Elt F)),
    binary main_v22 main_v25 main_v26 ((fun l r => Host.dotGeneral dot_S50000x128_S128x32_S50000x32_1_0_0_1_n_n none l r) : (⟨S50000x128, .f32⟩ : BufTy).Contents (Elt F) → (⟨S128x32, .f32⟩ : BufTy).Contents (Elt F) → (⟨S50000x32, .f32⟩ : BufTy).Contents (Elt F)),
    binary main_v24 main_v26 main_v27 (addf : (⟨S50000x32, .f32⟩ : BufTy).Contents (Elt F) → (⟨S50000x32, .f32⟩ : BufTy).Contents (Elt F) → (⟨S50000x32, .f32⟩ : BufTy).Contents (Elt F)),
    binary main_v27 main_v27 main_v28 (mulf : (⟨S50000x32, .f32⟩ : BufTy).Contents (Elt F) → (⟨S50000x32, .f32⟩ : BufTy).Contents (Elt F) → (⟨S50000x32, .f32⟩ : BufTy).Contents (Elt F)),
    nullary main_cst_4 (constant S_ .f32 0x00000000#32),
    binary main_v28 main_cst_4 main_v29 ((fun x v => Host.reduceAdd x v reducesTo_S50000x32_S50000_d1 h_S_) : (⟨S50000x32, .f32⟩ : BufTy).Contents (Elt F) → (⟨S_, .f32⟩ : BufTy).Contents (Elt F) → (⟨S50000, .f32⟩ : BufTy).Contents (Elt F)),
    unary main_v29 main_v30 (broadcastInDim S50000x1 ![0] bcast_S50000_S50000x1_0 : (⟨S50000, .f32⟩ : BufTy).Contents (Elt F) → (⟨S50000x1, .f32⟩ : BufTy).Contents (Elt F)),
    unary main_v30 main_v31 (Host.sqrt : (⟨S50000x1, .f32⟩ : BufTy).Contents (Elt F) → (⟨S50000x1, .f32⟩ : BufTy).Contents (Elt F)),
    nullary main_cst_5 (constant S_ .f32 0x2B8CBCCC#32),
    unary main_cst_5 main_v32 (broadcastInDim S50000x1 ![] bcast_S_S50000x1 : (⟨S_, .f32⟩ : BufTy).Contents (Elt F) → (⟨S50000x1, .f32⟩ : BufTy).Contents (Elt F)),
    binary main_v31 main_v32 main_v33 (maximumf : (⟨S50000x1, .f32⟩ : BufTy).Contents (Elt F) → (⟨S50000x1, .f32⟩ : BufTy).Contents (Elt F) → (⟨S50000x1, .f32⟩ : BufTy).Contents (Elt F)),
    unary main_v33 main_v34 (broadcastInDim S50000x32 ![0, 1] bcast_S50000x1_S50000x32_0_1 : (⟨S50000x1, .f32⟩ : BufTy).Contents (Elt F) → (⟨S50000x32, .f32⟩ : BufTy).Contents (Elt F)),
    binary main_v27 main_v34 main_v35 (Host.divf : (⟨S50000x32, .f32⟩ : BufTy).Contents (Elt F) → (⟨S50000x32, .f32⟩ : BufTy).Contents (Elt F) → (⟨S50000x32, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x32, .f32⟩) main_call0_v0) (broadcastInDim S50000x32 ![] bcast_S_S50000x32),
    TRef.binary (TRef.of (T := ⟨S50000x32, .f32⟩) main_v35) (TRef.of (T := ⟨S50000x32, .f32⟩) main_call0_v0) (TRef.of (T := ⟨S50000x32, .f32⟩) main_v36) maximumf,
    unary main_arg4 main_v37 ((transpose S32x32 [1, 0] · transposes_S32x32_S32x32_1_0) : (⟨S32x32, .f32⟩ : BufTy).Contents (Elt F) → (⟨S32x32, .f32⟩ : BufTy).Contents (Elt F)),
    binary main_v36 main_v37 main_v38 ((fun l r => Host.dotGeneral dot_S50000x32_S32x32_S50000x32_1_0_0_1_n_n none l r) : (⟨S50000x32, .f32⟩ : BufTy).Contents (Elt F) → (⟨S32x32, .f32⟩ : BufTy).Contents (Elt F) → (⟨S50000x32, .f32⟩ : BufTy).Contents (Elt F)),
    unary main_arg5 main_v39 (broadcastInDim S1x32 ![1] bcast_S32_S1x32_1 : (⟨S32, .f32⟩ : BufTy).Contents (Elt F) → (⟨S1x32, .f32⟩ : BufTy).Contents (Elt F)),
    unary main_v39 main_v40 (broadcastInDim S50000x32 ![0, 1] bcast_S1x32_S50000x32_0_1 : (⟨S1x32, .f32⟩ : BufTy).Contents (Elt F) → (⟨S50000x32, .f32⟩ : BufTy).Contents (Elt F)),
    binary main_v38 main_v40 main_v41 (addf : (⟨S50000x32, .f32⟩ : BufTy).Contents (Elt F) → (⟨S50000x32, .f32⟩ : BufTy).Contents (Elt F) → (⟨S50000x32, .f32⟩ : BufTy).Contents (Elt F)),
    unary main_arg6 main_v42 ((transpose S32x40 [1, 0] · transposes_S40x32_S32x40_1_0) : (⟨S40x32, .f32⟩ : BufTy).Contents (Elt F) → (⟨S32x40, .f32⟩ : BufTy).Contents (Elt F)),
    binary main_v41 main_v42 main_v43 ((fun l r => Host.dotGeneral dot_S50000x32_S32x40_S50000x40_1_0_0_1_n_n none l r) : (⟨S50000x32, .f32⟩ : BufTy).Contents (Elt F) → (⟨S32x40, .f32⟩ : BufTy).Contents (Elt F) → (⟨S50000x40, .f32⟩ : BufTy).Contents (Elt F)),
    unary main_arg7 main_v44 (broadcastInDim S1x40 ![1] bcast_S40_S1x40_1 : (⟨S40, .f32⟩ : BufTy).Contents (Elt F) → (⟨S1x40, .f32⟩ : BufTy).Contents (Elt F)),
    unary main_v44 main_v45 (broadcastInDim S50000x40 ![0, 1] bcast_S1x40_S50000x40_0_1 : (⟨S1x40, .f32⟩ : BufTy).Contents (Elt F) → (⟨S50000x40, .f32⟩ : BufTy).Contents (Elt F)),
    binary main_v43 main_v45 main_v46 (addf : (⟨S50000x40, .f32⟩ : BufTy).Contents (Elt F) → (⟨S50000x40, .f32⟩ : BufTy).Contents (Elt F) → (⟨S50000x40, .f32⟩ : BufTy).Contents (Elt F)),
    TRef.nullary (TRef.of (T := ⟨S_, .f32⟩) main_call1_cst) (constant S_ .f32 0xFF800000#32),
    TRef.binary (TRef.of (T := ⟨S50000x40, .f32⟩) main_v46) (TRef.of (T := ⟨S_, .f32⟩) main_call1_cst) (TRef.of (T := ⟨S50000, .f32⟩) main_call1_v0) (fun x v => Host.reduce FloatOps.maximumf x v reducesTo_S50000x40_S50000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf,
    TRef.unary (TRef.of (T := ⟨S50000, .f32⟩) main_call1_v2) (TRef.of (T := ⟨S50000x1, .f32⟩) main_call1_v3) (broadcastInDim S50000x1 ![0] bcast_S50000_S50000x1_0),
    TRef.unary (TRef.of (T := ⟨S50000x1, .f32⟩) main_call1_v3) (TRef.of (T := ⟨S50000x40, .f32⟩) main_call1_v4) (broadcastInDim S50000x40 ![0, 1] bcast_S50000x1_S50000x40_0_1),
    TRef.binary (TRef.of (T := ⟨S50000x40, .f32⟩) main_v46) (TRef.of (T := ⟨S50000x40, .f32⟩) main_call1_v4) (TRef.of (T := ⟨S50000x40, .f32⟩) main_call1_v5) subf,
    TRef.unary (TRef.of (T := ⟨S50000x40, .f32⟩) main_call1_v5) (TRef.of (T := ⟨S50000x40, .f32⟩) main_call1_v6) Host.exp,
    TRef.nullary (TRef.of (T := ⟨S_, .f32⟩) main_call1_cst_1) (constant S_ .f32 0x00000000#32),
    TRef.binary (TRef.of (T := ⟨S50000x40, .f32⟩) main_call1_v6) (TRef.of (T := ⟨S_, .f32⟩) main_call1_cst_1) (TRef.of (T := ⟨S50000, .f32⟩) main_call1_v7) (fun x v => Host.reduceAdd x v reducesTo_S50000x40_S50000_d1 h_S_),
    TRef.unary (TRef.of (T := ⟨S50000, .f32⟩) main_call1_v7) (TRef.of (T := ⟨S50000x1, .f32⟩) main_call1_v8) (broadcastInDim S50000x1 ![0] bcast_S50000_S50000x1_0),
    TRef.unary (TRef.of (T := ⟨S50000x1, .f32⟩) main_call1_v8) (TRef.of (T := ⟨S50000x1, .f32⟩) main_call1_v9) Host.log,
    TRef.unary (TRef.of (T := ⟨S50000x1, .f32⟩) main_call1_v9) (TRef.of (T := ⟨S50000x40, .f32⟩) main_call1_v10) (broadcastInDim S50000x40 ![0, 1] bcast_S50000x1_S50000x40_0_1),
    TRef.binary (TRef.of (T := ⟨S50000x40, .f32⟩) main_call1_v5) (TRef.of (T := ⟨S50000x40, .f32⟩) main_call1_v10) (TRef.of (T := ⟨S50000x40, .f32⟩) main_v47) subf ]

set_option maxRecDepth 200000 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 200000 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-! ## The run, with the result read through the operations -/

set_option maxRecDepth 16384 in
set_option maxHeartbeats 28800000 in
/-- Every weakly fair execution ends with the result array at the fold of the operations over the launch contents, and
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v47) = after ops (launchContents m c) (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨h c main_v47,
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

/-! ## The operations in three stretches: up to the hidden array, up to the logits, the log-softmax

The hidden array is read three times by the normalisation and the logits three times by the log-softmax, so the result
is read stretch by stretch, each stretch's result a function of the buffers the stretch reads. -/

/-- Up to the hidden array `x · Wlᵀ + mean · Wrᵀ`. -/
abbrev opsA : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    nullary main_cst (constant S_ .f32 0x00000000#32),
    unary main_cst main_v11 (broadcastInDim S50000x128 ![] bcast_S_S50000x128 : (⟨S_, .f32⟩ : BufTy).Contents (Elt F) → (⟨S50000x128, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    nullary main_cst_1 (constant S_ .f32 0x3F800000#32),
    unary main_cst_1 main_v14 (broadcastInDim S800000 ![] bcast_S_S800000 : (⟨S_, .f32⟩ : BufTy).Contents (Elt F) → (⟨S800000, .f32⟩ : BufTy).Contents (Elt F)),
    nullary main_cst_2 (constant S_ .f32 0x00000000#32),
    unary main_cst_2 main_v15 (broadcastInDim S50000 ![] bcast_S_S50000 : (⟨S_, .f32⟩ : BufTy).Contents (Elt F) → (⟨S50000, .f32⟩ : BufTy).Contents (Elt F)),
    unary main_v3 main_v16 (broadcastInDim S800000x1 ![0] bcast_S800000_S800000x1_0 : (⟨S800000, .i32⟩ : BufTy).Contents (Elt F) → (⟨S800000x1, .i32⟩ : BufTy).Contents (Elt F)),
    ternary main_v15 main_v16 main_v14 main_v17 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_3 (constant S_ .f32 0x3F800000#32),
    unary main_cst_3 main_v18 (broadcastInDim S50000 ![] bcast_S_S50000 : (⟨S_, .f32⟩ : BufTy).Contents (Elt F) → (⟨S50000, .f32⟩ : BufTy).Contents (Elt F)),
    binary main_v17 main_v18 main_v19 (maximumf : (⟨S50000, .f32⟩ : BufTy).Contents (Elt F) → (⟨S50000, .f32⟩ : BufTy).Contents (Elt F) → (⟨S50000, .f32⟩ : BufTy).Contents (Elt F)),
    unary main_v19 main_v20 (broadcastInDim S50000x1 ![0] bcast_S50000_S50000x1_0 : (⟨S50000, .f32⟩ : BufTy).Contents (Elt F) → (⟨S50000x1, .f32⟩ : BufTy).Contents (Elt F)),
    unary main_v20 main_v21 (broadcastInDim S50000x128 ![0, 1] bcast_S50000x1_S50000x128_0_1 : (⟨S50000x1, .f32⟩ : BufTy).Contents (Elt F) → (⟨S50000x128, .f32⟩ : BufTy).Contents (Elt F)),
    binary main_v13 main_v21 main_v22 (Host.divf : (⟨S50000x128, .f32⟩ : BufTy).Contents (Elt F) → (⟨S50000x128, .f32⟩ : BufTy).Contents (Elt F) → (⟨S50000x128, .f32⟩ : BufTy).Contents (Elt F)),
    unary main_arg2 main_v23 ((transpose S128x32 [1, 0] · transposes_S32x128_S128x32_1_0) : (⟨S32x128, .f32⟩ : BufTy).Contents (Elt F) → (⟨S128x32, .f32⟩ : BufTy).Contents (Elt F)),
    binary main_arg0 main_v23 main_v24 ((fun l r => Host.dotGeneral dot_S50000x128_S128x32_S50000x32_1_0_0_1_n_n none l r) : (⟨S50000x128, .f32⟩ : BufTy).Contents (Elt F) → (⟨S128x32, .f32⟩ : BufTy).Contents (Elt F) → (⟨S50000x32, .f32⟩ : BufTy).Contents (Elt F)),
    unary main_arg3 main_v25 ((transpose S128x32 [1, 0] · transposes_S32x128_S128x32_1_0) : (⟨S32x128, .f32⟩ : BufTy).Contents (Elt F) → (⟨S128x32, .f32⟩ : BufTy).Contents (Elt F)),
    binary main_v22 main_v25 main_v26 ((fun l r => Host.dotGeneral dot_S50000x128_S128x32_S50000x32_1_0_0_1_n_n none l r) : (⟨S50000x128, .f32⟩ : BufTy).Contents (Elt F) → (⟨S128x32, .f32⟩ : BufTy).Contents (Elt F) → (⟨S50000x32, .f32⟩ : BufTy).Contents (Elt F)),
    binary main_v24 main_v26 main_v27 (addf : (⟨S50000x32, .f32⟩ : BufTy).Contents (Elt F) → (⟨S50000x32, .f32⟩ : BufTy).Contents (Elt F) → (⟨S50000x32, .f32⟩ : BufTy).Contents (Elt F)) ]
/-- From the hidden array to the logits: normalisation, relu, two dense layers. -/
abbrev opsB : List (HloOp τ sig (Elt F)) :=
  [ binary main_v27 main_v27 main_v28 (mulf : (⟨S50000x32, .f32⟩ : BufTy).Contents (Elt F) → (⟨S50000x32, .f32⟩ : BufTy).Contents (Elt F) → (⟨S50000x32, .f32⟩ : BufTy).Contents (Elt F)),
    nullary main_cst_4 (constant S_ .f32 0x00000000#32),
    binary main_v28 main_cst_4 main_v29 ((fun x v => Host.reduceAdd x v reducesTo_S50000x32_S50000_d1 h_S_) : (⟨S50000x32, .f32⟩ : BufTy).Contents (Elt F) → (⟨S_, .f32⟩ : BufTy).Contents (Elt F) → (⟨S50000, .f32⟩ : BufTy).Contents (Elt F)),
    unary main_v29 main_v30 (broadcastInDim S50000x1 ![0] bcast_S50000_S50000x1_0 : (⟨S50000, .f32⟩ : BufTy).Contents (Elt F) → (⟨S50000x1, .f32⟩ : BufTy).Contents (Elt F)),
    unary main_v30 main_v31 (Host.sqrt : (⟨S50000x1, .f32⟩ : BufTy).Contents (Elt F) → (⟨S50000x1, .f32⟩ : BufTy).Contents (Elt F)),
    nullary main_cst_5 (constant S_ .f32 0x2B8CBCCC#32),
    unary main_cst_5 main_v32 (broadcastInDim S50000x1 ![] bcast_S_S50000x1 : (⟨S_, .f32⟩ : BufTy).Contents (Elt F) → (⟨S50000x1, .f32⟩ : BufTy).Contents (Elt F)),
    binary main_v31 main_v32 main_v33 (maximumf : (⟨S50000x1, .f32⟩ : BufTy).Contents (Elt F) → (⟨S50000x1, .f32⟩ : BufTy).Contents (Elt F) → (⟨S50000x1, .f32⟩ : BufTy).Contents (Elt F)),
    unary main_v33 main_v34 (broadcastInDim S50000x32 ![0, 1] bcast_S50000x1_S50000x32_0_1 : (⟨S50000x1, .f32⟩ : BufTy).Contents (Elt F) → (⟨S50000x32, .f32⟩ : BufTy).Contents (Elt F)),
    binary main_v27 main_v34 main_v35 (Host.divf : (⟨S50000x32, .f32⟩ : BufTy).Contents (Elt F) → (⟨S50000x32, .f32⟩ : BufTy).Contents (Elt F) → (⟨S50000x32, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x32, .f32⟩) main_call0_v0) (broadcastInDim S50000x32 ![] bcast_S_S50000x32),
    TRef.binary (TRef.of (T := ⟨S50000x32, .f32⟩) main_v35) (TRef.of (T := ⟨S50000x32, .f32⟩) main_call0_v0) (TRef.of (T := ⟨S50000x32, .f32⟩) main_v36) maximumf,
    unary main_arg4 main_v37 ((transpose S32x32 [1, 0] · transposes_S32x32_S32x32_1_0) : (⟨S32x32, .f32⟩ : BufTy).Contents (Elt F) → (⟨S32x32, .f32⟩ : BufTy).Contents (Elt F)),
    binary main_v36 main_v37 main_v38 ((fun l r => Host.dotGeneral dot_S50000x32_S32x32_S50000x32_1_0_0_1_n_n none l r) : (⟨S50000x32, .f32⟩ : BufTy).Contents (Elt F) → (⟨S32x32, .f32⟩ : BufTy).Contents (Elt F) → (⟨S50000x32, .f32⟩ : BufTy).Contents (Elt F)),
    unary main_arg5 main_v39 (broadcastInDim S1x32 ![1] bcast_S32_S1x32_1 : (⟨S32, .f32⟩ : BufTy).Contents (Elt F) → (⟨S1x32, .f32⟩ : BufTy).Contents (Elt F)),
    unary main_v39 main_v40 (broadcastInDim S50000x32 ![0, 1] bcast_S1x32_S50000x32_0_1 : (⟨S1x32, .f32⟩ : BufTy).Contents (Elt F) → (⟨S50000x32, .f32⟩ : BufTy).Contents (Elt F)),
    binary main_v38 main_v40 main_v41 (addf : (⟨S50000x32, .f32⟩ : BufTy).Contents (Elt F) → (⟨S50000x32, .f32⟩ : BufTy).Contents (Elt F) → (⟨S50000x32, .f32⟩ : BufTy).Contents (Elt F)),
    unary main_arg6 main_v42 ((transpose S32x40 [1, 0] · transposes_S40x32_S32x40_1_0) : (⟨S40x32, .f32⟩ : BufTy).Contents (Elt F) → (⟨S32x40, .f32⟩ : BufTy).Contents (Elt F)),
    binary main_v41 main_v42 main_v43 ((fun l r => Host.dotGeneral dot_S50000x32_S32x40_S50000x40_1_0_0_1_n_n none l r) : (⟨S50000x32, .f32⟩ : BufTy).Contents (Elt F) → (⟨S32x40, .f32⟩ : BufTy).Contents (Elt F) → (⟨S50000x40, .f32⟩ : BufTy).Contents (Elt F)),
    unary main_arg7 main_v44 (broadcastInDim S1x40 ![1] bcast_S40_S1x40_1 : (⟨S40, .f32⟩ : BufTy).Contents (Elt F) → (⟨S1x40, .f32⟩ : BufTy).Contents (Elt F)),
    unary main_v44 main_v45 (broadcastInDim S50000x40 ![0, 1] bcast_S1x40_S50000x40_0_1 : (⟨S1x40, .f32⟩ : BufTy).Contents (Elt F) → (⟨S50000x40, .f32⟩ : BufTy).Contents (Elt F)),
    binary main_v43 main_v45 main_v46 (addf : (⟨S50000x40, .f32⟩ : BufTy).Contents (Elt F) → (⟨S50000x40, .f32⟩ : BufTy).Contents (Elt F) → (⟨S50000x40, .f32⟩ : BufTy).Contents (Elt F)) ]
/-- The log-softmax of the logits. -/
abbrev opsC : List (HloOp τ sig (Elt F)) :=
  [ TRef.nullary (TRef.of (T := ⟨S_, .f32⟩) main_call1_cst) (constant S_ .f32 0xFF800000#32),
    TRef.binary (TRef.of (T := ⟨S50000x40, .f32⟩) main_v46) (TRef.of (T := ⟨S_, .f32⟩) main_call1_cst) (TRef.of (T := ⟨S50000, .f32⟩) main_call1_v0) (fun x v => Host.reduce FloatOps.maximumf x v reducesTo_S50000x40_S50000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S50000, .f32⟩) main_call1_v1) (broadcastInDim S50000 ![] bcast_S_S50000),
    TRef.binary (TRef.of (T := ⟨S50000, .f32⟩) main_call1_v1) (TRef.of (T := ⟨S50000, .f32⟩) main_call1_v0) (TRef.of (T := ⟨S50000, .f32⟩) main_call1_v2) maximumf,
    TRef.unary (TRef.of (T := ⟨S50000, .f32⟩) main_call1_v2) (TRef.of (T := ⟨S50000x1, .f32⟩) main_call1_v3) (broadcastInDim S50000x1 ![0] bcast_S50000_S50000x1_0),
    TRef.unary (TRef.of (T := ⟨S50000x1, .f32⟩) main_call1_v3) (TRef.of (T := ⟨S50000x40, .f32⟩) main_call1_v4) (broadcastInDim S50000x40 ![0, 1] bcast_S50000x1_S50000x40_0_1),
    TRef.binary (TRef.of (T := ⟨S50000x40, .f32⟩) main_v46) (TRef.of (T := ⟨S50000x40, .f32⟩) main_call1_v4) (TRef.of (T := ⟨S50000x40, .f32⟩) main_call1_v5) subf,
    TRef.unary (TRef.of (T := ⟨S50000x40, .f32⟩) main_call1_v5) (TRef.of (T := ⟨S50000x40, .f32⟩) main_call1_v6) Host.exp,
    TRef.nullary (TRef.of (T := ⟨S_, .f32⟩) main_call1_cst_1) (constant S_ .f32 0x00000000#32),
    TRef.binary (TRef.of (T := ⟨S50000x40, .f32⟩) main_call1_v6) (TRef.of (T := ⟨S_, .f32⟩) main_call1_cst_1) (TRef.of (T := ⟨S50000, .f32⟩) main_call1_v7) (fun x v => Host.reduceAdd x v reducesTo_S50000x40_S50000_d1 h_S_),
    TRef.unary (TRef.of (T := ⟨S50000, .f32⟩) main_call1_v7) (TRef.of (T := ⟨S50000x1, .f32⟩) main_call1_v8) (broadcastInDim S50000x1 ![0] bcast_S50000_S50000x1_0),
    TRef.unary (TRef.of (T := ⟨S50000x1, .f32⟩) main_call1_v8) (TRef.of (T := ⟨S50000x1, .f32⟩) main_call1_v9) Host.log,
    TRef.unary (TRef.of (T := ⟨S50000x1, .f32⟩) main_call1_v9) (TRef.of (T := ⟨S50000x40, .f32⟩) main_call1_v10) (broadcastInDim S50000x40 ![0, 1] bcast_S50000x1_S50000x40_0_1),
    TRef.binary (TRef.of (T := ⟨S50000x40, .f32⟩) main_call1_v5) (TRef.of (T := ⟨S50000x40, .f32⟩) main_call1_v10) (TRef.of (T := ⟨S50000x40, .f32⟩) main_v47) subf ]

theorem ops_split : (ops : List (HloOp τ sig (Elt F))) = opsA ++ (opsB ++ opsC) := rfl

/-- The contents after two lists of operations in a row. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- The hidden array as the host spells it, from the features, the edge list and the two weight arrays. -/
def refH (a0 : (⟨S50000x128, .f32⟩ : BufTy).Contents (Elt F)) (a1 : (⟨S2x800000, .i32⟩ : BufTy).Contents (Elt F)) (a2 a3 : (⟨S32x128, .f32⟩ : BufTy).Contents (Elt F)) : (⟨S50000x32, .f32⟩ : BufTy).Contents (Elt F) :=
  (addf (Host.dotGeneral dot_S50000x128_S128x32_S50000x32_1_0_0_1_n_n none a0 (transpose S128x32 [1, 0] a2 transposes_S32x128_S128x32_1_0)) (Host.dotGeneral dot_S50000x128_S128x32_S50000x32_1_0_0_1_n_n none (Host.divf (Host.scatterAdd scatter_S50000x128_S800000x1_S800000x128_1_0_0_1 (broadcastInDim S50000x128 ![] bcast_S_S50000x128 (constant S_ .f32 0x00000000#32)) (broadcastInDim S800000x1 ![0] bcast_S800000_S800000x1_0 (shapeCast _ (extractStridedSlice S1x800000 ![1, 0] a1 slices_S2x800000_S1x800000_1_0) shapeCasts_S1x800000_S800000)) (Host.gather gather_S50000x128_S800000x1_S800000x128_1_0_n_n_0_1_1128 a0 (broadcastInDim S800000x1 ![0] bcast_S800000_S800000x1_0 (select (cmpi .slt (shapeCast _ (extractStridedSlice S1x800000 ![0, 0] a1 slices_S2x800000_S1x800000_0_0) shapeCasts_S1x800000_S800000) (broadcastInDim S800000 ![] bcast_S_S800000 (constantI S_ 32 0#32))) (addi (shapeCast _ (extractStridedSlice S1x800000 ![0, 0] a1 slices_S2x800000_S1x800000_0_0) shapeCasts_S1x800000_S800000) (broadcastInDim S800000 ![] bcast_S_S800000 (constantI S_ 32 50000#32))) (shapeCast _ (extractStridedSlice S1x800000 ![0, 0] a1 slices_S2x800000_S1x800000_0_0) shapeCasts_S1x800000_S800000))))) (broadcastInDim S50000x128 ![0, 1] bcast_S50000x1_S50000x128_0_1 (broadcastInDim S50000x1 ![0] bcast_S50000_S50000x1_0 (maximumf (Host.scatterAdd scatter_S50000_S800000x1_S800000_n_0_0_1 (broadcastInDim S50000 ![] bcast_S_S50000 (constant S_ .f32 0x00000000#32)) (broadcastInDim S800000x1 ![0] bcast_S800000_S800000x1_0 (shapeCast _ (extractStridedSlice S1x800000 ![1, 0] a1 slices_S2x800000_S1x800000_1_0) shapeCasts_S1x800000_S800000)) (broadcastInDim S800000 ![] bcast_S_S800000 (constant S_ .f32 0x3F800000#32))) (broadcastInDim S50000 ![] bcast_S_S50000 (constant S_ .f32 0x3F800000#32)))))) (transpose S128x32 [1, 0] a3 transposes_S32x128_S128x32_1_0)))

/-- The logits as the host spells them, from the hidden array and the two layers' weights and biases. -/
def refY (h : (⟨S50000x32, .f32⟩ : BufTy).Contents (Elt F)) (a4 : (⟨S32x32, .f32⟩ : BufTy).Contents (Elt F)) (a5 : (⟨S32, .f32⟩ : BufTy).Contents (Elt F)) (a6 : (⟨S40x32, .f32⟩ : BufTy).Contents (Elt F)) (a7 : (⟨S40, .f32⟩ : BufTy).Contents (Elt F)) : (⟨S50000x40, .f32⟩ : BufTy).Contents (Elt F) :=
  (addf (Host.dotGeneral dot_S50000x32_S32x40_S50000x40_1_0_0_1_n_n none (addf (Host.dotGeneral dot_S50000x32_S32x32_S50000x32_1_0_0_1_n_n none (maximumf (Host.divf h (broadcastInDim S50000x32 ![0, 1] bcast_S50000x1_S50000x32_0_1 (maximumf (Host.sqrt (broadcastInDim S50000x1 ![0] bcast_S50000_S50000x1_0 (Host.reduceAdd (mulf h h) (constant S_ .f32 0x00000000#32) reducesTo_S50000x32_S50000_d1 h_S_))) (broadcastInDim S50000x1 ![] bcast_S_S50000x1 (constant S_ .f32 0x2B8CBCCC#32))))) (broadcastInDim S50000x32 ![] bcast_S_S50000x32 (constant S_ .f32 0x00000000#32))) (transpose S32x32 [1, 0] a4 transposes_S32x32_S32x32_1_0)) (broadcastInDim S50000x32 ![0, 1] bcast_S1x32_S50000x32_0_1 (broadcastInDim S1x32 ![1] bcast_S32_S1x32_1 a5))) (transpose S32x40 [1, 0] a6 transposes_S40x32_S32x40_1_0)) (broadcastInDim S50000x40 ![0, 1] bcast_S1x40_S50000x40_0_1 (broadcastInDim S1x40 ![1] bcast_S40_S1x40_1 a7)))

/-- The log-softmax as the host spells it. -/
def refL (y : (⟨S50000x40, .f32⟩ : BufTy).Contents (Elt F)) : (⟨S50000x40, .f32⟩ : BufTy).Contents (Elt F) :=
  subf (subf y (broadcastInDim S50000x40 ![0, 1] bcast_S50000x1_S50000x40_0_1 (broadcastInDim S50000x1 ![0] bcast_S50000_S50000x1_0 (maximumf (broadcastInDim S50000 ![] bcast_S_S50000 (constant S_ .f32 0xFF800000#32)) (Host.reduce FloatOps.maximumf y (constant S_ .f32 0xFF800000#32) reducesTo_S50000x40_S50000_d1 h_S_))))) (broadcastInDim S50000x40 ![0, 1] bcast_S50000x1_S50000x40_0_1 (Host.log (broadcastInDim S50000x1 ![0] bcast_S50000_S50000x1_0 (Host.reduceAdd (Host.exp (subf y (broadcastInDim S50000x40 ![0, 1] bcast_S50000x1_S50000x40_0_1 (broadcastInDim S50000x1 ![0] bcast_S50000_S50000x1_0 (maximumf (broadcastInDim S50000 ![] bcast_S_S50000 (constant S_ .f32 0xFF800000#32)) (Host.reduce FloatOps.maximumf y (constant S_ .f32 0xFF800000#32) reducesTo_S50000x40_S50000_d1 h_S_)))))) (constant S_ .f32 0x00000000#32) reducesTo_S50000x40_S50000_d1 h_S_))))

set_option maxRecDepth 16384 in
theorem stageA (V : Valuation τ sig (Elt F)) : after opsA V (Proc.devRef .tc main_v27)
    = refH (V (Proc.devRef .tc main_arg0)) (V (Proc.devRef .tc main_arg1)) (V (Proc.devRef .tc main_arg2)) (V (Proc.devRef .tc main_arg3)) := by
  after_results_simp <;> (unfold refH; rfl)
set_option maxRecDepth 16384 in
theorem keepA4 (V : Valuation τ sig (Elt F)) : after opsA V (Proc.devRef .tc main_arg4) = V (Proc.devRef .tc main_arg4) := by after_results_simp <;> rfl
set_option maxRecDepth 16384 in
theorem keepA5 (V : Valuation τ sig (Elt F)) : after opsA V (Proc.devRef .tc main_arg5) = V (Proc.devRef .tc main_arg5) := by after_results_simp <;> rfl
set_option maxRecDepth 16384 in
theorem keepA6 (V : Valuation τ sig (Elt F)) : after opsA V (Proc.devRef .tc main_arg6) = V (Proc.devRef .tc main_arg6) := by after_results_simp <;> rfl
set_option maxRecDepth 16384 in
theorem keepA7 (V : Valuation τ sig (Elt F)) : after opsA V (Proc.devRef .tc main_arg7) = V (Proc.devRef .tc main_arg7) := by after_results_simp <;> rfl
set_option maxRecDepth 16384 in
theorem stageB (V : Valuation τ sig (Elt F)) : after opsB V (Proc.devRef .tc main_v46)
    = refY (V (Proc.devRef .tc main_v27)) (V (Proc.devRef .tc main_arg4)) (V (Proc.devRef .tc main_arg5)) (V (Proc.devRef .tc main_arg6)) (V (Proc.devRef .tc main_arg7)) := by
  after_results_simp <;> (unfold refY; rfl)
/-- Contents carried to a buffer's own type and back are unchanged. -/
theorem ofBuf_toBuf {T : BufTy} (x : TRef sig T) (v : T.Contents (Elt F)) : x.ofBuf (x.toBuf v) = v := by
  obtain ⟨r, rfl, _, _⟩ := x
  rfl

set_option maxRecDepth 16384 in
theorem stageC (V : Valuation τ sig (Elt F)) : after opsC V (Proc.devRef .tc main_v47) = refL (V (Proc.devRef .tc main_v46)) := by
  after_results_simp
  simp only [ofBuf_toBuf]
  unfold refL
  rfl

/-- The result array after the whole program, from the launch contents. -/
theorem result_eq (m : (ℓ : Loc nD τ sig) → Buf (Elt F) ℓ) (c : Dev nD) :
    after ops (launchContents m c) (Proc.devRef .tc main_v47)
      = refL (refY (refH (m ((c.tc : Thread nD τ).loc main_arg0)) (m ((c.tc : Thread nD τ).loc main_arg1)) (m ((c.tc : Thread nD τ).loc main_arg2)) (m ((c.tc : Thread nD τ).loc main_arg3)))
          (m ((c.tc : Thread nD τ).loc main_arg4)) (m ((c.tc : Thread nD τ).loc main_arg5)) (m ((c.tc : Thread nD τ).loc main_arg6)) (m ((c.tc : Thread nD τ).loc main_arg7))) := by
  rw [ops_split, after_append, after_append, stageC, stageB, stageA, keepA4, keepA5, keepA6, keepA7]

end Cert.ReferenceIdeal.RefRun

end
-- ==== Proof.RefMean.lean ====
/-
  The reference's neighbour mean of an `[50000, 128]` array, read at an index.

  The edge list is a `[2, 800000]` integer array: row 0 holds the edges' sources, row 1 their targets. The sources
  are normalised (a negative index has the node count added) and every edge's row of the array is gathered at its
  source; the gathered rows are added onto a zero array at the edges' targets; ones are added onto a zero vector at
  the targets and floored at one; the sums are divided by those counts. Entry `(p, q)` is the sum from zero, over
  the edges pointing at `p`, of the array's entry at the edge's source row and column `q`, divided by the floored
  number of such edges.
-/
import proofs.«146005_j86466281603776_2_alg».proof.ReferenceIdeal
import proofs.«146005_j86466281603776_2_alg».proof.Proof.Gen.ReferenceIdeal
import proofs.«146005_j86466281603776_2_alg».proof.Proof.LibEdges
import proofs.«146005_j86466281603776_2_alg».proof.Proof.LibHostLayout
import proofs.«146005_j86466281603776_2_alg».proof.Proof.Spec

set_option maxRecDepth 16384

noncomputable section

namespace Cert.ReferenceIdeal.Mean

open Idealize.ShloMosaic Idealize.ShloMosaic.ValueIdx Cert.ReferenceIdeal Cert.ReferenceIdeal.Gen Cert.Layers Cert.Net Cert.LibEdges

/-! Coordinate facts of the reference's gather and scatter records. -/

theorem g_h0 (e : Fin 800000) (b : Fin 128) (idx : IVec S800000x1 32) :
    (gather_S50000x128_S800000x1_S800000x128_1_0_n_n_0_1_1128.operandIdx (ix2 e b) idx 0).val = min (idx (ix2 e (0 : Fin 1))).toInt.toNat (50000 - 1) := by
  show gather_S50000x128_S800000x1_S800000x128_1_0_n_n_0_1_1128.start (ix2 e b) idx 0 + gather_S50000x128_S800000x1_S800000x128_1_0_n_n_0_1_1128.batchCoord (ix2 e b) 0 + gather_S50000x128_S800000x1_S800000x128_1_0_n_n_0_1_1128.offCoord (ix2 e b) 0 = _
  rw [GatherDims.batchCoord_eq_zero _ _ _ (by decide), GatherDims.offCoord_eq_zero _ _ _ (by decide)]
  unfold GatherDims.start
  rw [dif_pos (show (0 : Fin 2) ∈ gather_S50000x128_S800000x1_S800000x128_1_0_n_n_0_1_1128.startIndexMap from List.mem_singleton.mpr rfl)]
  have hsi : gather_S50000x128_S800000x1_S800000x128_1_0_n_n_0_1_1128.siIdx (ix2 e b) ⟨List.idxOf (0 : Fin 2) gather_S50000x128_S800000x1_S800000x128_1_0_n_n_0_1_1128.startIndexMap,
      List.idxOf_lt_length_iff.2 (List.mem_singleton.mpr rfl)⟩ = ix2 e (0 : Fin 1) := by
    funext a; refine Fin.ext ?_
    match a with
    | ⟨0, _⟩ => rfl
    | ⟨1, _⟩ => rfl
  rw [hsi]
  rfl

theorem g_h1 (e : Fin 800000) (b : Fin 128) (idx : IVec S800000x1 32) :
    (gather_S50000x128_S800000x1_S800000x128_1_0_n_n_0_1_1128.operandIdx (ix2 e b) idx 1).val = b.val := by
  show gather_S50000x128_S800000x1_S800000x128_1_0_n_n_0_1_1128.start (ix2 e b) idx 1 + gather_S50000x128_S800000x1_S800000x128_1_0_n_n_0_1_1128.batchCoord (ix2 e b) 1 + gather_S50000x128_S800000x1_S800000x128_1_0_n_n_0_1_1128.offCoord (ix2 e b) 1 = _
  rw [GatherDims.batchCoord_eq_zero _ _ _ (by decide)]
  unfold GatherDims.start
  rw [dif_neg (by decide)]
  show 0 + 0 + (ix2 e b 1).val = b.val
  simp

theorem s_hs0 (e : Fin 800000) (b : Fin 128) (idx : IVec S800000x1 32) :
    scatter_S50000x128_S800000x1_S800000x128_1_0_0_1.start (ix2 e b) idx 0 = (idx (ix2 e (0 : Fin 1))).toInt := by
  unfold ScatterDims.start
  rw [dif_pos (show (0 : Fin 2) ∈ scatter_S50000x128_S800000x1_S800000x128_1_0_0_1.scatterDimsToOperandDims from List.mem_singleton.mpr rfl)]
  have hsi : scatter_S50000x128_S800000x1_S800000x128_1_0_0_1.siIdx (ix2 e b) ⟨List.idxOf (0 : Fin 2) scatter_S50000x128_S800000x1_S800000x128_1_0_0_1.scatterDimsToOperandDims,
      List.idxOf_lt_length_iff.2 (List.mem_singleton.mpr rfl)⟩ = ix2 e (0 : Fin 1) := by
    funext a; refine Fin.ext ?_
    match a with
    | ⟨0, _⟩ => rfl
    | ⟨1, _⟩ => rfl
  rw [hsi]

theorem s_hs1 (e : Fin 800000) (b : Fin 128) (idx : IVec S800000x1 32) : scatter_S50000x128_S800000x1_S800000x128_1_0_0_1.start (ix2 e b) idx 1 = 0 := by
  unfold ScatterDims.start
  rw [dif_neg (by decide)]

theorem s_hw0 (e : Fin 800000) (b : Fin 128) : scatter_S50000x128_S800000x1_S800000x128_1_0_0_1.window (ix2 e b) 0 = 0 := by
  unfold ScatterDims.window
  rw [dif_neg (by decide)]

theorem s_hw1 (e : Fin 800000) (b : Fin 128) : scatter_S50000x128_S800000x1_S800000x128_1_0_0_1.window (ix2 e b) 1 = b.val := rfl

theorem c_hs0 (e : Fin 800000) (idx : IVec S800000x1 32) :
    scatter_S50000_S800000x1_S800000_n_0_0_1.start (ix1 e) idx 0 = (idx (ix2 e (0 : Fin 1))).toInt := by
  unfold ScatterDims.start
  rw [dif_pos (show (0 : Fin 1) ∈ scatter_S50000_S800000x1_S800000_n_0_0_1.scatterDimsToOperandDims from List.mem_singleton.mpr rfl)]
  have hsi : scatter_S50000_S800000x1_S800000_n_0_0_1.siIdx (ix1 e) ⟨List.idxOf (0 : Fin 1) scatter_S50000_S800000x1_S800000_n_0_0_1.scatterDimsToOperandDims,
      List.idxOf_lt_length_iff.2 (List.mem_singleton.mpr rfl)⟩ = ix2 e (0 : Fin 1) := by
    funext a; refine Fin.ext ?_
    match a with
    | ⟨0, _⟩ => rfl
    | ⟨1, _⟩ => rfl
  rw [hsi]

theorem c_hw0 (e : Fin 800000) : scatter_S50000_S800000x1_S800000_n_0_0_1.window (ix1 e) 0 = 0 := by
  unfold ScatterDims.window
  rw [dif_neg (by decide)]

/-! ## The edge list's two index columns -/

/-- The edges' targets: row 1 of the edge list, as an `[800000, 1]` column. -/
abbrev tgtIdx (a1 : IVec S2x800000 32) : IVec S800000x1 32 :=
  broadcastInDim S800000x1 ![0] bcast_S800000_S800000x1_0 (shapeCast _ (extractStridedSlice S1x800000 ![1, 0] a1 slices_S2x800000_S1x800000_1_0) shapeCasts_S1x800000_S800000)

/-- The edges' sources: row 0 of the edge list, a negative index wrapped by the node count, as a column. -/
abbrev srcIdx (a1 : IVec S2x800000 32) : IVec S800000x1 32 :=
  broadcastInDim S800000x1 ![0] bcast_S800000_S800000x1_0 (select (cmpi .slt (shapeCast _ (extractStridedSlice S1x800000 ![0, 0] a1 slices_S2x800000_S1x800000_0_0) shapeCasts_S1x800000_S800000) (broadcastInDim S800000 ![] bcast_S_S800000 (constantI S_ 32 0#32))) (addi (shapeCast _ (extractStridedSlice S1x800000 ![0, 0] a1 slices_S2x800000_S1x800000_0_0) shapeCasts_S1x800000_S800000) (broadcastInDim S800000 ![] bcast_S_S800000 (constantI S_ 32 50000#32))) (shapeCast _ (extractStridedSlice S1x800000 ![0, 0] a1 slices_S2x800000_S1x800000_0_0) shapeCasts_S1x800000_S800000))

/-- The edges pointing at a node, and an edge's source row. -/
abbrev E (a1 : IVec S2x800000 32) : Fin 50000 → Finset (Fin 800000) := into (tgtIdx a1)
abbrev g (a1 : IVec S2x800000 32) : Fin 800000 → Fin 50000 := src (by decide) (srcIdx a1)

/-- The host's gather, two scatter-adds, floor and division are the neighbour mean. -/
theorem mean_eq (Z : FVec Ideal S50000x128 .f32) (a1 : IVec S2x800000 32) :
    Host.divf (Host.scatterAdd scatter_S50000x128_S800000x1_S800000x128_1_0_0_1 (broadcastInDim S50000x128 ![] bcast_S_S50000x128 (constant (F := Ideal) S_ .f32 0x00000000#32)) (tgtIdx a1) (Host.gather gather_S50000x128_S800000x1_S800000x128_1_0_n_n_0_1_1128 Z (srcIdx a1)))
      (broadcastInDim S50000x128 ![0, 1] bcast_S50000x1_S50000x128_0_1 (broadcastInDim S50000x1 ![0] bcast_S50000_S50000x1_0 (maximumf (Host.scatterAdd scatter_S50000_S800000x1_S800000_n_0_0_1 (broadcastInDim S50000 ![] bcast_S_S50000 (constant (F := Ideal) S_ .f32 0x00000000#32)) (tgtIdx a1) (broadcastInDim S800000 ![] bcast_S_S800000 (constant (F := Ideal) S_ .f32 0x3F800000#32))) (broadcastInDim S50000 ![] bcast_S_S50000 (constant (F := Ideal) S_ .f32 0x3F800000#32)))))
    = meanAgg (E a1) (g a1) (cntOf (E a1)) Z := by
  funext j
  obtain ⟨p, q, rfl⟩ : ∃ (p : Fin 50000) (q : Fin 128), j = ix2 p q := ⟨j 0, j 1, eq_ix2 j⟩
  have hnum : Host.scatterAdd scatter_S50000x128_S800000x1_S800000x128_1_0_0_1 (broadcastInDim S50000x128 ![] bcast_S_S50000x128 (constant (F := Ideal) S_ .f32 0x00000000#32)) (tgtIdx a1) (Host.gather gather_S50000x128_S800000x1_S800000x128_1_0_n_n_0_1_1128 Z (srcIdx a1)) (ix2 p q)
      = Ideal.ofBits .f32 0x00000000#32 + ∑ e ∈ E a1 p, Z (ix2 (g a1 e) q) := by
    rw [host_scatterAdd_rows scatter_S50000x128_S800000x1_S800000x128_1_0_0_1 s_hs0 s_hs1 s_hw0 s_hw1]
    exact congrArg₂ (· + ·) (broadcastInDim_apply ![] bcast_S_S50000x128 _ (ix2 p q) ix0 (fun a => a.elim0))
      (Finset.sum_congr rfl fun e _ => gather_rows (by decide) gather_S50000x128_S800000x1_S800000x128_1_0_n_n_0_1_1128 g_h0 g_h1 Z (srcIdx a1) e q)
  have hcnt : Host.scatterAdd scatter_S50000_S800000x1_S800000_n_0_0_1 (broadcastInDim S50000 ![] bcast_S_S50000 (constant (F := Ideal) S_ .f32 0x00000000#32)) (tgtIdx a1) (broadcastInDim S800000 ![] bcast_S_S800000 (constant (F := Ideal) S_ .f32 0x3F800000#32)) (ix1 p)
      = Ideal.ofBits .f32 0x00000000#32 + ∑ _e ∈ E a1 p, Ideal.ofBits .f32 0x3F800000#32 := by
    rw [host_scatterAdd_vec scatter_S50000_S800000x1_S800000_n_0_0_1 c_hs0 c_hw0]
    exact congrArg₂ (· + ·) (broadcastInDim_apply ![] bcast_S_S50000 _ (ix1 p) ix0 (fun a => a.elim0))
      (Finset.sum_congr rfl fun e _ => broadcastInDim_apply ![] bcast_S_S800000 _ (ix1 e) ix0 (fun a => a.elim0))
  have hden : broadcastInDim S50000x128 ![0, 1] bcast_S50000x1_S50000x128_0_1 (broadcastInDim S50000x1 ![0] bcast_S50000_S50000x1_0 (maximumf (Host.scatterAdd scatter_S50000_S800000x1_S800000_n_0_0_1 (broadcastInDim S50000 ![] bcast_S_S50000 (constant (F := Ideal) S_ .f32 0x00000000#32)) (tgtIdx a1) (broadcastInDim S800000 ![] bcast_S_S800000 (constant (F := Ideal) S_ .f32 0x3F800000#32))) (broadcastInDim S50000 ![] bcast_S_S50000 (constant (F := Ideal) S_ .f32 0x3F800000#32)))) (ix2 p q)
      = cntOf (E a1) p := by
    rw [Cert.LibHostLayout.broadcastInDim_a1_ab_apply, Cert.LibHostLayout.broadcastInDim_a_a1_apply]
    unfold cntOf
    rw [maximumf_at]
    exact congrArg₂ max hcnt (broadcastInDim_apply ![] bcast_S_S50000 _ (ix1 p) ix0 (fun a => a.elim0))
  exact (hostDivf_apply _ _ _).trans ((congrArg₂ Ideal.div hnum hden).trans (meanAgg_apply _ _ _ _ p q).symm)

end Cert.ReferenceIdeal.Mean

end
-- ==== Proof.RefValue.lean ====
/-
  The reference's result as the network's function of the argument arrays.

  The reference projects the features through the first transposed weight array, takes the neighbour mean of the
  features and projects it through the second, adds the two, and applies the head: row normalisation, `relu`, two
  dense layers and the log-softmax of every row.
-/
import proofs.«146005_j86466281603776_2_alg».proof.Proof.RefRun
import proofs.«146005_j86466281603776_2_alg».proof.Proof.RefMean
import proofs.«146005_j86466281603776_2_alg».proof.Proof.Spell

set_option maxRecDepth 16384

noncomputable section

namespace Cert.ReferenceIdeal.RefValue

open Cert.ReferenceIdeal Cert.ReferenceIdeal.Gen Cert.ReferenceIdeal.RefRun Cert.ReferenceIdeal.Mean
open Idealize.ShloMosaic Idealize.ShloMosaic.ValueIdx Cert.Layers Cert.Sage Cert.Net

/-- A dense layer as the host spells it. -/
theorem host_dense {n d h : ℕ}
    (D : DotDims (⟨2, ![n, d]⟩ : Shape) (⟨2, ![d, h]⟩ : Shape) (⟨2, ![n, h]⟩ : Shape))
    (hrank : D.contr.rank = 1) (hsize : D.contr.size ⟨0, by omega⟩ = d)
    (hl0 : ∀ (j : (⟨2, ![n, h]⟩ : Shape).Idx) (k : D.contr.Idx), (D.lhsIdx j k 0).val = (j 0).val)
    (hl1 : ∀ (j : (⟨2, ![n, h]⟩ : Shape).Idx) (k : D.contr.Idx), (D.lhsIdx j k 1).val = (k ⟨0, by omega⟩).val)
    (hr0 : ∀ (j : (⟨2, ![n, h]⟩ : Shape).Idx) (k : D.contr.Idx), (D.rhsIdx j k 0).val = (k ⟨0, by omega⟩).val)
    (hr1 : ∀ (j : (⟨2, ![n, h]⟩ : Shape).Idx) (k : D.contr.Idx), (D.rhsIdx j k 1).val = (j 1).val)
    (X : FVec Ideal (⟨2, ![n, d]⟩ : Shape) .f32) (W : FVec Ideal (⟨2, ![d, h]⟩ : Shape) .f32)
    (b : FVec Ideal (⟨1, ![h]⟩ : Shape) .f32) (N : Mat n d) (hX : X = N)
    (h1 : (⟨1, ![h]⟩ : Shape).BroadcastsInDim ⟨2, ![1, h]⟩ ![1])
    (h2 : (⟨2, ![1, h]⟩ : Shape).BroadcastsInDim ⟨2, ![n, h]⟩ ![0, 1]) :
    addf (Host.dotGeneral D none X W) (broadcastInDim ⟨2, ![n, h]⟩ ![0, 1] h2 (broadcastInDim ⟨2, ![1, h]⟩ ![1] h1 b)) = dense N W b := by
  subst hX
  rw [host_dot D hrank hsize hl0 hl1 hr0 hr1 none, host_addRow]
  rfl

/-- The hidden array: the features through the first weights plus the neighbour mean through the second. -/
theorem refH_eq (a0 : FVec Ideal S50000x128 .f32) (a1 : IVec S2x800000 32) (a2 a3 : FVec Ideal S32x128 .f32) :
    refH (F := Ideal) a0 a1 a2 a3
      = plus (mm a0 (transpose S128x32 [1, 0] a2 transposes_S32x128_S128x32_1_0))
          (mm (meanAgg (E a1) (g a1) (cntOf (E a1)) a0) (transpose S128x32 [1, 0] a3 transposes_S32x128_S128x32_1_0)) := by
  unfold refH
  exact congrArg₂ addf
    (host_dot dot_S50000x128_S128x32_S50000x32_1_0_0_1_n_n rfl rfl (fun _ _ => rfl) (fun _ _ => rfl) (fun _ _ => rfl) (fun _ _ => rfl) none a0 _)
    ((congrArg (fun M => Host.dotGeneral dot_S50000x128_S128x32_S50000x32_1_0_0_1_n_n none M (transpose S128x32 [1, 0] a3 transposes_S32x128_S128x32_1_0)) (mean_eq a0 a1)).trans
      (host_dot dot_S50000x128_S128x32_S50000x32_1_0_0_1_n_n rfl rfl (fun _ _ => rfl) (fun _ _ => rfl) (fun _ _ => rfl) (fun _ _ => rfl) none _ _))

/-- The logits: the hidden array normalised, `relu`, two dense layers. -/
theorem refY_eq (h : FVec Ideal S50000x32 .f32) (a4 : FVec Ideal S32x32 .f32) (a5 : FVec Ideal S32 .f32)
    (a6 : FVec Ideal S40x32 .f32) (a7 : FVec Ideal S40 .f32) :
    refY (F := Ideal) h a4 a5 a6 a7
      = dense (dense (relu (unit h)) (transpose S32x32 [1, 0] a4 transposes_S32x32_S32x32_1_0) a5)
          (transpose S32x40 [1, 0] a6 transposes_S40x32_S32x40_1_0) a7 := by
  unfold refY
  exact host_dense dot_S50000x32_S32x40_S50000x40_1_0_0_1_n_n rfl rfl (fun _ _ => rfl) (fun _ _ => rfl) (fun _ _ => rfl) (fun _ _ => rfl)
    _ _ a7 (dense (relu (unit h)) (transpose S32x32 [1, 0] a4 transposes_S32x32_S32x32_1_0) a5)
    (host_dense dot_S50000x32_S32x32_S50000x32_1_0_0_1_n_n rfl rfl (fun _ _ => rfl) (fun _ _ => rfl) (fun _ _ => rfl) (fun _ _ => rfl)
      _ _ a5 (relu (unit h))
      ((congrArg (fun Y => maximumf Y (broadcastInDim S50000x32 ![] bcast_S_S50000x32 (constant (F := Ideal) S_ .f32 0x00000000#32)))
          (host_unit h reducesTo_S50000x32_S50000_d1 h_S_ bcast_S50000_S50000x1_0 bcast_S_S50000x1 bcast_S50000x1_S50000x32_0_1)).trans
        (host_relu (unit h) bcast_S_S50000x32))
      bcast_S32_S1x32_1 bcast_S1x32_S50000x32_0_1)
    bcast_S40_S1x40_1 bcast_S1x40_S50000x40_0_1

/-- The log-softmax of the logits. -/
theorem refL_eq (y : FVec Ideal S50000x40 .f32) : refL (F := Ideal) y = logsm y := by
  unfold refL
  exact host_logsm y reducesTo_S50000x40_S50000_d1 h_S_ bcast_S_S50000 bcast_S50000_S50000x1_0 bcast_S50000x1_S50000x40_0_1 _ rfl

/-- The reference's result. -/
theorem value (a0 : FVec Ideal S50000x128 .f32) (a1 : IVec S2x800000 32) (a2 a3 : FVec Ideal S32x128 .f32)
    (a4 : FVec Ideal S32x32 .f32) (a5 : FVec Ideal S32 .f32) (a6 : FVec Ideal S40x32 .f32) (a7 : FVec Ideal S40 .f32) :
    refL (F := Ideal) (refY (refH a0 a1 a2 a3) a4 a5 a6 a7)
      = head (plus (mm a0 (transpose S128x32 [1, 0] a2 transposes_S32x128_S128x32_1_0))
            (mm (meanAgg (E a1) (g a1) (cntOf (E a1)) a0) (transpose S128x32 [1, 0] a3 transposes_S32x128_S128x32_1_0)))
          (transpose S32x32 [1, 0] a4 transposes_S32x32_S32x32_1_0) a5 (transpose S32x40 [1, 0] a6 transposes_S40x32_S32x40_1_0) a7 := by
  rw [refL_eq, refY_eq, refH_eq]
  rfl

end Cert.ReferenceIdeal.RefValue

end
-- ==== Proof.Finite.lean ====
/-
  Finite inputs are real numbers.

  The precondition says of every float argument array that the absolute value of each entry is below `+∞`; it is
  a conjunction, over the seven float arguments, of an `and`-reduction over the whole array. An extended real whose
  absolute value is below `+∞` is neither infinity, so it is a real number. The bridge between the two programs
  needs this of the feature array and of the second weight array only.
-/
import proofs.«146005_j86466281603776_2_alg».proof.Pre_finite_inputs
import proofs.«146005_j86466281603776_2_alg».proof.Proof.Gen.Pre_finite_inputs
import Idealize.ShloMosaic.PureOps.Ideal.Laws
import Idealize.ShloMosaic.Lib.ReduceAll
import Idealize.ShloMosaic.Lib.Affine
import Idealize.ShloMosaic.Lib.ValueIdx

noncomputable section

namespace Cert.Finite

open Idealize.ShloMosaic Idealize.ShloMosaic.ValueIdx Cert.Pre_finite_inputs Cert.Pre_finite_inputs.Gen

/-- The float word of `+∞`. -/
theorem inf_word : Ideal.ofBits .f32 0x7F800000#32 = ⊤ := by simp [Ideal.ofBits, Ideal.ieee]

/-- An extended real whose absolute value compares below `+∞` is a real number. -/
theorem real_of_abs_lt (x : EReal) (h : Ideal.cmp .olt (max x (-x)) (Ideal.ofBits .f32 0x7F800000#32) = 1#1) :
    ∃ r : ℝ, x = (r : EReal) := by
  rw [inf_word] at h
  induction x using EReal.rec with
  | bot => simp [Ideal.cmp] at h
  | coe r => exact ⟨r, rfl⟩
  | top => simp [Ideal.cmp] at h

instance : Subsingleton S_.Idx := ⟨fun a b => funext fun d => d.elim0⟩

/-- Under the precondition every entry of the feature array and of the second weight array is a real number. -/
theorem reals_of_pre (a0 : FVec Ideal S50000x128 .f32) (a1 : IVec S2x800000 32) (a2 a3 : FVec Ideal S32x128 .f32)
    (a4 : FVec Ideal S32x32 .f32) (a5 : FVec Ideal S32 .f32) (a6 : FVec Ideal S40x32 .f32) (a7 : FVec Ideal S40 .f32)
    (h : Cert.Pre_finite_inputs.fn (F := Ideal) a0 a1 a2 a3 a4 a5 a6 a7 = fun _ => 1#1) :
    (∀ i, ∃ r : ℝ, a0 i = (r : EReal)) ∧ (∀ i, ∃ r : ℝ, a3 i = (r : EReal)) := by
  have h0 := congrFun h ix0
  unfold Cert.Pre_finite_inputs.fn Cert.Pre_finite_inputs.fn_part1 at h0
  dsimp only at h0
  obtain ⟨hA, -⟩ := IntOp.andi_eq_one.mp (show IntOp.andi _ _ = 1#1 from h0)
  obtain ⟨hB, -⟩ := IntOp.andi_eq_one.mp (show IntOp.andi _ _ = 1#1 from hA)
  obtain ⟨hC, -⟩ := IntOp.andi_eq_one.mp (show IntOp.andi _ _ = 1#1 from hB)
  obtain ⟨hD, -⟩ := IntOp.andi_eq_one.mp (show IntOp.andi _ _ = 1#1 from hC)
  obtain ⟨hE, h12⟩ := IntOp.andi_eq_one.mp (show IntOp.andi _ _ = 1#1 from hD)
  obtain ⟨h3, -⟩ := IntOp.andi_eq_one.mp (show IntOp.andi _ _ = 1#1 from hE)
  exact ⟨fun i => real_of_abs_lt (a0 i) (Host.reduce_andi_all _ _ _ _ ix0 h3 i),
    fun i => real_of_abs_lt (a3 i) (Host.reduce_andi_all _ _ _ _ ix0 h12 i)⟩

end Cert.Finite

end
-- ==== Proof.Bridge.lean ====
/-
  The two idealized programs end with equal results.

  The kernel's result is the head of `X · Wlᵀ` plus the neighbour mean of `X · Wrᵀ`; the reference's is the head of
  `X · Wlᵀ` plus the neighbour mean of `X` times `Wrᵀ`. Under the precondition `X` and `Wr` hold real numbers and
  every floored edge count is a nonzero real, so the product with `Wrᵀ` commutes with the neighbour mean and the two
  results are one array. The edge sets, the source rows and the counts are the same functions of the edge list in
  both programs.
-/
import proofs.«146005_j86466281603776_2_alg».proof.Defs
import proofs.«146005_j86466281603776_2_alg».proof.Proof.Gen.Kernel.Frame
import proofs.«146005_j86466281603776_2_alg».proof.Proof.Gen.KernelIdeal.Frame
import proofs.«146005_j86466281603776_2_alg».proof.Proof.Gen.Pre_finite_inputs
import proofs.«146005_j86466281603776_2_alg».proof.Proof.KValue
import proofs.«146005_j86466281603776_2_alg».proof.Proof.RefValue
import proofs.«146005_j86466281603776_2_alg».proof.Proof.Finite

set_option maxRecDepth 16384

noncomputable section

namespace Cert.Proof.Claims

open Idealize.ShloMosaic Idealize.ShloMosaic.TcCoe Idealize.SL.Sem Cert.Layers Cert.Sage Cert.Net

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run (F := Ideal) m ρ)

/-- A transposed array of real numbers holds real numbers. -/
theorem transpose_real {s t : Shape} (perm : List (Fin s.rank)) (x : s.Idx → EReal) (h : s.Transposes perm t)
    (hx : ∀ i, ∃ r : ℝ, x i = (r : EReal)) (j : t.Idx) : ∃ r : ℝ, transpose t perm x h j = (r : EReal) := by
  unfold transpose
  exact hx _

theorem algebraic : Cert.algebraic_KernelIdeal_ReferenceIdeal := by
  intro m ρ m' ρ' hpre hagree
  refine ⟨fun c => Cert.KernelIdeal.KValue.net m c, Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4, h5, h6, h7⟩ := hagree c
  have hfin := Cert.Finite.reals_of_pre _ _ _ _ _ _ _ _ (hpre c)
  rw [Cert.ReferenceIdeal.RefRun.result_eq, Cert.ReferenceIdeal.RefValue.value, h0, h1, h2, h3, h4, h5, h6, h7,
    mm_meanAgg _ _ _ (fun p => cntOf_real _ p) _ _ hfin.1 (transpose_real _ _ _ hfin.2)]
  rfl

end Cert.Proof.Claims

end
-- ==== Proof.lean ====
/-
  The certificate: the three programs run and leave their arguments unchanged, the idealization rewrote nothing, and
  the idealized kernel and the idealized reference end with equal results (Proof/Bridge.lean).
-/
import proofs.«146005_j86466281603776_2_alg».proof.Defs
import proofs.«146005_j86466281603776_2_alg».proof.Proof.Gen.Kernel
import proofs.«146005_j86466281603776_2_alg».proof.Proof.Gen.Kernel.Skeleton
import proofs.«146005_j86466281603776_2_alg».proof.Proof.Gen.Kernel.Launch
import proofs.«146005_j86466281603776_2_alg».proof.Proof.Gen.Kernel.Points
import proofs.«146005_j86466281603776_2_alg».proof.Proof.Gen.Kernel.Frame
import proofs.«146005_j86466281603776_2_alg».proof.Proof.Gen.KernelIdeal
import proofs.«146005_j86466281603776_2_alg».proof.Proof.Gen.KernelIdeal.Skeleton
import proofs.«146005_j86466281603776_2_alg».proof.Proof.Gen.KernelIdeal.Launch
import proofs.«146005_j86466281603776_2_alg».proof.Proof.Gen.KernelIdeal.Points
import proofs.«146005_j86466281603776_2_alg».proof.Proof.Gen.KernelIdeal.Frame
import proofs.«146005_j86466281603776_2_alg».proof.Proof.Gen.ReferenceIdeal
import proofs.«146005_j86466281603776_2_alg».proof.Proof.Gen.Pre_finite_inputs
import proofs.«146005_j86466281603776_2_alg».proof.Proof.Bridge
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, trivial, Cert.Proof.Claims.algebraic⟩

end Cert.Proof

end
